-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S3x32x32 : Shape := ⟨3, ![3, 32, 32]⟩
abbrev S32 : Shape := ⟨1, ![32]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S3x32x32 : S_.BroadcastsInDim S3x32x32 (![] : Fin 0 → Fin S3x32x32.rank)
  reducesTo_S3x32x32_S_d0_1_2 : S3x32x32.ReducesTo [0, 1, 2] S_
  bcast_S_S32 : S_.BroadcastsInDim S32 (![] : Fin 0 → Fin S32.rank)
  reducesTo_S32_S_d0 : S32.ReducesTo [0] S_

variable [Facts]

def fn_part4 {F : FTy → Type} [FloatOps F] (main_arg14 : FVec F S32 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg11 : FVec F S3x32x32 .f32) (main_arg12 : FVec F S32 .f32) (main_arg13 : FVec F S3x32x32 .f32) (main_arg14 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S3x32x32 .f32 := Host.absf main_arg11
  let main_cst_20 : FVec F S_ .f32 := constant S_ .f32 0x7F800000#32
  let main_v55 : FVec F S3x32x32 .f32 := broadcastInDim S3x32x32 ![] bcast_S_S3x32x32 main_cst_20
  let main_v56 : IVec S3x32x32 1 := cmpf .olt main_v54 main_v55
  let main_c_21 : IVec S_ 1 := constantI S_ 1 1#1
  let main_v57 : IVec S_ 1 := (fun x v => Host.reduce IntOp.andi x v reducesTo_S3x32x32_S_d0_1_2 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S3x32x32 .f32 := Host.absf main_arg13
  let main_cst_24 : FVec F S_ .f32 := constant S_ .f32 0x7F800000#32
  let main_v65 : FVec F S3x32x32 .f32 := broadcastInDim S3x32x32 ![] bcast_S_S3x32x32 main_cst_24
  let main_v66 : IVec S3x32x32 1 := cmpf .olt main_v64 main_v65
  let main_c_25 : IVec S_ 1 := constantI S_ 1 1#1
  let main_v67 : IVec S_ 1 := (fun x v => Host.reduce IntOp.andi x v reducesTo_S3x32x32_S_d0_1_2 h_S_) main_v66 main_c_25
  fn_part4 (F := F) main_arg14 main_v63 main_v67

def fn_part2 {F : FTy → Type} [FloatOps F] (main_arg7 : FVec F S3x32x32 .f32) (main_arg8 : FVec F S32 .f32) (main_arg9 : FVec F S3x32x32 .f32) (main_arg10 : FVec F S32 .f32) (main_arg11 : FVec F S3x32x32 .f32) (main_arg12 : FVec F S32 .f32) (main_arg13 : FVec F S3x32x32 .f32) (main_arg14 : FVec F S32 .f32) (main_v33 : IVec S_ 1) : IVec S_ 1 :=
  let main_v34 : FVec F S3x32x32 .f32 := Host.absf main_arg7
  let main_cst_12 : FVec F S_ .f32 := constant S_ .f32 0x7F800000#32
  let main_v35 : FVec F S3x32x32 .f32 := broadcastInDim S3x32x32 ![] bcast_S_S3x32x32 main_cst_12
  let main_v36 : IVec S3x32x32 1 := cmpf .olt main_v34 main_v35
  let main_c_13 : IVec S_ 1 := constantI S_ 1 1#1
  let main_v37 : IVec S_ 1 := (fun x v => Host.reduce IntOp.andi x v reducesTo_S3x32x32_S_d0_1_2 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S3x32x32 .f32 := Host.absf main_arg9
  let main_cst_16 : FVec F S_ .f32 := constant S_ .f32 0x7F800000#32
  let main_v45 : FVec F S3x32x32 .f32 := broadcastInDim S3x32x32 ![] bcast_S_S3x32x32 main_cst_16
  let main_v46 : IVec S3x32x32 1 := cmpf .olt main_v44 main_v45
  let main_c_17 : IVec S_ 1 := constantI S_ 1 1#1
  let main_v47 : IVec S_ 1 := (fun x v => Host.reduce IntOp.andi x v reducesTo_S3x32x32_S_d0_1_2 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_arg14 main_v48 main_v49 main_v50

def fn_part1 {F : FTy → Type} [FloatOps F] (main_arg4 : FVec F S32 .f32) (main_arg5 : FVec F S3x32x32 .f32) (main_arg6 : FVec F S32 .f32) (main_arg7 : FVec F S3x32x32 .f32) (main_arg8 : FVec F S32 .f32) (main_arg9 : FVec F S3x32x32 .f32) (main_arg10 : FVec F S32 .f32) (main_arg11 : FVec F S3x32x32 .f32) (main_arg12 : FVec F S32 .f32) (main_arg13 : FVec F S3x32x32 .f32) (main_arg14 : FVec F S32 .f32) (main_v13 : IVec S_ 1) (main_v16 : IVec S3x32x32 1) : IVec S_ 1 :=
  let main_c_5 : IVec S_ 1 := constantI S_ 1 1#1
  let main_v17 : IVec S_ 1 := (fun x v => Host.reduce IntOp.andi x v reducesTo_S3x32x32_S_d0_1_2 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S3x32x32 .f32 := Host.absf main_arg5
  let main_cst_8 : FVec F S_ .f32 := constant S_ .f32 0x7F800000#32
  let main_v25 : FVec F S3x32x32 .f32 := broadcastInDim S3x32x32 ![] bcast_S_S3x32x32 main_cst_8
  let main_v26 : IVec S3x32x32 1 := cmpf .olt main_v24 main_v25
  let main_c_9 : IVec S_ 1 := constantI S_ 1 1#1
  let main_v27 : IVec S_ 1 := (fun x v => Host.reduce IntOp.andi x v reducesTo_S3x32x32_S_d0_1_2 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x32 .f32) (main_arg1 : FVec F S8192x8192 .f32) (main_arg2 : FVec F S8192x32 .f32) (main_arg3 : FVec F S3x32x32 .f32) (main_arg4 : FVec F S32 .f32) (main_arg5 : FVec F S3x32x32 .f32) (main_arg6 : FVec F S32 .f32) (main_arg7 : FVec F S3x32x32 .f32) (main_arg8 : FVec F S32 .f32) (main_arg9 : FVec F S3x32x32 .f32) (main_arg10 : FVec F S32 .f32) (main_arg11 : FVec F S3x32x32 .f32) (main_arg12 : FVec F S32 .f32) (main_arg13 : FVec F S3x32x32 .f32) (main_arg14 : FVec F S32 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S3x32x32 .f32 := Host.absf main_arg3
  let main_cst_4 : FVec F S_ .f32 := constant S_ .f32 0x7F800000#32
  let main_v15 : FVec F S3x32x32 .f32 := broadcastInDim S3x32x32 ![] bcast_S_S3x32x32 main_cst_4
  let main_v16 : IVec S3x32x32 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x32 : Shape := ⟨2, ![8192, 32]⟩
abbrev S8192x8192 : Shape := ⟨2, ![8192, 8192]⟩
abbrev S3x32x32 : Shape := ⟨3, ![3, 32, 32]⟩
abbrev S32 : Shape := ⟨1, ![32]⟩
abbrev S8192x64 : Shape := ⟨2, ![8192, 64]⟩
abbrev S1024x2048 : Shape := ⟨2, ![1024, 2048]⟩
abbrev S2048x64 : Shape := ⟨2, ![2048, 64]⟩
abbrev S1024x64 : Shape := ⟨2, ![1024, 64]⟩
abbrev S1x32x32 : Shape := ⟨3, ![1, 32, 32]⟩
abbrev S32x32 : Shape := ⟨2, ![32, 32]⟩
abbrev S1x32 : Shape := ⟨2, ![1, 32]⟩
abbrev S_ : Shape := ⟨0, ![]⟩
abbrev S2048x32 : Shape := ⟨2, ![2048, 32]⟩
abbrev S1024x32 : Shape := ⟨2, ![1024, 32]⟩

abbrev nBuf : Space → Nat
  | .hbm => 136
  | .vmem => 30
  | .smem => 0
  | _ => 0

abbrev hbmTy0_0 (i : Nat) : BufTy := match i % 128 with
  | 0 => ⟨S8192x32, .f32⟩
  | 1 => ⟨S8192x8192, .f32⟩
  | 2 => ⟨S8192x32, .f32⟩
  | 3 => ⟨S3x32x32, .f32⟩
  | 4 => ⟨S32, .f32⟩
  | 5 => ⟨S3x32x32, .f32⟩
  | 6 => ⟨S32, .f32⟩
  | 7 => ⟨S3x32x32, .f32⟩
  | 8 => ⟨S32, .f32⟩
  | 9 => ⟨S3x32x32, .f32⟩
  | 10 => ⟨S32, .f32⟩
  | 11 => ⟨S3x32x32, .f32⟩
  | 12 => ⟨S32, .f32⟩
  | 13 => ⟨S3x32x32, .f32⟩
  | 14 => ⟨S32, .f32⟩
  | 15 => ⟨S8192x64, .f32⟩
  | 16 => ⟨S8192x64, .f32⟩
  | 17 => ⟨S8192x8192, .bf16⟩
  | 18 => ⟨S8192x64, .f32⟩
  | 19 => ⟨S8192x32, .f32⟩
  | 20 => ⟨S8192x32, .f32⟩
  | 21 => ⟨S8192x32, .f32⟩
  | 22 => ⟨S8192x32, .f32⟩
  | 23 => ⟨S1x32x32, .f32⟩
  | 24 => ⟨S32x32, .f32⟩
  | 25 => ⟨S8192x32, .f32⟩
  | 26 => ⟨S1x32x32, .f32⟩
  | 27 => ⟨S32x32, .f32⟩
  | 28 => ⟨S8192x32, .f32⟩
  | 29 => ⟨S8192x32, .f32⟩
  | 30 => ⟨S1x32x32, .f32⟩
  | 31 => ⟨S32x32, .f32⟩
  | 32 => ⟨S8192x32, .f32⟩
  | 33 => ⟨S8192x32, .f32⟩
  | 34 => ⟨S1x32, .f32⟩
  | 35 => ⟨S8192x32, .f32⟩
  | 36 => ⟨S8192x32, .f32⟩
  | 37 => ⟨S1x32x32, .f32⟩
  | 38 => ⟨S32x32, .f32⟩
  | 39 => ⟨S8192x32, .f32⟩
  | 40 => ⟨S1x32x32, .f32⟩
  | 41 => ⟨S32x32, .f32⟩
  | 42 => ⟨S8192x32, .f32⟩
  | 43 => ⟨S8192x32, .f32⟩
  | 44 => ⟨S1x32x32, .f32⟩
  | 45 => ⟨S32x32, .f32⟩
  | 46 => ⟨S8192x32, .f32⟩
  | 47 => ⟨S8192x32, .f32⟩
  | 48 => ⟨S1x32, .f32⟩
  | 49 => ⟨S8192x32, .f32⟩
  | 50 => ⟨S8192x32, .f32⟩
  | 51 => ⟨S8192x32, .f32⟩
  | 52 => ⟨S8192x32, .f32⟩
  | 53 => ⟨S8192x32, .f32⟩
  | 54 => ⟨S_, .f32⟩
  | 55 => ⟨S8192x32, .f32⟩
  | 56 => ⟨S8192x32, .f32⟩
  | 57 => ⟨S_, .f32⟩
  | 58 => ⟨S8192x32, .f32⟩
  | 59 => ⟨S8192x32, .f32⟩
  | 60 => ⟨S1x32x32, .f32⟩
  | 61 => ⟨S32x32, .f32⟩
  | 62 => ⟨S8192x32, .f32⟩
  | 63 => ⟨S1x32x32, .f32⟩
  | 64 => ⟨S32x32, .f32⟩
  | 65 => ⟨S8192x32, .f32⟩
  | 66 => ⟨S8192x32, .f32⟩
  | 67 => ⟨S1x32x32, .f32⟩
  | 68 => ⟨S32x32, .f32⟩
  | 69 => ⟨S8192x32, .f32⟩
  | 70 => ⟨S8192x32, .f32⟩
  | 71 => ⟨S1x32, .f32⟩
  | 72 => ⟨S8192x32, .f32⟩
  | 73 => ⟨S8192x32, .f32⟩
  | 74 => ⟨S1x32x32, .f32⟩
  | 75 => ⟨S32x32, .f32⟩
  | 76 => ⟨S8192x32, .f32⟩
  | 77 => ⟨S1x32x32, .f32⟩
  | 78 => ⟨S32x32, .f32⟩
  | 79 => ⟨S8192x32, .f32⟩
  | 80 => ⟨S8192x32, .f32⟩
  | 81 => ⟨S1x32x32, .f32⟩
  | 82 => ⟨S32x32, .f32⟩
  | 83 => ⟨S8192x32, .f32⟩
  | 84 => ⟨S8192x32, .f32⟩
  | 85 => ⟨S1x32, .f32⟩
  | 86 => ⟨S8192x32, .f32⟩
  | 87 => ⟨S8192x32, .f32⟩
  | 88 => ⟨S8192x32, .f32⟩
  | 89 => ⟨S8192x32, .f32⟩
  | 90 => ⟨S8192x32, .f32⟩
  | 91 => ⟨S_, .f32⟩
  | 92 => ⟨S8192x32, .f32⟩
  | 93 => ⟨S8192x32, .f32⟩
  | 94 => ⟨S_, .f32⟩
  | 95 => ⟨S8192x32, .f32⟩
  | 96 => ⟨S8192x32, .f32⟩
  | 97 => ⟨S8192x32, .f32⟩
  | 98 => ⟨S8192x32, .f32⟩
  | 99 => ⟨S8192x32, .f32⟩
  | 100 => ⟨S1x32x32, .f32⟩
  | 101 => ⟨S32x32, .f32⟩
  | 102 => ⟨S8192x32, .f32⟩
  | 103 => ⟨S1x32x32, .f32⟩
  | 104 => ⟨S32x32, .f32⟩
  | 105 => ⟨S8192x32, .f32⟩
  | 106 => ⟨S8192x32, .f32⟩
  | 107 => ⟨S1x32x32, .f32⟩
  | 108 => ⟨S32x32, .f32⟩
  | 109 => ⟨S8192x32, .f32⟩
  | 110 => ⟨S8192x32, .f32⟩
  | 111 => ⟨S1x32, .f32⟩
  | 112 => ⟨S8192x32, .f32⟩
  | 113 => ⟨S8192x32, .f32⟩
  | 114 => ⟨S1x32x32, .f32⟩
  | 115 => ⟨S32x32, .f32⟩
  | 116 => ⟨S8192x32, .f32⟩
  | 117 => ⟨S1x32x32, .f32⟩
  | 118 => ⟨S32x32, .f32⟩
  | 119 => ⟨S8192x32, .f32⟩
  | 120 => ⟨S8192x32, .f32⟩
  | 121 => ⟨S1x32x32, .f32⟩
  | 122 => ⟨S32x32, .f32⟩
  | 123 => ⟨S8192x32, .f32⟩
  | 124 => ⟨S8192x32, .f32⟩
  | 125 => ⟨S1x32, .f32⟩
  | 126 => ⟨S8192x32, .f32⟩
  | 127 => ⟨S8192x32, .f32⟩
  | _ => ⟨S8192x32, .f32⟩

abbrev hbmTy0_1 (i : Nat) : BufTy := match i % 128 with
  | 0 => ⟨S8192x32, .f32⟩
  | 1 => ⟨S8192x32, .f32⟩
  | 2 => ⟨S8192x32, .f32⟩
  | 3 => ⟨S_, .f32⟩
  | 4 => ⟨S8192x32, .f32⟩
  | 5 => ⟨S8192x32, .f32⟩
  | 6 => ⟨S8192x32, .f32⟩
  | 7 => ⟨S8192x32, .f32⟩
  | _ => ⟨S8192x32, .f32⟩

abbrev hbmTy (i : Nat) : BufTy := match i / 128 with
  | 0 => hbmTy0_0 i
  | 1 => hbmTy0_1 i
  | _ => ⟨S8192x32, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S1024x64, .f32⟩
  | .local _ .vmem, ⟨5, _⟩ => ⟨S1024x64, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S2048x64, .f32⟩
  | .local _ .vmem, ⟨11, _⟩ => ⟨S2048x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x2048, .bf16⟩
  | .local _ .vmem, ⟨17, _⟩ => ⟨S1024x2048, .bf16⟩
  | .local _ .vmem, ⟨18, _⟩ => ⟨S2048x32, .f32⟩
  | .local _ .vmem, ⟨19, _⟩ => ⟨S2048x32, .f32⟩
  | .local _ .vmem, ⟨20, _⟩ => ⟨S1024x32, .f32⟩
  | .local _ .vmem, ⟨21, _⟩ => ⟨S1024x32, .f32⟩
  | .local _ .vmem, ⟨22, _⟩ => ⟨S1024x2048, .bf16⟩
  | .local _ .vmem, ⟨23, _⟩ => ⟨S1024x2048, .bf16⟩
  | .local _ .vmem, ⟨24, _⟩ => ⟨S2048x32, .f32⟩
  | .local _ .vmem, ⟨25, _⟩ => ⟨S2048x32, .f32⟩
  | .local _ .vmem, ⟨26, _⟩ => ⟨S1024x32, .f32⟩
  | .local _ .vmem, ⟨27, _⟩ => ⟨S1024x32, .f32⟩
  | .local _ .vmem, ⟨28, _⟩ => ⟨S1024x32, .f32⟩
  | .local _ .vmem, ⟨29, _⟩ => ⟨S1024x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1_0 : Ref sig .tc := ⟨.hbm, 16, rfl⟩
abbrev main_v1_1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst : Ref sig .tc := ⟨.hbm, 54, rfl⟩
abbrev main_v38 : Ref sig .tc := ⟨.hbm, 55, rfl⟩
abbrev main_v39 : Ref sig .tc := ⟨.hbm, 56, rfl⟩
abbrev main_cst_0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_1 : Ref sig .tc := ⟨.hbm, 91, rfl⟩
abbrev main_v73 : Ref sig .tc := ⟨.hbm, 92, rfl⟩
abbrev main_v74 : Ref sig .tc := ⟨.hbm, 93, rfl⟩
abbrev main_cst_2 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_3 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  concatenates_S8192x32_S8192x32_S8192x64_d1 : Shape.Concatenates [S8192x32, S8192x32] S8192x64 1
  inb_S1024x64_S1024x64_0_0 : ∀ a, (![0, 0] : Fin 2 → Nat) a + S1024x64.size a ≤ S1024x64.size a
  h_S1024x64 : 0 < S1024x64.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S1024x64_S1024x64 : S1024x64.ShapeCasts S1024x64
  shapeCasts_S1024x2048_S1024x2048 : S1024x2048.ShapeCasts S1024x2048
  slices_S8192x64_S8192x32_0_0 : S8192x64.Slices ![0, 0] S8192x32
  slices_S8192x64_S8192x32_0_32 : S8192x64.Slices ![0, 32] S8192x32
  slices_S3x32x32_S1x32x32_0_0_0 : S3x32x32.Slices ![0, 0, 0] S1x32x32
  shapeCasts_S1x32x32_S32x32 : S1x32x32.ShapeCasts S32x32
  slices_S3x32x32_S1x32x32_1_0_0 : S3x32x32.Slices ![1, 0, 0] S1x32x32
  slices_S3x32x32_S1x32x32_2_0_0 : S3x32x32.Slices ![2, 0, 0] S1x32x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  inb_S1024x32_S1024x32_0_0 : ∀ a, (![0, 0] : Fin 2 → Nat) a + S1024x32.size a ≤ S1024x32.size a
  h_S1024x32 : 0 < S1024x32.numel
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  shapeCasts_S1024x32_S1024x32 : S1024x32.ShapeCasts S1024x32
  dot_S1024x2048_S2048x64_S1024x64_1_0_0_1_n_n_wf : DotDims.WF S1024x2048 S2048x64 S1024x64 [1] [0] [0] [1] [] []
  dot_S8192x32_S32x32_S8192x32_1_0_0_1_n_n_wf : DotDims.WF S8192x32 S32x32 S8192x32 [1] [0] [0] [1] [] []
  dot_S1024x2048_S2048x32_S1024x32_1_0_0_1_n_n_wf : DotDims.WF S1024x2048 S2048x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x8192.size a
  hwx0_3 : ∀ i : grid0.Coords, EltTy.bits .bf16 = 32 ∨ (Rect.block (s := S8192x8192) S1024x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .f32 = 32 ∨ (Rect.block (s := S8192x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S8192x64.size a
  hwx1_3 : ∀ i : grid1.Coords, EltTy.bits .f32 = 32 ∨ (Rect.block (s := S8192x64) S1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .bf16 = 32 ∨ (Rect.block (s := S8192x8192) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x32.size a ≤ S8192x32.size a
  hwx2_1 : ∀ i : grid2.Coords, EltTy.bits .f32 = 32 ∨ (Rect.block (s := S8192x32) S2048x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x32.size a ≤ S8192x32.size a
  hwx2_2 : ∀ i : grid2.Coords, EltTy.bits .f32 = 32 ∨ (Rect.block (s := S8192x32) S1024x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .bf16 = 32 ∨ (Rect.block (s := S8192x8192) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x32.size a ≤ S8192x32.size a
  hwx3_1 : ∀ i : grid3.Coords, EltTy.bits .f32 = 32 ∨ (Rect.block (s := S8192x32) S2048x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x32.size a ≤ S8192x32.size a
  hwx3_2 : ∀ i : grid3.Coords, EltTy.bits .f32 = 32 ∨ (Rect.block (s := S8192x32) S1024x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x32.size a ≤ S8192x32.size a
  hwx3_3 : ∀ i : grid3.Coords, EltTy.bits .f32 = 32 ∨ (Rect.block (s := S8192x32) S1024x32.size (cc3_transform_3 i) (hinb3_3 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1_1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1_1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S2048x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v78) S1024x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1_1) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S2048x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1024x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1024x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x32 : Shape := ⟨2, ![8192, 32]⟩
abbrev S8192x8192 : Shape := ⟨2, ![8192, 8192]⟩
abbrev S3x32x32 : Shape := ⟨3, ![3, 32, 32]⟩
abbrev S32 : Shape := ⟨1, ![32]⟩
abbrev S1x32x32 : Shape := ⟨3, ![1, 32, 32]⟩
abbrev S32x32 : Shape := ⟨2, ![32, 32]⟩
abbrev S_ : Shape := ⟨0, ![]⟩
abbrev S1x32 : Shape := ⟨2, ![1, 32]⟩

abbrev nBuf : Space → Nat
  | .hbm => 162
  | .vmem => 0
  | .smem => 0
  | _ => 0

abbrev hbmTy0_0 (i : Nat) : BufTy := match i % 128 with
  | 0 => ⟨S8192x32, .f32⟩
  | 1 => ⟨S8192x8192, .f32⟩
  | 2 => ⟨S8192x32, .f32⟩
  | 3 => ⟨S3x32x32, .f32⟩
  | 4 => ⟨S32, .f32⟩
  | 5 => ⟨S3x32x32, .f32⟩
  | 6 => ⟨S32, .f32⟩
  | 7 => ⟨S3x32x32, .f32⟩
  | 8 => ⟨S32, .f32⟩
  | 9 => ⟨S3x32x32, .f32⟩
  | 10 => ⟨S32, .f32⟩
  | 11 => ⟨S3x32x32, .f32⟩
  | 12 => ⟨S32, .f32⟩
  | 13 => ⟨S3x32x32, .f32⟩
  | 14 => ⟨S32, .f32⟩
  | 15 => ⟨S1x32x32, .f32⟩
  | 16 => ⟨S32x32, .f32⟩
  | 17 => ⟨S8192x32, .f32⟩
  | 18 => ⟨S8192x32, .f32⟩
  | 19 => ⟨S1x32x32, .f32⟩
  | 20 => ⟨S32x32, .f32⟩
  | 21 => ⟨S8192x32, .f32⟩
  | 22 => ⟨S8192x32, .f32⟩
  | 23 => ⟨S8192x32, .f32⟩
  | 24 => ⟨S_, .f32⟩
  | 25 => ⟨S8192x32, .f32⟩
  | 26 => ⟨S8192x32, .f32⟩
  | 27 => ⟨S8192x32, .f32⟩
  | 28 => ⟨S1x32x32, .f32⟩
  | 29 => ⟨S32x32, .f32⟩
  | 30 => ⟨S8192x32, .f32⟩
  | 31 => ⟨S8192x32, .f32⟩
  | 32 => ⟨S1x32, .f32⟩
  | 33 => ⟨S8192x32, .f32⟩
  | 34 => ⟨S8192x32, .f32⟩
  | 35 => ⟨S1x32x32, .f32⟩
  | 36 => ⟨S32x32, .f32⟩
  | 37 => ⟨S8192x32, .f32⟩
  | 38 => ⟨S8192x32, .f32⟩
  | 39 => ⟨S1x32x32, .f32⟩
  | 40 => ⟨S32x32, .f32⟩
  | 41 => ⟨S8192x32, .f32⟩
  | 42 => ⟨S8192x32, .f32⟩
  | 43 => ⟨S8192x32, .f32⟩
  | 44 => ⟨S_, .f32⟩
  | 45 => ⟨S8192x32, .f32⟩
  | 46 => ⟨S8192x32, .f32⟩
  | 47 => ⟨S8192x32, .f32⟩
  | 48 => ⟨S1x32x32, .f32⟩
  | 49 => ⟨S32x32, .f32⟩
  | 50 => ⟨S8192x32, .f32⟩
  | 51 => ⟨S8192x32, .f32⟩
  | 52 => ⟨S1x32, .f32⟩
  | 53 => ⟨S8192x32, .f32⟩
  | 54 => ⟨S8192x32, .f32⟩
  | 55 => ⟨S8192x32, .f32⟩
  | 56 => ⟨S8192x32, .f32⟩
  | 57 => ⟨S8192x32, .f32⟩
  | 58 => ⟨S_, .f32⟩
  | 59 => ⟨S8192x32, .f32⟩
  | 60 => ⟨S8192x32, .f32⟩
  | 61 => ⟨S_, .f32⟩
  | 62 => ⟨S8192x32, .f32⟩
  | 63 => ⟨S8192x32, .f32⟩
  | 64 => ⟨S1x32x32, .f32⟩
  | 65 => ⟨S32x32, .f32⟩
  | 66 => ⟨S8192x32, .f32⟩
  | 67 => ⟨S8192x32, .f32⟩
  | 68 => ⟨S1x32x32, .f32⟩
  | 69 => ⟨S32x32, .f32⟩
  | 70 => ⟨S8192x32, .f32⟩
  | 71 => ⟨S8192x32, .f32⟩
  | 72 => ⟨S8192x32, .f32⟩
  | 73 => ⟨S_, .f32⟩
  | 74 => ⟨S8192x32, .f32⟩
  | 75 => ⟨S8192x32, .f32⟩
  | 76 => ⟨S8192x32, .f32⟩
  | 77 => ⟨S1x32x32, .f32⟩
  | 78 => ⟨S32x32, .f32⟩
  | 79 => ⟨S8192x32, .f32⟩
  | 80 => ⟨S8192x32, .f32⟩
  | 81 => ⟨S1x32, .f32⟩
  | 82 => ⟨S8192x32, .f32⟩
  | 83 => ⟨S8192x32, .f32⟩
  | 84 => ⟨S1x32x32, .f32⟩
  | 85 => ⟨S32x32, .f32⟩
  | 86 => ⟨S8192x32, .f32⟩
  | 87 => ⟨S8192x32, .f32⟩
  | 88 => ⟨S1x32x32, .f32⟩
  | 89 => ⟨S32x32, .f32⟩
  | 90 => ⟨S8192x32, .f32⟩
  | 91 => ⟨S8192x32, .f32⟩
  | 92 => ⟨S8192x32, .f32⟩
  | 93 => ⟨S_, .f32⟩
  | 94 => ⟨S8192x32, .f32⟩
  | 95 => ⟨S8192x32, .f32⟩
  | 96 => ⟨S8192x32, .f32⟩
  | 97 => ⟨S1x32x32, .f32⟩
  | 98 => ⟨S32x32, .f32⟩
  | 99 => ⟨S8192x32, .f32⟩
  | 100 => ⟨S8192x32, .f32⟩
  | 101 => ⟨S1x32, .f32⟩
  | 102 => ⟨S8192x32, .f32⟩
  | 103 => ⟨S8192x32, .f32⟩
  | 104 => ⟨S8192x32, .f32⟩
  | 105 => ⟨S8192x32, .f32⟩
  | 106 => ⟨S8192x32, .f32⟩
  | 107 => ⟨S_, .f32⟩
  | 108 => ⟨S8192x32, .f32⟩
  | 109 => ⟨S8192x32, .f32⟩
  | 110 => ⟨S_, .f32⟩
  | 111 => ⟨S8192x32, .f32⟩
  | 112 => ⟨S8192x32, .f32⟩
  | 113 => ⟨S1x32x32, .f32⟩
  | 114 => ⟨S32x32, .f32⟩
  | 115 => ⟨S8192x32, .f32⟩
  | 116 => ⟨S8192x32, .f32⟩
  | 117 => ⟨S1x32x32, .f32⟩
  | 118 => ⟨S32x32, .f32⟩
  | 119 => ⟨S8192x32, .f32⟩
  | 120 => ⟨S8192x32, .f32⟩
  | 121 => ⟨S8192x32, .f32⟩
  | 122 => ⟨S_, .f32⟩
  | 123 => ⟨S8192x32, .f32⟩
  | 124 => ⟨S8192x32, .f32⟩
  | 125 => ⟨S8192x32, .f32⟩
  | 126 => ⟨S1x32x32, .f32⟩
  | 127 => ⟨S32x32, .f32⟩
  | _ => ⟨S8192x32, .f32⟩

abbrev hbmTy0_1 (i : Nat) : BufTy := match i % 128 with
  | 0 => ⟨S8192x32, .f32⟩
  | 1 => ⟨S8192x32, .f32⟩
  | 2 => ⟨S1x32, .f32⟩
  | 3 => ⟨S8192x32, .f32⟩
  | 4 => ⟨S8192x32, .f32⟩
  | 5 => ⟨S8192x32, .f32⟩
  | 6 => ⟨S1x32x32, .f32⟩
  | 7 => ⟨S32x32, .f32⟩
  | 8 => ⟨S8192x32, .f32⟩
  | 9 => ⟨S8192x32, .f32⟩
  | 10 => ⟨S1x32x32, .f32⟩
  | 11 => ⟨S32x32, .f32⟩
  | 12 => ⟨S8192x32, .f32⟩
  | 13 => ⟨S8192x32, .f32⟩
  | 14 => ⟨S8192x32, .f32⟩
  | 15 => ⟨S_, .f32⟩
  | 16 => ⟨S8192x32, .f32⟩
  | 17 => ⟨S8192x32, .f32⟩
  | 18 => ⟨S8192x32, .f32⟩
  | 19 => ⟨S1x32x32, .f32⟩
  | 20 => ⟨S32x32, .f32⟩
  | 21 => ⟨S8192x32, .f32⟩
  | 22 => ⟨S8192x32, .f32⟩
  | 23 => ⟨S1x32, .f32⟩
  | 24 => ⟨S8192x32, .f32⟩
  | 25 => ⟨S8192x32, .f32⟩
  | 26 => ⟨S8192x32, .f32⟩
  | 27 => ⟨S8192x32, .f32⟩
  | 28 => ⟨S8192x32, .f32⟩
  | 29 => ⟨S_, .f32⟩
  | 30 => ⟨S8192x32, .f32⟩
  | 31 => ⟨S8192x32, .f32⟩
  | 32 => ⟨S8192x32, .f32⟩
  | 33 => ⟨S8192x32, .f32⟩
  | _ => ⟨S8192x32, .f32⟩

abbrev hbmTy (i : Nat) : BufTy := match i / 128 with
  | 0 => hbmTy0_0 i
  | 1 => hbmTy0_1 i
  | _ => ⟨S8192x32, .f32⟩

abbrev bufTy : (tb : Table) → Fin (tcTables nBuf tb) → BufTy
  | .hbm, ⟨i, _⟩ => hbmTy i
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_1 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_3 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_4 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_5 : Ref sig .tc := ⟨.hbm, 107, rfl⟩
abbrev main_v86 : Ref sig .tc := ⟨.hbm, 108, rfl⟩
abbrev main_v87 : Ref sig .tc := ⟨.hbm, 109, rfl⟩
abbrev main_cst_6 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_7 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_8 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_cst_9 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩

abbrev nD : Nat := 1
abbrev τ : Topo := Topo.v7x

variable {F : FTy → Type} [FloatOps F]

class Facts₀ : Prop where
  slices_S3x32x32_S1x32x32_0_0_0 : S3x32x32.Slices ![0, 0, 0] S1x32x32
  shapeCasts_S1x32x32_S32x32 : S1x32x32.ShapeCasts S32x32
  slices_S3x32x32_S1x32x32_1_0_0 : S3x32x32.Slices ![1, 0, 0] S1x32x32
  bcast_S_S8192x32 : S_.BroadcastsInDim S8192x32 (![] : Fin 0 → Fin S8192x32.rank)
  slices_S3x32x32_S1x32x32_2_0_0 : S3x32x32.Slices ![2, 0, 0] S1x32x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  dot_S8192x32_S32x32_S8192x32_1_0_0_1_n_n_wf : DotDims.WF S8192x32 S32x32 S8192x32 [1] [0] [0] [1] [] []
  dot_S8192x8192_S8192x32_S8192x32_1_0_0_1_n_n_wf : DotDims.WF S8192x8192 S8192x32 S8192x32 [1] [0] [0] [1] [] []

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.KernelRun.lean ====
/-
  The idealized kernel's run with its result named.

  @main is seven segments: host operations, two matrix-product regions, host operations, two more regions, host
  operations. The buffer contents at each boundary are a fold from the launch memory; after the last segment every
  unscoped buffer holds the last fold's contents. Here the run is stated with the result array at that fold's
  contents beside the unchanged arguments: the same launch over the same segments, the final state read once more,
  at the result's buffer.
-/
import proofs.«167089_j23330262352454_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and every argument array as launched. -/
theorem run : θ_run defs (onTc (τ := τ) (main (F := F))) ⟨m, fun _ => 0, ρ⟩ (fun r => ∀ c : Dev nD,
      r.2.mem ((c.tc : Thread nD τ).loc main_v114) = W7 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v114 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

end Cert.KernelIdeal.RunValue

end
-- ==== Proof.GruSpec.lean ====
/-
  The gated recurrent cell over Chebyshev graph convolutions, as one composition of array operations.

  For a signal T0 on the 8192 nodes (32 channels), its Chebyshev basis against the operator L is T0, T1 = L·T0 and
  T2 = 2·(L·T1) − T0. A convolution contracts the three basis arrays with the three 32×32 slices of a weight stack,
  adds them left to right, and adds the bias along the rows. The update gate Z and the reset gate R are logistic
  functions 1 / (1 + exp(−·)) of a sum of two convolutions (of X and of H); the candidate is tanh of the sum of a
  convolution of X and one of H ⊙ R; the new state is Z ⊙ H + (1 − Z) ⊙ candidate. Every operation here is the
  array-level one both programs apply, so that each program's result is this composition by unfolding alone,
  once its basis arrays are identified.
-/
import Idealize.ShloMosaic.PureOps
import Idealize.ShloMosaic.PureOps.Ideal

noncomputable section

namespace Cert.Gru

open Idealize.ShloMosaic

variable {F : FTy → Type} [FloatOps F]

/-- nodes × channels -/
abbrev SN : Shape := ⟨2, ![8192, 32]⟩
/-- nodes × nodes -/
abbrev SL : Shape := ⟨2, ![8192, 8192]⟩
/-- a weight stack: three 32×32 slices -/
abbrev SW3 : Shape := ⟨3, ![3, 32, 32]⟩
abbrev SW1 : Shape := ⟨3, ![1, 32, 32]⟩
abbrev SW : Shape := ⟨2, ![32, 32]⟩
abbrev SB : Shape := ⟨1, ![32]⟩
abbrev SB1 : Shape := ⟨2, ![1, 32]⟩
abbrev S0 : Shape := ⟨0, ![]⟩

theorem slice0 : SW3.Slices ![0, 0, 0] SW1 := by decide
theorem slice1 : SW3.Slices ![1, 0, 0] SW1 := by decide
theorem slice2 : SW3.Slices ![2, 0, 0] SW1 := by decide
theorem castW : SW1.ShapeCasts SW := by decide
theorem bcastB : SB.BroadcastsInDim SB1 (![1] : Fin 1 → Fin SB1.rank) := by decide
theorem bcastB1 : SB1.BroadcastsInDim SN (![0, 1] : Fin 2 → Fin SN.rank) := by decide
theorem bcast0 : S0.BroadcastsInDim SN (![] : Fin 0 → Fin SN.rank) := by decide

/-- nodes × 64: two signals side by side -/
abbrev SN2 : Shape := ⟨2, ![8192, 64]⟩
theorem sliceLo : SN2.Slices ![0, 0] SN := by decide
theorem sliceHi : SN2.Slices ![0, 32] SN := by decide
theorem joins : Shape.Concatenates [SN, SN] SN2 1 := by decide

/-- Two signals side by side along the channels, and the two halves of such a pair. -/
def join (A B : FVec F SN .f32) : FVec F SN2 .f32 := concatenate SN2 1 [⟨SN, A⟩, ⟨SN, B⟩] joins
def lo (T : FVec F SN2 .f32) : FVec F SN .f32 := extractStridedSlice SN ![0, 0] T sliceLo
def hi (T : FVec F SN2 .f32) : FVec F SN .f32 := extractStridedSlice SN ![0, 32] T sliceHi

/-- Slice k of a weight stack as a 32×32 matrix. -/
def w0 (W : FVec F SW3 .f32) : FVec F SW .f32 := shapeCast SW (extractStridedSlice SW1 ![0, 0, 0] W slice0) castW
def w1 (W : FVec F SW3 .f32) : FVec F SW .f32 := shapeCast SW (extractStridedSlice SW1 ![1, 0, 0] W slice1) castW
def w2 (W : FVec F SW3 .f32) : FVec F SW .f32 := shapeCast SW (extractStridedSlice SW1 ![2, 0, 0] W slice2) castW

/-- nodes × channels times a 32×32 weight slice. -/
def mulW (T : FVec F SN .f32) (W : FVec F SW .f32) : FVec F SN .f32 :=
  Host.dotGeneral (DotDims.plain 8192 32 32) none T W

/-- The operator applied to a signal: L·T. -/
def mulL (L : FVec F SL .f32) (T : FVec F SN .f32) : FVec F SN .f32 :=
  Host.dotGeneral (DotDims.plain 8192 8192 32) none L T

/-- The scalar 2 and the scalar 1, spread over nodes × channels (kept as their words). -/
def two : FVec F SN .f32 := broadcastInDim SN ![] bcast0 (constant S0 .f32 0x40000000#32)
def one : FVec F SN .f32 := broadcastInDim SN ![] bcast0 (constant S0 .f32 0x3F800000#32)

/-- The third basis array: 2·(L·T1) − T0. -/
def cheb2 (L : FVec F SL .f32) (T0 T1 : FVec F SN .f32) : FVec F SN .f32 :=
  subf (mulf two (mulL L T1)) T0

/-- The bias along the rows. -/
def bias (b : FVec F SB .f32) : FVec F SN .f32 :=
  broadcastInDim SN ![0, 1] bcastB1 (broadcastInDim SB1 ![1] bcastB b)

/-- One convolution from its three basis arrays: ((T0·W₀ + T1·W₁) + T2·W₂) + b. -/
def conv (T0 T1 T2 : FVec F SN .f32) (W : FVec F SW3 .f32) (b : FVec F SB .f32) : FVec F SN .f32 :=
  addf (addf (addf (mulW T0 (w0 W)) (mulW T1 (w1 W))) (mulW T2 (w2 W))) (bias b)

/-- The logistic function as both programs spell it: 1 / (1 + exp(−x)). -/
def logistic (x : FVec F SN .f32) : FVec F SN .f32 :=
  Host.divf one (addf one (Host.exp (Host.negf x)))

/-- A gate: the logistic function of the sum of a convolution of X and one of H. -/
def gate (X X1 X2 H H1 H2 : FVec F SN .f32) (Wx : FVec F SW3 .f32) (bx : FVec F SB .f32)
    (Wh : FVec F SW3 .f32) (bh : FVec F SB .f32) : FVec F SN .f32 :=
  logistic (addf (conv X X1 X2 Wx bx) (conv H H1 H2 Wh bh))

/-- The candidate state: tanh of the sum of a convolution of X and one of the reset state. -/
def cand (X X1 X2 G G1 G2 : FVec F SN .f32) (Wx : FVec F SW3 .f32) (bx : FVec F SB .f32)
    (Wh : FVec F SW3 .f32) (bh : FVec F SB .f32) : FVec F SN .f32 :=
  Host.tanh (addf (conv X X1 X2 Wx bx) (conv G G1 G2 Wh bh))

/-- The new state: Z ⊙ H + (1 − Z) ⊙ candidate. -/
def blend (Z H C : FVec F SN .f32) : FVec F SN .f32 :=
  addf (mulf Z H) (mulf (subf one Z) C)

/-- The whole cell from the arguments, every basis array computed from L by the host's product. -/
def cell (X : FVec F SN .f32) (L : FVec F SL .f32) (H : FVec F SN .f32)
    (Wxz : FVec F SW3 .f32) (bxz : FVec F SB .f32) (Whz : FVec F SW3 .f32) (bhz : FVec F SB .f32)
    (Wxr : FVec F SW3 .f32) (bxr : FVec F SB .f32) (Whr : FVec F SW3 .f32) (bhr : FVec F SB .f32)
    (Wxh : FVec F SW3 .f32) (bxh : FVec F SB .f32) (Whh : FVec F SW3 .f32) (bhh : FVec F SB .f32) : FVec F SN .f32 :=
  blend (gate X (mulL L X) (cheb2 L X (mulL L X)) H (mulL L H) (cheb2 L H (mulL L H)) Wxz bxz Whz bhz) H
    (cand X (mulL L X) (cheb2 L X (mulL L X))
      (mulf H (gate X (mulL L X) (cheb2 L X (mulL L X)) H (mulL L H) (cheb2 L H (mulL L H)) Wxr bxr Whr bhr))
      (mulL L (mulf H (gate X (mulL L X) (cheb2 L X (mulL L X)) H (mulL L H) (cheb2 L H (mulL L H)) Wxr bxr Whr bhr)))
      (cheb2 L (mulf H (gate X (mulL L X) (cheb2 L X (mulL L X)) H (mulL L H) (cheb2 L H (mulL L H)) Wxr bxr Whr bhr))
        (mulL L (mulf H (gate X (mulL L X) (cheb2 L X (mulL L X)) H (mulL L H) (cheb2 L H (mulL L H)) Wxr bxr Whr bhr))))
      Wxh bxh Whh bhh)

end Cert.Gru

end
-- ==== Proof.KernelTail.lean ====
import proofs.«167089_j23330262352454_2_alg».proof.Proof.Gen.KernelIdeal.Frame
import proofs.«167089_j23330262352454_2_alg».proof.Proof.GruSpec
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The argument arrays at the boundaries: no host operation writes one, and no region has one as an output -/

/-- The operator L as the first region finds it. -/
theorem W1_arg1 (c : Dev nD) : (W1 m ρ c (Proc.devRef .tc main_arg1)) = m ((c : Thread nD τ).loc main_arg1) :=
  (StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg1) = W0 m ρ c (Proc.devRef .tc main_arg1)).trans rfl

/-- The two signals side by side, as the first region finds them. -/
theorem W1_v0 (c : Dev nD) : (W1 m ρ c (Proc.devRef .tc main_v0))
    = Cert.Gru.join (m ((c : Thread nD τ).loc main_arg0)) (m ((c : Thread nD τ).loc main_arg2)) := by
  show StableHlo.after hostOps0 (W0 m ρ c) (Proc.devRef .tc main_v0) = _
  after_results
  rfl

theorem W3_arg0 (c : Dev nD) : (W3 m ρ c (Proc.devRef .tc main_arg0)) = m ((c : Thread nD τ).loc main_arg0) :=
  (W3_of_ne m ρ c main_arg0 (by decide)).trans ((W2_of_ne m ρ c main_arg0 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg0) = W0 m ρ c (Proc.devRef .tc main_arg0)).trans rfl))
theorem W3_arg2 (c : Dev nD) : (W3 m ρ c (Proc.devRef .tc main_arg2)) = m ((c : Thread nD τ).loc main_arg2) :=
  (W3_of_ne m ρ c main_arg2 (by decide)).trans ((W2_of_ne m ρ c main_arg2 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg2) = W0 m ρ c (Proc.devRef .tc main_arg2)).trans rfl))
theorem W3_arg3 (c : Dev nD) : (W3 m ρ c (Proc.devRef .tc main_arg3)) = m ((c : Thread nD τ).loc main_arg3) :=
  (W3_of_ne m ρ c main_arg3 (by decide)).trans ((W2_of_ne m ρ c main_arg3 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg3) = W0 m ρ c (Proc.devRef .tc main_arg3)).trans rfl))
theorem W3_arg4 (c : Dev nD) : (W3 m ρ c (Proc.devRef .tc main_arg4)) = m ((c : Thread nD τ).loc main_arg4) :=
  (W3_of_ne m ρ c main_arg4 (by decide)).trans ((W2_of_ne m ρ c main_arg4 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg4) = W0 m ρ c (Proc.devRef .tc main_arg4)).trans rfl))
theorem W3_arg5 (c : Dev nD) : (W3 m ρ c (Proc.devRef .tc main_arg5)) = m ((c : Thread nD τ).loc main_arg5) :=
  (W3_of_ne m ρ c main_arg5 (by decide)).trans ((W2_of_ne m ρ c main_arg5 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg5) = W0 m ρ c (Proc.devRef .tc main_arg5)).trans rfl))
theorem W3_arg6 (c : Dev nD) : (W3 m ρ c (Proc.devRef .tc main_arg6)) = m ((c : Thread nD τ).loc main_arg6) :=
  (W3_of_ne m ρ c main_arg6 (by decide)).trans ((W2_of_ne m ρ c main_arg6 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg6) = W0 m ρ c (Proc.devRef .tc main_arg6)).trans rfl))
theorem W3_arg7 (c : Dev nD) : (W3 m ρ c (Proc.devRef .tc main_arg7)) = m ((c : Thread nD τ).loc main_arg7) :=
  (W3_of_ne m ρ c main_arg7 (by decide)).trans ((W2_of_ne m ρ c main_arg7 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg7) = W0 m ρ c (Proc.devRef .tc main_arg7)).trans rfl))
theorem W3_arg8 (c : Dev nD) : (W3 m ρ c (Proc.devRef .tc main_arg8)) = m ((c : Thread nD τ).loc main_arg8) :=
  (W3_of_ne m ρ c main_arg8 (by decide)).trans ((W2_of_ne m ρ c main_arg8 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg8) = W0 m ρ c (Proc.devRef .tc main_arg8)).trans rfl))
theorem W3_arg9 (c : Dev nD) : (W3 m ρ c (Proc.devRef .tc main_arg9)) = m ((c : Thread nD τ).loc main_arg9) :=
  (W3_of_ne m ρ c main_arg9 (by decide)).trans ((W2_of_ne m ρ c main_arg9 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg9) = W0 m ρ c (Proc.devRef .tc main_arg9)).trans rfl))
theorem W3_arg10 (c : Dev nD) : (W3 m ρ c (Proc.devRef .tc main_arg10)) = m ((c : Thread nD τ).loc main_arg10) :=
  (W3_of_ne m ρ c main_arg10 (by decide)).trans ((W2_of_ne m ρ c main_arg10 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg10) = W0 m ρ c (Proc.devRef .tc main_arg10)).trans rfl))
theorem W3_arg11 (c : Dev nD) : (W3 m ρ c (Proc.devRef .tc main_arg11)) = m ((c : Thread nD τ).loc main_arg11) :=
  (W3_of_ne m ρ c main_arg11 (by decide)).trans ((W2_of_ne m ρ c main_arg11 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg11) = W0 m ρ c (Proc.devRef .tc main_arg11)).trans rfl))
theorem W3_arg12 (c : Dev nD) : (W3 m ρ c (Proc.devRef .tc main_arg12)) = m ((c : Thread nD τ).loc main_arg12) :=
  (W3_of_ne m ρ c main_arg12 (by decide)).trans ((W2_of_ne m ρ c main_arg12 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg12) = W0 m ρ c (Proc.devRef .tc main_arg12)).trans rfl))
theorem W3_arg13 (c : Dev nD) : (W3 m ρ c (Proc.devRef .tc main_arg13)) = m ((c : Thread nD τ).loc main_arg13) :=
  (W3_of_ne m ρ c main_arg13 (by decide)).trans ((W2_of_ne m ρ c main_arg13 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg13) = W0 m ρ c (Proc.devRef .tc main_arg13)).trans rfl))
theorem W3_arg14 (c : Dev nD) : (W3 m ρ c (Proc.devRef .tc main_arg14)) = m ((c : Thread nD τ).loc main_arg14) :=
  (W3_of_ne m ρ c main_arg14 (by decide)).trans ((W2_of_ne m ρ c main_arg14 (by decide)).trans
    ((StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide))) : StableHlo.after hostOps0 (W0 m ρ c) (Proc.devRef .tc main_arg14) = W0 m ρ c (Proc.devRef .tc main_arg14)).trans rfl))
theorem W6_arg0 (c : Dev nD) : (W6 m ρ c (Proc.devRef .tc main_arg0)) = m ((c : Thread nD τ).loc main_arg0) :=
  (W6_of_ne m ρ c main_arg0 (by decide)).trans ((W5_of_ne m ρ c main_arg0 (by decide)).trans
    ((StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide))) : StableHlo.after hostOps2 (W3 m ρ c) (Proc.devRef .tc main_arg0) = W3 m ρ c (Proc.devRef .tc main_arg0)).trans (W3_arg0 m ρ c)))
theorem W6_arg2 (c : Dev nD) : (W6 m ρ c (Proc.devRef .tc main_arg2)) = m ((c : Thread nD τ).loc main_arg2) :=
  (W6_of_ne m ρ c main_arg2 (by decide)).trans ((W5_of_ne m ρ c main_arg2 (by decide)).trans
    ((StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide))) : StableHlo.after hostOps2 (W3 m ρ c) (Proc.devRef .tc main_arg2) = W3 m ρ c (Proc.devRef .tc main_arg2)).trans (W3_arg2 m ρ c)))
theorem W6_arg11 (c : Dev nD) : (W6 m ρ c (Proc.devRef .tc main_arg11)) = m ((c : Thread nD τ).loc main_arg11) :=
  (W6_of_ne m ρ c main_arg11 (by decide)).trans ((W5_of_ne m ρ c main_arg11 (by decide)).trans
    ((StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide))) : StableHlo.after hostOps2 (W3 m ρ c) (Proc.devRef .tc main_arg11) = W3 m ρ c (Proc.devRef .tc main_arg11)).trans (W3_arg11 m ρ c)))
theorem W6_arg12 (c : Dev nD) : (W6 m ρ c (Proc.devRef .tc main_arg12)) = m ((c : Thread nD τ).loc main_arg12) :=
  (W6_of_ne m ρ c main_arg12 (by decide)).trans ((W5_of_ne m ρ c main_arg12 (by decide)).trans
    ((StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide))) : StableHlo.after hostOps2 (W3 m ρ c) (Proc.devRef .tc main_arg12) = W3 m ρ c (Proc.devRef .tc main_arg12)).trans (W3_arg12 m ρ c)))
theorem W6_arg13 (c : Dev nD) : (W6 m ρ c (Proc.devRef .tc main_arg13)) = m ((c : Thread nD τ).loc main_arg13) :=
  (W6_of_ne m ρ c main_arg13 (by decide)).trans ((W5_of_ne m ρ c main_arg13 (by decide)).trans
    ((StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide))) : StableHlo.after hostOps2 (W3 m ρ c) (Proc.devRef .tc main_arg13) = W3 m ρ c (Proc.devRef .tc main_arg13)).trans (W3_arg13 m ρ c)))
theorem W6_arg14 (c : Dev nD) : (W6 m ρ c (Proc.devRef .tc main_arg14)) = m ((c : Thread nD τ).loc main_arg14) :=
  (W6_of_ne m ρ c main_arg14 (by decide)).trans ((W5_of_ne m ρ c main_arg14 (by decide)).trans
    ((StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide))) : StableHlo.after hostOps2 (W3 m ρ c) (Proc.devRef .tc main_arg14) = W3 m ρ c (Proc.devRef .tc main_arg14)).trans (W3_arg14 m ρ c)))

/-! ## The middle stretch of host operations, from the contents the second region leaves -/

theorem W4_v3 (c : Dev nD) : (W4 m ρ c (Proc.devRef .tc main_v3)) = Cert.Gru.lo (W3 m ρ c (Proc.devRef .tc main_v1_0)) := by
  show StableHlo.after hostOps2 (W3 m ρ c) (Proc.devRef .tc main_v3) = _
  after_results_simp
  rfl
theorem W4_v4 (c : Dev nD) : (W4 m ρ c (Proc.devRef .tc main_v4)) = Cert.Gru.hi (W3 m ρ c (Proc.devRef .tc main_v1_0)) := by
  show StableHlo.after hostOps2 (W3 m ρ c) (Proc.devRef .tc main_v4) = _
  after_results_simp
  rfl
theorem W4_v5 (c : Dev nD) : (W4 m ρ c (Proc.devRef .tc main_v5)) = Cert.Gru.lo (W3 m ρ c (Proc.devRef .tc main_v2)) := by
  show StableHlo.after hostOps2 (W3 m ρ c) (Proc.devRef .tc main_v5) = _
  after_results_simp
  rfl
theorem W4_v6 (c : Dev nD) : (W4 m ρ c (Proc.devRef .tc main_v6)) = Cert.Gru.hi (W3 m ρ c (Proc.devRef .tc main_v2)) := by
  show StableHlo.after hostOps2 (W3 m ρ c) (Proc.devRef .tc main_v6) = _
  after_results_simp
  rfl

set_option maxHeartbeats 4000000 in
/-- The update gate, from the basis arrays the first two regions leave. -/
theorem W4_v41 (c : Dev nD) : (W4 m ρ c (Proc.devRef .tc main_v41))
    = Cert.Gru.gate (W3 m ρ c (Proc.devRef .tc main_arg0)) (Cert.Gru.lo (W3 m ρ c (Proc.devRef .tc main_v1_0))) (Cert.Gru.lo (W3 m ρ c (Proc.devRef .tc main_v2)))
        (W3 m ρ c (Proc.devRef .tc main_arg2)) (Cert.Gru.hi (W3 m ρ c (Proc.devRef .tc main_v1_0))) (Cert.Gru.hi (W3 m ρ c (Proc.devRef .tc main_v2)))
        (W3 m ρ c (Proc.devRef .tc main_arg3)) (W3 m ρ c (Proc.devRef .tc main_arg4)) (W3 m ρ c (Proc.devRef .tc main_arg5)) (W3 m ρ c (Proc.devRef .tc main_arg6)) := by
  show StableHlo.after hostOps2 (W3 m ρ c) (Proc.devRef .tc main_v41) = _
  after_results_simp
  rfl

set_option maxHeartbeats 4000000 in
/-- The reset state H ⊙ R. -/
theorem W4_v77 (c : Dev nD) : (W4 m ρ c (Proc.devRef .tc main_v77))
    = mulf (W3 m ρ c (Proc.devRef .tc main_arg2)) (Cert.Gru.gate (W3 m ρ c (Proc.devRef .tc main_arg0)) (Cert.Gru.lo (W3 m ρ c (Proc.devRef .tc main_v1_0))) (Cert.Gru.lo (W3 m ρ c (Proc.devRef .tc main_v2)))
        (W3 m ρ c (Proc.devRef .tc main_arg2)) (Cert.Gru.hi (W3 m ρ c (Proc.devRef .tc main_v1_0))) (Cert.Gru.hi (W3 m ρ c (Proc.devRef .tc main_v2)))
        (W3 m ρ c (Proc.devRef .tc main_arg7)) (W3 m ρ c (Proc.devRef .tc main_arg8)) (W3 m ρ c (Proc.devRef .tc main_arg9)) (W3 m ρ c (Proc.devRef .tc main_arg10))) := by
  show StableHlo.after hostOps2 (W3 m ρ c) (Proc.devRef .tc main_v77) = _
  after_results_simp
  rfl

/-- The bf16 copy of L passes the middle stretch untouched. -/
theorem W4_v1_1 (c : Dev nD) : (W4 m ρ c (Proc.devRef .tc main_v1_1)) = (W3 m ρ c (Proc.devRef .tc main_v1_1)) :=
  StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))

/-! ## The last stretch, from the contents the fourth region leaves -/

theorem W7_out (c : Dev nD) :
    W7 m ρ c (Proc.devRef .tc main_v114)
      = Cert.Gru.blend (W6 m ρ c (Proc.devRef .tc main_v41)) (W6 m ρ c (Proc.devRef .tc main_arg2))
          (Cert.Gru.cand (W6 m ρ c (Proc.devRef .tc main_arg0)) (W6 m ρ c (Proc.devRef .tc main_v3)) (W6 m ρ c (Proc.devRef .tc main_v5)) (W6 m ρ c (Proc.devRef .tc main_v77)) (W6 m ρ c (Proc.devRef .tc main_v78)) (W6 m ρ c (Proc.devRef .tc main_v79))
             (W6 m ρ c (Proc.devRef .tc main_arg11)) (W6 m ρ c (Proc.devRef .tc main_arg12)) (W6 m ρ c (Proc.devRef .tc main_arg13)) (W6 m ρ c (Proc.devRef .tc main_arg14))) := by
  show StableHlo.after hostOps4 (W6 m ρ c) (Proc.devRef .tc main_v114) = _
  after_results_simp
  rfl

/-! ## Through the regions: a buffer that is no output of a region passes it unchanged -/

theorem W6_v41 (c : Dev nD) : (W6 m ρ c (Proc.devRef .tc main_v41)) = (W4 m ρ c (Proc.devRef .tc main_v41)) :=
  (W6_of_ne m ρ c main_v41 (by decide)).trans (W5_of_ne m ρ c main_v41 (by decide))
theorem W6_v3 (c : Dev nD) : (W6 m ρ c (Proc.devRef .tc main_v3)) = (W4 m ρ c (Proc.devRef .tc main_v3)) :=
  (W6_of_ne m ρ c main_v3 (by decide)).trans (W5_of_ne m ρ c main_v3 (by decide))
theorem W6_v5 (c : Dev nD) : (W6 m ρ c (Proc.devRef .tc main_v5)) = (W4 m ρ c (Proc.devRef .tc main_v5)) :=
  (W6_of_ne m ρ c main_v5 (by decide)).trans (W5_of_ne m ρ c main_v5 (by decide))

/-- An input window's array is what the region found (regions 1, 2, 3; the window number and the array). -/
theorem W3_v1_0 (c : Dev nD) : (W3 m ρ c (Proc.devRef .tc main_v1_0)) = (W2 m ρ c (Proc.devRef .tc main_v1_0)) :=
  (W3_arr m ρ c 1).trans (((dat1 (V2 m ρ) c).arrAt_in 1 rfl _).trans (A_eq1 (V2 m ρ) c 1))
theorem W3_v1_1 (c : Dev nD) : (W3 m ρ c (Proc.devRef .tc main_v1_1)) = (W2 m ρ c (Proc.devRef .tc main_v1_1)) :=
  (W3_arr m ρ c 0).trans (((dat1 (V2 m ρ) c).arrAt_in 0 rfl _).trans (A_eq1 (V2 m ρ) c 0))
theorem W2_v0 (c : Dev nD) : (W2 m ρ c (Proc.devRef .tc main_v0)) = (W1 m ρ c (Proc.devRef .tc main_v0)) :=
  (W2_arr m ρ c 1).trans (((dat0 (V1 m ρ) c).arrAt_in 1 rfl _).trans (A_eq0 (V1 m ρ) c 1))
theorem W5_v1_1 (c : Dev nD) : (W5 m ρ c (Proc.devRef .tc main_v1_1)) = (W4 m ρ c (Proc.devRef .tc main_v1_1)) :=
  (W5_arr m ρ c 0).trans (((dat2 (V4 m ρ) c).arrAt_in 0 rfl _).trans (A_eq2 (V4 m ρ) c 0))
theorem W5_v77 (c : Dev nD) : (W5 m ρ c (Proc.devRef .tc main_v77)) = (W4 m ρ c (Proc.devRef .tc main_v77)) :=
  (W5_arr m ρ c 1).trans (((dat2 (V4 m ρ) c).arrAt_in 1 rfl _).trans (A_eq2 (V4 m ρ) c 1))
theorem W6_v78 (c : Dev nD) : (W6 m ρ c (Proc.devRef .tc main_v78)) = (W5 m ρ c (Proc.devRef .tc main_v78)) :=
  (W6_arr m ρ c 1).trans (((dat3 (V5 m ρ) c).arrAt_in 1 rfl _).trans (A_eq3 (V5 m ρ) c 1))
theorem W6_v77 (c : Dev nD) : (W6 m ρ c (Proc.devRef .tc main_v77)) = (W5 m ρ c (Proc.devRef .tc main_v77)) :=
  (W6_arr m ρ c 2).trans (((dat3 (V5 m ρ) c).arrAt_in 2 rfl _).trans (A_eq3 (V5 m ρ) c 2))

/-- The regions' outputs are what their write-backs leave. -/
theorem W2_v1_0 (c : Dev nD) : (W2 m ρ c (Proc.devRef .tc main_v1_0)) = (dat0 (V1 m ρ) c).arrAt 2 cfg0.N := W2_arr m ρ c 2
theorem W2_v1_1 (c : Dev nD) : (W2 m ρ c (Proc.devRef .tc main_v1_1)) = (dat0 (V1 m ρ) c).arrAt 3 cfg0.N := W2_arr m ρ c 3
theorem W3_v2 (c : Dev nD) : (W3 m ρ c (Proc.devRef .tc main_v2)) = (dat1 (V2 m ρ) c).arrAt 3 cfg1.N := W3_arr m ρ c 3
theorem W5_v78 (c : Dev nD) : (W5 m ρ c (Proc.devRef .tc main_v78)) = (dat2 (V4 m ρ) c).arrAt 2 cfg2.N := W5_arr m ρ c 2
theorem W6_v79 (c : Dev nD) : (W6 m ρ c (Proc.devRef .tc main_v79)) = (dat3 (V5 m ρ) c).arrAt 3 cfg3.N := W6_arr m ρ c 3

end Cert.KernelIdeal.Tail

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«167089_j23330262352454_2_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.LibDenseRows.lean ====
/-
  Rows of dense layers read at an entry: a block of consecutive columns (or rows) of a matrix, two matrices set side
  by side along the columns, and a bias vector laid out as a row and repeated down the rows.

  For a matrix `x` with `n` columns, the block of `k` columns starting at column `c0` holds at `(r, e)` the entry
  `x (r, c0 + e)`; the block of `k` rows starting at row `r0` holds at `(e, c)` the entry `x (r0 + e, c)`. Two matrices
  with `k1` and `k2` columns set side by side hold at `(r, e)` the left one's `(r, e)` when `e < k1` and the right one's
  `(r, e - k1)` otherwise. A vector `v` of length `b` viewed as a `1 × b` row and repeated over `a` rows holds `v c` at
  `(r, c)`.
-/
import Idealize.ShloMosaic.Lib.ValueIdx
import Idealize.ShloMosaic.Lib.Pipeline.Value
import Idealize.ShloMosaic.Lib.ValueLayout

noncomputable section

namespace Cert.DenseRows

open Idealize.ShloMosaic Idealize.ShloMosaic.ValueIdx

variable {α : Type}

/-- A block of consecutive columns at an entry. -/
theorem sliceCols_apply {a n k : ℕ} (c0 : ℕ) (x : (⟨2, ![a, n]⟩ : Shape).Idx → α)
    (h : (⟨2, ![a, n]⟩ : Shape).Slices ![0, c0] ⟨2, ![a, k]⟩) (r : Fin a) (e : Fin k) (hb : c0 + e.val < n) :
    extractStridedSlice ⟨2, ![a, k]⟩ ![0, c0] x h (ix2 r e) = x (ix2 r ⟨c0 + e.val, hb⟩) :=
  extractStridedSlice_apply _ x h _ _ (fun ax => by
    match ax with
    | ⟨0, _⟩ => show r.val = 0 + r.val; omega
    | ⟨1, _⟩ => rfl)

/-- A block of consecutive rows at an entry. -/
theorem sliceRows_apply {n b k : ℕ} (r0 : ℕ) (x : (⟨2, ![n, b]⟩ : Shape).Idx → α)
    (h : (⟨2, ![n, b]⟩ : Shape).Slices ![r0, 0] ⟨2, ![k, b]⟩) (e : Fin k) (c : Fin b) (hb : r0 + e.val < n) :
    extractStridedSlice ⟨2, ![k, b]⟩ ![r0, 0] x h (ix2 e c) = x (ix2 ⟨r0 + e.val, hb⟩ c) :=
  extractStridedSlice_apply _ x h _ _ (fun ax => by
    match ax with
    | ⟨0, _⟩ => rfl
    | ⟨1, _⟩ => show c.val = 0 + c.val; omega)

/-- Two matrices side by side, at an entry of the left one. -/
theorem concatCols_left {a k1 k2 k : ℕ} (x₁ : (⟨2, ![a, k1]⟩ : Shape).Idx → α) (x₂ : (⟨2, ![a, k2]⟩ : Shape).Idx → α)
    (h : Shape.Concatenates [(⟨2, ![a, k1]⟩ : Shape), (⟨2, ![a, k2]⟩ : Shape)] (⟨2, ![a, k]⟩ : Shape) 1)
    (r : Fin a) (e : Fin k) (he : e.val < k1) :
    concatenate (⟨2, ![a, k]⟩ : Shape) 1 [⟨(⟨2, ![a, k1]⟩ : Shape), x₁⟩, ⟨(⟨2, ![a, k2]⟩ : Shape), x₂⟩] h (ix2 r e)
      = x₁ (ix2 r ⟨e.val, he⟩) :=
  concatenate_pair_apply_left 1 x₁ x₂ h (ix2 r e) rfl (ix2 r ⟨e.val, he⟩) (fun b => by
    match b with
    | ⟨0, _⟩ => rfl
    | ⟨1, _⟩ => rfl)

/-- Two matrices side by side, at an entry of the right one. -/
theorem concatCols_right {a k1 k2 k : ℕ} (x₁ : (⟨2, ![a, k1]⟩ : Shape).Idx → α) (x₂ : (⟨2, ![a, k2]⟩ : Shape).Idx → α)
    (h : Shape.Concatenates [(⟨2, ![a, k1]⟩ : Shape), (⟨2, ![a, k2]⟩ : Shape)] (⟨2, ![a, k]⟩ : Shape) 1)
    (r : Fin a) (e : Fin k) (he : k1 ≤ e.val) (hb : e.val - k1 < k2) :
    concatenate (⟨2, ![a, k]⟩ : Shape) 1 [⟨(⟨2, ![a, k1]⟩ : Shape), x₁⟩, ⟨(⟨2, ![a, k2]⟩ : Shape), x₂⟩] h (ix2 r e)
      = x₂ (ix2 r ⟨e.val - k1, hb⟩) :=
  concatenate_pair_apply_right 1 x₁ x₂ h (ix2 r e) rfl rfl (ix2 r ⟨e.val - k1, hb⟩) (fun b hne => by
    match b with
    | ⟨0, _⟩ => rfl
    | ⟨1, _⟩ => exact absurd rfl hne) (by show (e.val - k1) + k1 = e.val; omega)

/-- A bias vector as a row, repeated down the rows, at an entry. -/
theorem biasRow_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (r : Fin a) (c : Fin b) :
    broadcastTo ⟨2, ![a, b]⟩ (shapeCast ⟨2, ![1, b]⟩ v h1) h2 (ix2 r c) = v (ix1 c) := by
  rw [broadcastTo_1b_ab_apply, shapeCast_a_1a_apply]

end Cert.DenseRows

end
-- ==== Proof.CellBridge.lean ====
/-
  The cell's basis arrays from matrix products read entry by entry, on the extended reals.

  A 64-channel array whose entry (a, j) is the product of row a of L with column j of the pair [X | H] has the
  product L·X as its first 32 channels and L·H as its last 32: column j of the pair is a column of X or of H. The
  same for the fused step 2·(Lc·A) − [X | H] when Lc agrees with L entry by entry. No law of the extended reals is
  used beyond rewriting equal terms: the sums and products on the two sides are the same.
-/
import proofs.«167089_j23330262352454_2_alg».proof.Proof.GruSpec
import proofs.«167089_j23330262352454_2_alg».proof.Proof.LibPlainDot
import proofs.«167089_j23330262352454_2_alg».proof.Proof.LibDenseRows

noncomputable section

namespace Cert.Gru

open Idealize.ShloMosaic Idealize.ShloMosaic.ValueIdx

/-- L·T at an entry: the sum over the nodes. -/
theorem mulL_apply (L : FVec Ideal SL .f32) (T : FVec Ideal SN .f32) (a : Fin 8192) (b : Fin 32) :
    mulL L T (ix2 a b) = ∑ k : Fin 8192, L (ix2 a k) * T (ix2 k b) :=
  PlainDot.dotGeneral_apply_entry none .single L T a b

theorem lo_apply (T : FVec Ideal SN2 .f32) (a : Fin 8192) (b : Fin 32) :
    lo T (ix2 a b) = T (ix2 a ⟨0 + b.val, by omega⟩) :=
  Cert.DenseRows.sliceCols_apply 0 T sliceLo a b (by omega)

theorem hi_apply (T : FVec Ideal SN2 .f32) (a : Fin 8192) (b : Fin 32) :
    hi T (ix2 a b) = T (ix2 a ⟨32 + b.val, by omega⟩) :=
  Cert.DenseRows.sliceCols_apply 32 T sliceHi a b (by omega)

theorem join_lo (A B : FVec Ideal SN .f32) (a : Fin 8192) (b : Fin 32) :
    join A B (ix2 a ⟨0 + b.val, by omega⟩) = A (ix2 a b) :=
  (Cert.DenseRows.concatCols_left A B joins a ⟨0 + b.val, by omega⟩ (by show 0 + b.val < 32; omega)).trans
    (congrArg A (congrArg (ix2 a) (Fin.ext (by show 0 + b.val = b.val; omega))))

theorem join_hi (A B : FVec Ideal SN .f32) (a : Fin 8192) (b : Fin 32) :
    join A B (ix2 a ⟨32 + b.val, by omega⟩) = B (ix2 a b) :=
  (Cert.DenseRows.concatCols_right A B joins a ⟨32 + b.val, by omega⟩ (by show 32 ≤ 32 + b.val; omega) (by show 32 + b.val - 32 < 32; omega)).trans
    (congrArg B (congrArg (ix2 a) (Fin.ext (by show 32 + b.val - 32 = b.val; omega))))

/-- The word 2.0 at the extended reals, left unevaluated. -/
abbrev twoW : EReal := Ideal.ofBits .f32 0x40000000#32

theorem cheb2_apply (L : FVec Ideal SL .f32) (T0 T1 : FVec Ideal SN .f32) (a : Fin 8192) (b : Fin 32) :
    cheb2 L T0 T1 (ix2 a b) = twoW * (∑ k : Fin 8192, L (ix2 a k) * T1 (ix2 k b)) - T0 (ix2 a b) := by
  unfold cheb2
  show FloatOps.subf (FloatOps.mulf (two (ix2 a b)) (mulL L T1 (ix2 a b))) (T0 (ix2 a b)) = _
  rw [mulL_apply]
  rfl

variable (L : FVec Ideal SL .f32) (Lc : SL.Idx → EReal) (X H : FVec Ideal SN .f32)

/-- The first product: both halves. -/
theorem lo_prod (A0 : FVec Ideal SN2 .f32)
    (h0 : ∀ (a : Fin 8192) (j : Fin 64), A0 (ix2 a j) = ∑ k : Fin 8192, L (ix2 a k) * join X H (ix2 k j)) :
    lo A0 = mulL L X := by
  funext i
  obtain ⟨a, b, rfl⟩ : ∃ (a : Fin 8192) (b : Fin 32), i = ix2 a b := ⟨i 0, i 1, eq_ix2 i⟩
  rw [lo_apply, h0, mulL_apply]
  exact Finset.sum_congr rfl fun k _ => by rw [join_lo]

theorem hi_prod (A0 : FVec Ideal SN2 .f32)
    (h0 : ∀ (a : Fin 8192) (j : Fin 64), A0 (ix2 a j) = ∑ k : Fin 8192, L (ix2 a k) * join X H (ix2 k j)) :
    hi A0 = mulL L H := by
  funext i
  obtain ⟨a, b, rfl⟩ : ∃ (a : Fin 8192) (b : Fin 32), i = ix2 a b := ⟨i 0, i 1, eq_ix2 i⟩
  rw [hi_apply, h0, mulL_apply]
  exact Finset.sum_congr rfl fun k _ => by rw [join_hi]

/-- The fused second product: both halves. -/
theorem lo_cheb (A0 A1 : FVec Ideal SN2 .f32) (hL : ∀ i, Lc i = L i)
    (h1 : ∀ (a : Fin 8192) (j : Fin 64), A1 (ix2 a j) = twoW * (∑ k : Fin 8192, Lc (ix2 a k) * A0 (ix2 k j)) - join X H (ix2 a j)) :
    lo A1 = cheb2 L X (lo A0) := by
  funext i
  obtain ⟨a, b, rfl⟩ : ∃ (a : Fin 8192) (b : Fin 32), i = ix2 a b := ⟨i 0, i 1, eq_ix2 i⟩
  rw [lo_apply, h1, cheb2_apply, join_lo]
  congr 2
  exact Finset.sum_congr rfl fun k _ => by rw [hL, lo_apply]

theorem hi_cheb (A0 A1 : FVec Ideal SN2 .f32) (hL : ∀ i, Lc i = L i)
    (h1 : ∀ (a : Fin 8192) (j : Fin 64), A1 (ix2 a j) = twoW * (∑ k : Fin 8192, Lc (ix2 a k) * A0 (ix2 k j)) - join X H (ix2 a j)) :
    hi A1 = cheb2 L H (hi A0) := by
  funext i
  obtain ⟨a, b, rfl⟩ : ∃ (a : Fin 8192) (b : Fin 32), i = ix2 a b := ⟨i 0, i 1, eq_ix2 i⟩
  rw [hi_apply, h1, cheb2_apply, join_hi]
  congr 2
  exact Finset.sum_congr rfl fun k _ => by rw [hL, hi_apply]

/-- The third product, 32 channels wide. -/
theorem prod32 (G A2 : FVec Ideal SN .f32) (hL : ∀ i, Lc i = L i)
    (h2 : ∀ (a : Fin 8192) (b : Fin 32), A2 (ix2 a b) = ∑ k : Fin 8192, Lc (ix2 a k) * G (ix2 k b)) :
    A2 = mulL L G := by
  funext i
  obtain ⟨a, b, rfl⟩ : ∃ (a : Fin 8192) (b : Fin 32), i = ix2 a b := ⟨i 0, i 1, eq_ix2 i⟩
  rw [h2, mulL_apply]
  exact Finset.sum_congr rfl fun k _ => by rw [hL]

/-- The fused fourth product. -/
theorem cheb32 (G A2 A3 : FVec Ideal SN .f32) (hL : ∀ i, Lc i = L i)
    (h3 : ∀ (a : Fin 8192) (b : Fin 32), A3 (ix2 a b) = twoW * (∑ k : Fin 8192, Lc (ix2 a k) * A2 (ix2 k b)) - G (ix2 a b)) :
    A3 = cheb2 L G A2 := by
  funext i
  obtain ⟨a, b, rfl⟩ : ∃ (a : Fin 8192) (b : Fin 32), i = ix2 a b := ⟨i 0, i 1, eq_ix2 i⟩
  rw [h3, cheb2_apply]
  congr 2
  exact Finset.sum_congr rfl fun k _ => by rw [hL]

end Cert.Gru

end
-- ==== Proof.KernelValue.lean ====
/-
  The idealized kernel's result is the cell's composition of its arguments.

  Region by region the arrays the kernel leaves are the cell's basis arrays: the first region leaves the 64-channel
  product L·[X | H] and a copy Lc of L (equal to L entry by entry: the change of format is the identity on the
  extended reals); the second 2·(Lc·(L·[X | H])) − [X | H]; their halves are L·X, L·H, 2·L·(L·X) − X, 2·L·(L·H) − H.
  The host operations between build the gates from them, and the reset state G = H ⊙ R; the third region leaves
  Lc·G and the fourth 2·(Lc·(Lc·G)) − G. The last host operations combine them. Each region's array is taken as a
  hypothesis here, entry by entry: a matrix product, or the doubled product less the array it started from.
-/
import proofs.«167089_j23330262352454_2_alg».proof.Proof.KernelTail
import proofs.«167089_j23330262352454_2_alg».proof.Proof.CellBridge

set_option maxRecDepth 16384

noncomputable section

namespace Cert.KernelIdeal.CellValue

open Cert.KernelIdeal Cert.KernelIdeal.Gen Cert.KernelIdeal.Tail
open Idealize.ShloMosaic Idealize.ShloMosaic.TcCoe Idealize.SL.Sem Idealize.ShloMosaic.ValueIdx

variable (m : (ℓ : Loc nD τ sig) → Buf (Elt Ideal) ℓ) (ρ : Dev nD → PrngReg)

/-- The arguments, typed as the cell takes them. -/
abbrev aX (c : Dev nD) : FVec Ideal Cert.Gru.SN .f32 := (m ((c : Thread nD τ).loc main_arg0))
abbrev aL (c : Dev nD) : FVec Ideal Cert.Gru.SL .f32 := (m ((c : Thread nD τ).loc main_arg1))
abbrev aH (c : Dev nD) : FVec Ideal Cert.Gru.SN .f32 := (m ((c : Thread nD τ).loc main_arg2))

/-- The regions' arrays, as arrays of extended reals. -/
abbrev A0 (c : Dev nD) : FVec Ideal Cert.Gru.SN2 .f32 := (W2 m ρ c (Proc.devRef .tc main_v1_0))
abbrev Lc (c : Dev nD) : Cert.Gru.SL.Idx → EReal := (W2 m ρ c (Proc.devRef .tc main_v1_1))
abbrev A1 (c : Dev nD) : FVec Ideal Cert.Gru.SN2 .f32 := (W3 m ρ c (Proc.devRef .tc main_v2))
abbrev Gs (c : Dev nD) : FVec Ideal Cert.Gru.SN .f32 := (W4 m ρ c (Proc.devRef .tc main_v77))
abbrev A2 (c : Dev nD) : FVec Ideal Cert.Gru.SN .f32 := (W5 m ρ c (Proc.devRef .tc main_v78))
abbrev A3 (c : Dev nD) : FVec Ideal Cert.Gru.SN .f32 := (W6 m ρ c (Proc.devRef .tc main_v79))

/-- What each region is shown to leave, entry by entry. -/
structure RegionFacts (c : Dev nD) : Prop where
  first : ∀ (a : Fin 8192) (j : Fin 64), A0 m ρ c (ix2 a j)
      = ∑ k : Fin 8192, aL m c (ix2 a k) * Cert.Gru.join (aX m c) (aH m c) (ix2 k j)
  copy : ∀ i, Lc m ρ c i = aL m c i
  second : ∀ (a : Fin 8192) (j : Fin 64), A1 m ρ c (ix2 a j)
      = Cert.Gru.twoW * (∑ k : Fin 8192, Lc m ρ c (ix2 a k) * A0 m ρ c (ix2 k j)) - Cert.Gru.join (aX m c) (aH m c) (ix2 a j)
  third : ∀ (a : Fin 8192) (b : Fin 32), A2 m ρ c (ix2 a b) = ∑ k : Fin 8192, Lc m ρ c (ix2 a k) * Gs m ρ c (ix2 k b)
  fourth : ∀ (a : Fin 8192) (b : Fin 32), A3 m ρ c (ix2 a b)
      = Cert.Gru.twoW * (∑ k : Fin 8192, Lc m ρ c (ix2 a k) * A2 m ρ c (ix2 k b)) - Gs m ρ c (ix2 a b)

section
variable {c : Dev nD} (hR : RegionFacts m ρ c)
include hR

theorem v3_eq : (W4 m ρ c (Proc.devRef .tc main_v3)) = Cert.Gru.mulL (aL m c) (aX m c) :=
  (W4_v3 m ρ c).trans ((congrArg Cert.Gru.lo (W3_v1_0 m ρ c)).trans (Cert.Gru.lo_prod (aL m c) (aX m c) (aH m c) (A0 m ρ c) hR.first))
theorem v4_eq : (W4 m ρ c (Proc.devRef .tc main_v4)) = Cert.Gru.mulL (aL m c) (aH m c) :=
  (W4_v4 m ρ c).trans ((congrArg Cert.Gru.hi (W3_v1_0 m ρ c)).trans (Cert.Gru.hi_prod (aL m c) (aX m c) (aH m c) (A0 m ρ c) hR.first))
theorem v5_eq : (W4 m ρ c (Proc.devRef .tc main_v5)) = Cert.Gru.cheb2 (aL m c) (aX m c) (Cert.Gru.mulL (aL m c) (aX m c)) :=
  (W4_v5 m ρ c).trans ((Cert.Gru.lo_cheb (aL m c) (Lc m ρ c) (aX m c) (aH m c) (A0 m ρ c) (A1 m ρ c) hR.copy hR.second).trans
    (congrArg (Cert.Gru.cheb2 (aL m c) (aX m c)) (Cert.Gru.lo_prod (aL m c) (aX m c) (aH m c) (A0 m ρ c) hR.first)))
theorem v6_eq : (W4 m ρ c (Proc.devRef .tc main_v6)) = Cert.Gru.cheb2 (aL m c) (aH m c) (Cert.Gru.mulL (aL m c) (aH m c)) :=
  (W4_v6 m ρ c).trans ((Cert.Gru.hi_cheb (aL m c) (Lc m ρ c) (aX m c) (aH m c) (A0 m ρ c) (A1 m ρ c) hR.copy hR.second).trans
    (congrArg (Cert.Gru.cheb2 (aL m c) (aH m c)) (Cert.Gru.hi_prod (aL m c) (aX m c) (aH m c) (A0 m ρ c) hR.first)))

end

/-- The reset state H ⊙ R as a term of the arguments. -/
abbrev resetState (c : Dev nD) : FVec Ideal Cert.Gru.SN .f32 := mulf (aH m c) (Cert.Gru.gate (aX m c) (Cert.Gru.mulL (aL m c) (aX m c)) (Cert.Gru.cheb2 (aL m c) (aX m c) (Cert.Gru.mulL (aL m c) (aX m c))) (aH m c) (Cert.Gru.mulL (aL m c) (aH m c)) (Cert.Gru.cheb2 (aL m c) (aH m c) (Cert.Gru.mulL (aL m c) (aH m c))) (m ((c : Thread nD τ).loc main_arg7)) (m ((c : Thread nD τ).loc main_arg8)) (m ((c : Thread nD τ).loc main_arg9)) (m ((c : Thread nD τ).loc main_arg10)))

section
variable {c : Dev nD} (hR : RegionFacts m ρ c)
include hR

theorem v41_eq : (W4 m ρ c (Proc.devRef .tc main_v41)) = (Cert.Gru.gate (aX m c) (Cert.Gru.mulL (aL m c) (aX m c)) (Cert.Gru.cheb2 (aL m c) (aX m c) (Cert.Gru.mulL (aL m c) (aX m c))) (aH m c) (Cert.Gru.mulL (aL m c) (aH m c)) (Cert.Gru.cheb2 (aL m c) (aH m c) (Cert.Gru.mulL (aL m c) (aH m c))) (m ((c : Thread nD τ).loc main_arg3)) (m ((c : Thread nD τ).loc main_arg4)) (m ((c : Thread nD τ).loc main_arg5)) (m ((c : Thread nD τ).loc main_arg6))) := by
  have e3 := (W4_v3 m ρ c).symm.trans (v3_eq m ρ hR)
  have e4 := (W4_v4 m ρ c).symm.trans (v4_eq m ρ hR)
  have e5 := (W4_v5 m ρ c).symm.trans (v5_eq m ρ hR)
  have e6 := (W4_v6 m ρ c).symm.trans (v6_eq m ρ hR)
  rw [W4_v41, e3, e4, e5, e6, W3_arg0, W3_arg2, W3_arg3, W3_arg4, W3_arg5, W3_arg6]

theorem v77_eq : (W4 m ρ c (Proc.devRef .tc main_v77)) = resetState m c := by
  have e3 := (W4_v3 m ρ c).symm.trans (v3_eq m ρ hR)
  have e4 := (W4_v4 m ρ c).symm.trans (v4_eq m ρ hR)
  have e5 := (W4_v5 m ρ c).symm.trans (v5_eq m ρ hR)
  have e6 := (W4_v6 m ρ c).symm.trans (v6_eq m ρ hR)
  rw [W4_v77, e3, e4, e5, e6, W3_arg0, W3_arg2, W3_arg7, W3_arg8, W3_arg9, W3_arg10]

theorem v78_eq : (W5 m ρ c (Proc.devRef .tc main_v78)) = Cert.Gru.mulL (aL m c) (resetState m c) :=
  (Cert.Gru.prod32 (aL m c) (Lc m ρ c) (Gs m ρ c) (A2 m ρ c) hR.copy hR.third).trans
    (congrArg (Cert.Gru.mulL (aL m c)) (v77_eq m ρ hR))

theorem v79_eq : (W6 m ρ c (Proc.devRef .tc main_v79))
    = Cert.Gru.cheb2 (aL m c) (resetState m c) (Cert.Gru.mulL (aL m c) (resetState m c)) :=
  (Cert.Gru.cheb32 (aL m c) (Lc m ρ c) (Gs m ρ c) (A2 m ρ c) (A3 m ρ c) hR.copy hR.fourth).trans
    ((congrArg (fun G => Cert.Gru.cheb2 (aL m c) G (A2 m ρ c)) (v77_eq m ρ hR)).trans
      (congrArg (Cert.Gru.cheb2 (aL m c) (resetState m c)) (v78_eq m ρ hR)))

/-- The result array after the last stretch is the cell of the arguments. -/
theorem out_eq : W7 m ρ c (Proc.devRef .tc main_v114)
    = Cert.Gru.cell (aX m c) (aL m c) (aH m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [W7_out, W6_v41, v41_eq m ρ hR, W6_arg2, W6_arg0, W6_v3, v3_eq m ρ hR, W6_v5, v5_eq m ρ hR, W6_v77, W5_v77, v77_eq m ρ hR,
    W6_v78, v78_eq m ρ hR, v79_eq m ρ hR, W6_arg11, W6_arg12, W6_arg13, W6_arg14]
  rfl

end

end Cert.KernelIdeal.CellValue

end
-- ==== Proof.LibBlockDot.lean ====
/-
  A row-by-column product over the extended reals, cut into consecutive chunks of the contracted axis.

  `at2 A r k` is entry (r, k) of a rank-2 array, extended by 0 outside the array, so that rows, columns and the
  contracted position can be plain natural numbers (block offset plus position inside the block) with no bound
  carried in the index. `pdot X W r q n` is the product of row `r` of `X` with column `q` of `W` over the first `n`
  positions of the contracted axis; adding the next `l` positions is adding their chunk (`pdot_add`): the only
  law used is that a finite sum over a range splits at a point, which needs no finiteness of the terms.
-/
import Idealize.ShloMosaic.PureOps.Ideal
import Idealize.ShloMosaic.Lib.ValueIdx

noncomputable section

namespace Cert.BlockDot

open Idealize.ShloMosaic Idealize.ShloMosaic.ValueIdx

/-- Entry (r, k) of a rank-2 array of extended reals, 0 outside its extents. -/
def at2 {a b : ℕ} (A : (⟨2, ![a, b]⟩ : Shape).Idx → EReal) (r k : ℕ) : EReal :=
  if h : r < a ∧ k < b then A (ix2 ⟨r, h.1⟩ ⟨k, h.2⟩) else 0

/-- At an index of the array, read through its two coordinates' values, it is the array's entry. -/
theorem at2_of_val {a b : ℕ} (A : (⟨2, ![a, b]⟩ : Shape).Idx → EReal) (j : (⟨2, ![a, b]⟩ : Shape).Idx) {r k : ℕ}
    (h0 : (j 0).val = r) (h1 : (j 1).val = k) : at2 A r k = A j := by
  subst h0 h1
  unfold at2
  rw [dif_pos ⟨(j 0).isLt, (j 1).isLt⟩]
  exact congrArg A (eq_ix2 j).symm

/-- Row `r` of `X` times column `q` of `W` over the first `n` positions of the contracted axis. -/
def pdot {a b c : ℕ} (X : (⟨2, ![a, b]⟩ : Shape).Idx → EReal) (W : (⟨2, ![b, c]⟩ : Shape).Idx → EReal)
    (r q n : ℕ) : EReal :=
  ∑ k ∈ Finset.range n, at2 X r k * at2 W k q

theorem pdot_zero {a b c : ℕ} (X : (⟨2, ![a, b]⟩ : Shape).Idx → EReal) (W : (⟨2, ![b, c]⟩ : Shape).Idx → EReal)
    (r q : ℕ) : pdot X W r q 0 = 0 :=
  Finset.sum_range_zero _

/-- The next `l` positions add their chunk. -/
theorem pdot_add {a b c : ℕ} (X : (⟨2, ![a, b]⟩ : Shape).Idx → EReal) (W : (⟨2, ![b, c]⟩ : Shape).Idx → EReal)
    (r q n l : ℕ) :
    pdot X W r q (n + l) = pdot X W r q n + ∑ k ∈ Finset.range l, at2 X r (n + k) * at2 W (n + k) q :=
  Finset.sum_range_add _ n l

/-- A chunk summed over `Fin l` is the same chunk summed over the range. -/
theorem chunk_fin {a b c : ℕ} (X : (⟨2, ![a, b]⟩ : Shape).Idx → EReal) (W : (⟨2, ![b, c]⟩ : Shape).Idx → EReal)
    (r q n l : ℕ) :
    ∑ k : Fin l, at2 X r (n + k.val) * at2 W (n + k.val) q = ∑ k ∈ Finset.range l, at2 X r (n + k) * at2 W (n + k) q :=
  Fin.sum_univ_eq_sum_range (fun k => at2 X r (n + k) * at2 W (n + k) q) l

end Cert.BlockDot

end
-- ==== Proof.Region0.lean ====
/-
  Region 0: the blocked matrix product `L · X` of an 8192 × 8192 array `L` by an 8192 × 64 array `X`, and a copy of `L`,
  at the ideal values.

  The grid has 32 points t = 4·i + k: row block i (1024 rows of `L`) and contraction block k (2048 columns of `L`, the
  matching 2048 rows of `X`). Two arrays are written. The 1024 × 64 product block of row block i stays in place over
  k = 0, 1, 2, 3: it is set to zero at k = 0 and at every k the product of the two current blocks is added to it; after
  k = 3 it is written to rows 1024·i … 1024·i + 1023 of the first result. Over the extended reals the format changes
  are the identity and the matrix unit's product into the zero array is the plain sum of products, so after point t the
  block's entry (r, b) is the product of row 1024·(t / 4) + r of `L` with column b of `X` over the first
  2048·(t % 4 + 1) positions of the contracted axis (`outsAt_eq`, by induction on the point: a finite sum over a range
  splits at a point); at t % 4 = 3 that is the whole row-by-column product, and the eight blocks written back tile the
  first result, which therefore is the plain matrix product (`final_2`, `region0_result`). At every point the current
  1024 × 2048 block of `L`, format-changed (the identity on the extended reals), is written to block (i, k) of the second
  result; the 32 blocks tile it, so it ends holding `L` (`final_3`, `region0_copy`).
-/
import proofs.«167089_j23330262352454_2_alg».proof.Proof.Gen.KernelIdeal.Frame
import proofs.«167089_j23330262352454_2_alg».proof.Proof.LibPlainMatmul
import proofs.«167089_j23330262352454_2_alg».proof.Proof.LibBlockDot
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen

variable {F : FTy → Type} [FloatOps F]

theorem hz : (![0, 0] : Fin 2 → Nat) = fun _ => 0 := funext fun a => by fin_cases a <;> rfl

/-- What a point after the first of its row block leaves in the accumulated output's staging buffer holding `xo`: the
    body's one store there, its loads reading the whole buffers. -/
theorem out_B_2 (c : Dev nD) (i : grid0.Coords) (a2 : Memref sig .tc .vmem S1024x2048 .f32) (h2 : a2.IsWhole)
    (a3 : Memref sig .tc .vmem S2048x64 .f32) (h3 : a3.IsWhole) (a4 : Memref sig .tc .vmem S1024x64 .f32) (h4 : a4.IsWhole)
    (a5 : Memref sig .tc .vmem S1024x2048 .bf16) (h5 : a5.IsWhole)
    (hc : ¬cond0_0 i) (x0 : Vec F S1024x2048 .f32) (x1 : Vec F S2048x64 .f32) (xo : Vec F S1024x64 .f32) :
    out0_B_2 c i a2 h2 a3 h3 a4 h4 a5 h5 hc x0 x1 xo = k0_pay3 x0 x1 xo := by
  unfold out0_B_2
  rw [View.read_writes_eq_canon _ _ _ (cover0_B_2 c i a2 h2 a3 h3 a4 h4 a5 h5 hc x0 x1 xo)]
  unfold kernelRun0_B
  dsimp only
  rw [View.canon_unit_zero hz]
  simp only [View.readAt_eq_ld, h2.read_unread, h3.read_unread, h4.read_unread, View.ld_unit_zero (S := S1024x2048) hz,
    View.ld_unit_zero (S := S2048x64) hz, View.ld_unit_zero (S := S1024x64) hz]

/-- What the first point of a row block leaves there: the zero block is stored, read back, and the product added. -/
theorem out_A_2 (c : Dev nD) (i : grid0.Coords) (a2 : Memref sig .tc .vmem S1024x2048 .f32) (h2 : a2.IsWhole)
    (a3 : Memref sig .tc .vmem S2048x64 .f32) (h3 : a3.IsWhole) (a4 : Memref sig .tc .vmem S1024x64 .f32) (h4 : a4.IsWhole)
    (a5 : Memref sig .tc .vmem S1024x2048 .bf16) (h5 : a5.IsWhole)
    (hc : cond0_0 i) (x0 : Vec F S1024x2048 .f32) (x1 : Vec F S2048x64 .f32) :
    out0_A_2 c i a2 h2 a3 h3 a4 h4 a5 h5 hc x0 x1 = k0_pay3 x0 x1 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1024x64) hz, View.readCov_unit_zero (S := S1024x64) _ hz]
  simp only [View.readAt_eq_ld, h2.read_unread, h3.read_unread, View.ld_unit_zero (S := S1024x2048) hz,
    View.ld_unit_zero (S := S2048x64) hz]

/-- What every point leaves in the copy's staging buffer: the left block, format-changed. -/
theorem out_B_3 (c : Dev nD) (i : grid0.Coords) (a2 : Memref sig .tc .vmem S1024x2048 .f32) (h2 : a2.IsWhole)
    (a3 : Memref sig .tc .vmem S2048x64 .f32) (h3 : a3.IsWhole) (a4 : Memref sig .tc .vmem S1024x64 .f32) (h4 : a4.IsWhole)
    (a5 : Memref sig .tc .vmem S1024x2048 .bf16) (h5 : a5.IsWhole)
    (hc : ¬cond0_0 i) (x0 : Vec F S1024x2048 .f32) (x1 : Vec F S2048x64 .f32) (xo : Vec F S1024x64 .f32) :
    out0_B_3 c i a2 h2 a3 h3 a4 h4 a5 h5 hc x0 x1 xo = k0_pay2 x0 := by
  unfold out0_B_3
  rw [View.read_writes_eq_canon _ _ _ (cover0_B_3 c i a2 h2 a3 h3 a4 h4 a5 h5 hc x0 x1 xo)]
  unfold kernelRun0_B
  dsimp only
  rw [View.canon_unit_zero hz]
  simp only [View.readAt_eq_ld, h2.read_unread, View.ld_unit_zero (S := S1024x2048) hz]

theorem out_A_3 (c : Dev nD) (i : grid0.Coords) (a2 : Memref sig .tc .vmem S1024x2048 .f32) (h2 : a2.IsWhole)
    (a3 : Memref sig .tc .vmem S2048x64 .f32) (h3 : a3.IsWhole) (a4 : Memref sig .tc .vmem S1024x64 .f32) (h4 : a4.IsWhole)
    (a5 : Memref sig .tc .vmem S1024x2048 .bf16) (h5 : a5.IsWhole)
    (hc : cond0_0 i) (x0 : Vec F S1024x2048 .f32) (x1 : Vec F S2048x64 .f32) :
    out0_A_3 c i a2 h2 a3 h3 a4 h4 a5 h5 hc x0 x1 = k0_pay2 x0 := by
  unfold out0_A_3
  rw [View.read_writes_eq_canon _ _ _ (cover0_A_3 c i a2 h2 a3 h3 a4 h4 a5 h5 hc x0 x1)]
  unfold kernelRun0_A
  dsimp only
  rw [View.canon_unit_zero hz]
  simp only [View.readAt_eq_ld, h2.read_unread, View.ld_unit_zero (S := S1024x2048) hz]

/-- The zero block at an entry. -/
theorem pay1_apply (j : S1024x64.Idx) : k0_pay1 (F := Ideal) j = 0 := by
  unfold k0_pay1
  exact Ideal.ofBits_zero_f32

/-- The copy's arithmetic at an entry: the format change is the identity on the extended reals. -/
theorem pay2_apply (x0 : FVec Ideal S1024x2048 .f32) (j : S1024x2048.Idx) : k0_pay2 (F := Ideal) x0 j = x0 j := rfl

/-- The accumulation's arithmetic at an entry: the accumulator's entry plus the block product's (the format changes are
    the identity on the extended reals, the matrix unit's product into the zero array is the plain sum of products). -/
theorem pay3_apply (x0 : FVec Ideal S1024x2048 .f32) (x1 : FVec Ideal S2048x64 .f32) (acc : FVec Ideal S1024x64 .f32)
    (a : Fin 1024) (b : Fin 64) :
    k0_pay3 (F := Ideal) x0 x1 acc (ix2 a b) = acc (ix2 a b) + ∑ k : Fin 2048, x0 (ix2 a k) * x1 (ix2 k b) := by
  unfold k0_pay3
  simp only [shapeCast_self]
  exact congrArg (acc (ix2 a b) + ·)
    (PlainMatmul.matmul_zero_apply none (k0_pay2 (F := Ideal) x0) (truncf .bf16 x1 bitsLt_bf16_f32) a b)

/-- The block indices of the four windows at point `t` = 4·(row block) + (contraction block). -/
theorem idx0 : ∀ t : Fin grid0.N, win0_0.index t 0 = t.val / 4 ∧ win0_0.index t 1 = t.val % 4 := by decide +kernel
theorem idx1 : ∀ t : Fin grid0.N, win0_1.index t 0 = t.val % 4 ∧ win0_1.index t 1 = 0 := by decide +kernel
theorem idx2 : ∀ t : Fin grid0.N, win0_2.index t 0 = t.val / 4 ∧ win0_2.index t 1 = 0 := by decide +kernel
theorem idx3 : ∀ t : Fin grid0.N, win0_3.index t 0 = t.val / 4 ∧ win0_3.index t 1 = t.val % 4 := by decide +kernel

section
variable (V : (c : Dev nD) → (b : Ref sig .tc) → Buf (Elt Ideal) ((c : Thread nD τ).loc b))

/-- The left factor (8192 × 8192) and the right factor (8192 × 64) as the region finds them. -/
abbrev Lm (c : Dev nD) : (⟨2, ![8192, 8192]⟩ : Shape).Idx → EReal := V c main_arg1
abbrev Rm (c : Dev nD) : (⟨2, ![8192, 64]⟩ : Shape).Idx → EReal := V c main_v0

open Cert.BlockDot

/-- The two input windows' blocks at point `t`, as arrays of extended reals. -/
abbrev B0 (c : Dev nD) (t : Fin cfg0.N) : FVec Ideal S1024x2048 .f32 := iblk0 V c 0 t
abbrev B1 (c : Dev nD) (t : Fin cfg0.N) : FVec Ideal S2048x64 .f32 := iblk0 V c 1 t

/-- The left window's block at point `t`, at an entry j, is the left factor at any index i in row 1024·(t / 4) + j₀,
    column 2048·(t % 4) + j₁. -/
theorem iblk0_at (c : Dev nD) (t : Fin cfg0.N) (j : S1024x2048.Idx) (i : S8192x8192.Idx)
    (h0 : (i 0).val = 1024 * (t.val / 4) + (j 0).val) (h1 : (i 1).val = 2048 * (t.val % 4) + (j 1).val) :
    B0 V c t j = Lm V c i := by
  have hi := idx0 t
  unfold B0 iblk0
  rw [View.read_apply]
  show V c main_arg1 _ = V c main_arg1 i
  refine congrArg (V c main_arg1) (funext fun a => Fin.ext ?_)
  match a with
  | ⟨0, _⟩ => show win0_0.index t 0 * 1024 + 1 * (j 0).val = (i 0).val; rw [hi.1, h0]; omega
  | ⟨1, _⟩ => show win0_0.index t 1 * 2048 + 1 * (j 1).val = (i 1).val; rw [hi.2, h1]; omega

/-- The left window's block at point `t`: rows 1024·(t / 4) + r, columns 2048·(t % 4) + k of the left factor. -/
theorem iblk0_apply (c : Dev nD) (t : Fin cfg0.N) (r : Fin 1024) (k : Fin 2048) :
    B0 V c t (ix2 r k) = at2 (Lm V c) (1024 * (t.val / 4) + r.val) (2048 * (t.val % 4) + k.val) := by
  have hi := idx0 t
  unfold B0 iblk0
  rw [View.read_apply]
  show V c main_arg1 _ = _
  refine (at2_of_val (Lm V c) _ ?_ ?_).symm
  · show win0_0.index t 0 * 1024 + 1 * r.val = _
    rw [hi.1]; omega
  · show win0_0.index t 1 * 2048 + 1 * k.val = _
    rw [hi.2]; omega

/-- The right window's block at point `t`: rows 2048·(t % 4) + k of the right factor, all 64 columns. -/
theorem iblk1_apply (c : Dev nD) (t : Fin cfg0.N) (k : Fin 2048) (b : Fin 64) :
    B1 V c t (ix2 k b) = at2 (Rm V c) (2048 * (t.val % 4) + k.val) b.val := by
  have hi := idx1 t
  unfold B1 iblk0
  rw [View.read_apply]
  show V c main_v0 _ = _
  refine (at2_of_val (Rm V c) _ ?_ ?_).symm
  · show win0_1.index t 0 * 2048 + 1 * k.val = _
    rw [hi.1]; omega
  · show win0_1.index t 1 * 64 + 1 * b.val = _
    rw [hi.2]; omega

/-- The product of point `t`'s two blocks at an entry is the chunk of the row-by-column product over the point's 2048
    positions of the contracted axis. -/
theorem chunk_eq (c : Dev nD) (t : Fin cfg0.N) (r : Fin 1024) (b : Fin 64) :
    ∑ k : Fin 2048, B0 V c t (ix2 r k) * B1 V c t (ix2 k b)
      = ∑ k ∈ Finset.range 2048, at2 (Lm V c) (1024 * (t.val / 4) + r.val) (2048 * (t.val % 4) + k)
          * at2 (Rm V c) (2048 * (t.val % 4) + k) b.val := by
  rw [← chunk_fin (Lm V c) (Rm V c) (1024 * (t.val / 4) + r.val) b.val (2048 * (t.val % 4)) 2048]
  exact Finset.sum_congr rfl fun k _ => by rw [iblk0_apply V c t r k, iblk1_apply V c t k b]

/-- One point's step: an accumulator holding the product over the positions before the point's chunk holds, after the
    body's arithmetic, the product over the positions through the chunk. -/
theorem step (c : Dev nD) (t : Fin cfg0.N) (prev : FVec Ideal S1024x64 .f32) (r : Fin 1024) (b : Fin 64)
    (hprev : prev (ix2 r b) = pdot (Lm V c) (Rm V c) (1024 * (t.val / 4) + r.val) b.val (2048 * (t.val % 4))) :
    k0_pay3 (F := Ideal) (B0 V c t) (B1 V c t) prev (ix2 r b)
      = pdot (Lm V c) (Rm V c) (1024 * (t.val / 4) + r.val) b.val (2048 * (t.val % 4 + 1)) := by
  rw [pay3_apply (B0 V c t) (B1 V c t) prev r b, hprev, chunk_eq V c t r b, Nat.mul_add, Nat.mul_one, pdot_add]

/-- After point `n` the accumulated output's staging buffer holds, at entry (r, b), row 1024·(n / 4) + r of the left
    factor against column b of the right one over the first 2048·(n % 4 + 1) positions: by induction on the point. -/
theorem outsAt_eq (c : Dev nD) : ∀ (n : ℕ) (h : n < cfg0.N) (r : Fin 1024) (b : Fin 64),
    (outsAt0 V c n h).1 (ix2 r b) = pdot (Lm V c) (Rm V c) (1024 * (n / 4) + r.val) b.val (2048 * (n % 4 + 1))
  | 0, h, r, b => by
    rw [outsAt0_A V c ⟨0, h⟩ rfl]
    dsimp only
    rw [out_A_2]
    exact step V c ⟨0, h⟩ (k0_pay1 (F := Ideal)) r b (by rw [pay1_apply]; exact (pdot_zero _ _ _ _).symm)
  | n + 1, h, r, b => by
    by_cases h0 : (n + 1) % 4 = 0
    · rw [outsAt0_A V c ⟨n + 1, h⟩ h0]
      dsimp only
      rw [out_A_2]
      refine step V c ⟨n + 1, h⟩ (k0_pay1 (F := Ideal)) r b ?_
      rw [pay1_apply]
      show 0 = pdot _ _ _ _ (2048 * ((n + 1) % 4))
      rw [h0]
      exact (pdot_zero _ _ _ _).symm
    · rw [outsAt0_B V c ⟨n + 1, h⟩ h0]
      dsimp only
      rw [out_B_2]
      refine step V c ⟨n + 1, h⟩ (outsAt0 V c n (Nat.lt_of_succ_lt h)).1 r b ?_
      rw [outsAt_eq c n (Nat.lt_of_succ_lt h) r b]
      show pdot _ _ (1024 * (n / 4) + r.val) _ (2048 * (n % 4 + 1)) = pdot _ _ (1024 * ((n + 1) / 4) + r.val) _ (2048 * ((n + 1) % 4))
      rw [show n / 4 = (n + 1) / 4 by omega, show n % 4 + 1 = (n + 1) % 4 by omega]

/-- After every point the copy's staging buffer holds the point's left block. -/
theorem copyAt_eq (c : Dev nD) (t : Fin cfg0.N) : (outsAt0 V c t.val t.isLt).2 = k0_pay2 (F := Ideal) (B0 V c t) := by
  by_cases h0 : t.val % 4 = 0
  · rw [outsAt0_A V c t h0]
    dsimp only
    rw [out_A_3]
  · rw [outsAt0_B V c t h0]
    dsimp only
    rw [out_B_3]

/-- The product array: entry (a, b) is row a of the left factor against column b of the right one over all 8192
    positions of the contracted axis. -/
def G (c : Dev nD) : (⟨2, ![8192, 64]⟩ : Shape).Idx → EReal :=
  fun i => pdot (Lm V c) (Rm V c) (i 0).val (i 1).val 8192

/-- At the last point of a row block (t % 4 = 3) the accumulated buffer's entry j is the product array's entry in row
    1024·(t / 4) + j₀, column j₁: all four chunks are in. -/
theorem outs_flush (c : Dev nD) (t : Fin cfg0.N) (h3 : t.val % 4 = 3) (j : S1024x64.Idx) (i : S8192x64.Idx)
    (h0 : (i 0).val = 1024 * (t.val / 4) + (j 0).val) (h1 : (i 1).val = (j 1).val) :
    (outsAt0 V c t.val t.isLt).1 j = G V c i := by
  obtain ⟨r, b, rfl⟩ : ∃ (r : Fin 1024) (b : Fin 64), j = ix2 r b := ⟨j 0, j 1, eq_ix2 j⟩
  rw [outsAt_eq V c t.val t.isLt r b, h3]
  unfold G
  rw [h0, h1]

/-- Every write-back of the accumulated output writes its block of the product array. -/
theorem flushed_eq2 (c : Dev nD) (t : Fin cfg0.N) (hf : (cfg0.win 2).flush t = true) :
    (dat0 V c).flushed 2 t = ((cfg0.win 2).blk t).view.read (Elt Ideal) (G V c) := by
  have h3 : t.val % 4 = 3 := (flush0_2 t).mp hf
  have hi := idx2 t
  show (cfg0.win 2).cut (grid0.coords t) ((dat0 V c).after 2 t) = _
  rw [after0_2]
  funext y
  rw [View.read_apply]
  show (outsAt0 V c t.val t.isLt).1 _ = G V c _
  refine outs_flush V c t h3 _ _ ?_ ?_
  · show win0_2.index t 0 * 1024 + 1 * (y 0).val = _
    rw [hi.1]; show _ = 1024 * (t.val / 4) + (y 0).val; omega
  · show win0_2.index t 1 * 64 + 1 * (y 1).val = _
    rw [hi.2]; show _ = (y 1).val; omega

/-- The eight write-backs (points 4·q + 3) tile the product's array by row blocks, so it ends holding the product array. -/
theorem final_2 (c : Dev nD) : (dat0 V c).arrAt 2 cfg0.N = G V c :=
  (dat0 V c).arrAt_eq_of_cover 2 (G V c) (flushed_eq2 V c) fun i => by
    have hN : cfg0.N = 32 := N_0
    have hi0 : (i 0 : Nat) < 8192 := (i 0).isLt
    have hi1 : (i 1 : Nat) < 64 := (i 1).isLt
    have ht : 4 * ((i 0 : Nat) / 1024) + 3 < cfg0.N := by rw [hN]; omega
    have hi := idx2 ⟨4 * ((i 0 : Nat) / 1024) + 3, ht⟩
    refine ⟨⟨4 * ((i 0 : Nat) / 1024) + 3, ht⟩, (flush0_2 _).mpr (by show (4 * ((i 0 : Nat) / 1024) + 3) % 4 = 3; omega), ?_⟩
    show i ∈ ((View.whole main_v1_0).slice (win0_2.rect ⟨4 * ((i 0 : Nat) / 1024) + 3, ht⟩)).set
    rw [View.set_slice_whole, Rect.mem_set_unit]
    intro a
    match a with
    | ⟨0, _⟩ =>
      show win0_2.index ⟨4 * ((i 0 : Nat) / 1024) + 3, ht⟩ 0 * 1024 ≤ (i 0 : Nat)
        ∧ (i 0 : Nat) < win0_2.index ⟨4 * ((i 0 : Nat) / 1024) + 3, ht⟩ 0 * 1024 + 1024
      rw [hi.1]
      show (4 * ((i 0 : Nat) / 1024) + 3) / 4 * 1024 ≤ (i 0 : Nat) ∧ (i 0 : Nat) < (4 * ((i 0 : Nat) / 1024) + 3) / 4 * 1024 + 1024
      omega
    | ⟨1, _⟩ =>
      show win0_2.index ⟨4 * ((i 0 : Nat) / 1024) + 3, ht⟩ 1 * 64 ≤ (i 1 : Nat)
        ∧ (i 1 : Nat) < win0_2.index ⟨4 * ((i 0 : Nat) / 1024) + 3, ht⟩ 1 * 64 + 64
      rw [hi.2]
      omega

/-- Every point writes back, into the copy's array, its block of the left factor. -/
theorem flushed_eq3 (c : Dev nD) (t : Fin cfg0.N) (hf : (cfg0.win 3).flush t = true) :
    (dat0 V c).flushed 3 t = ((cfg0.win 3).blk t).view.read (Elt Ideal) (Lm V c) := by
  have hi := idx3 t
  show (cfg0.win 3).cut (grid0.coords t) ((dat0 V c).after 3 t) = _
  rw [after0_3, copyAt_eq V c t]
  funext y
  rw [View.read_apply]
  show B0 V c t _ = Lm V c _
  refine iblk0_at V c t _ _ ?_ ?_
  · show win0_3.index t 0 * 1024 + 1 * (y 0).val = _
    rw [hi.1]; show _ = 1024 * (t.val / 4) + (y 0).val; omega
  · show win0_3.index t 1 * 2048 + 1 * (y 1).val = _
    rw [hi.2]; show _ = 2048 * (t.val % 4) + (y 1).val; omega

/-- The 32 blocks (row block t / 4, column block t % 4) tile the copy's array, so it ends holding the left factor. -/
theorem final_3 (c : Dev nD) : (dat0 V c).arrAt 3 cfg0.N = Lm V c :=
  (dat0 V c).arrAt_eq_of_cover 3 (Lm V c) (flushed_eq3 V c) fun i => by
    have hN : cfg0.N = 32 := N_0
    have hi0 : (i 0 : Nat) < 8192 := (i 0).isLt
    have hi1 : (i 1 : Nat) < 8192 := (i 1).isLt
    have ht : 4 * ((i 0 : Nat) / 1024) + (i 1 : Nat) / 2048 < cfg0.N := by rw [hN]; omega
    have hi := idx3 ⟨4 * ((i 0 : Nat) / 1024) + (i 1 : Nat) / 2048, ht⟩
    refine ⟨⟨4 * ((i 0 : Nat) / 1024) + (i 1 : Nat) / 2048, ht⟩, flush0_3 _, ?_⟩
    show i ∈ ((View.whole main_v1_1).slice (win0_3.rect ⟨4 * ((i 0 : Nat) / 1024) + (i 1 : Nat) / 2048, ht⟩)).set
    rw [View.set_slice_whole, Rect.mem_set_unit]
    intro a
    match a with
    | ⟨0, _⟩ =>
      show win0_3.index ⟨4 * ((i 0 : Nat) / 1024) + (i 1 : Nat) / 2048, ht⟩ 0 * 1024 ≤ (i 0 : Nat)
        ∧ (i 0 : Nat) < win0_3.index ⟨4 * ((i 0 : Nat) / 1024) + (i 1 : Nat) / 2048, ht⟩ 0 * 1024 + 1024
      rw [hi.1]
      show (4 * ((i 0 : Nat) / 1024) + (i 1 : Nat) / 2048) / 4 * 1024 ≤ (i 0 : Nat)
        ∧ (i 0 : Nat) < (4 * ((i 0 : Nat) / 1024) + (i 1 : Nat) / 2048) / 4 * 1024 + 1024
      omega
    | ⟨1, _⟩ =>
      show win0_3.index ⟨4 * ((i 0 : Nat) / 1024) + (i 1 : Nat) / 2048, ht⟩ 1 * 2048 ≤ (i 1 : Nat)
        ∧ (i 1 : Nat) < win0_3.index ⟨4 * ((i 0 : Nat) / 1024) + (i 1 : Nat) / 2048, ht⟩ 1 * 2048 + 2048
      rw [hi.2]
      show (4 * ((i 0 : Nat) / 1024) + (i 1 : Nat) / 2048) % 4 * 2048 ≤ (i 1 : Nat)
        ∧ (i 1 : Nat) < (4 * ((i 0 : Nat) / 1024) + (i 1 : Nat) / 2048) % 4 * 2048 + 2048
      omega

/-- The two result arrays after the region, as arrays of extended reals. -/
abbrev Res2 (c : Dev nD) : (⟨2, ![8192, 64]⟩ : Shape).Idx → EReal := (dat0 V c).arrAt 2 cfg0.N
abbrev Res3 (c : Dev nD) : (⟨2, ![8192, 8192]⟩ : Shape).Idx → EReal := (dat0 V c).arrAt 3 cfg0.N

/-- **Region 0's product**: the first result array is the plain matrix product of the two arrays the region was given. -/
theorem region0_result (c : Dev nD) (a : Fin 8192) (b : Fin 64) :
    Res2 V c (ix2 a b) = ∑ k : Fin 8192, Lm V c (ix2 a k) * Rm V c (ix2 k b) := by
  unfold Res2
  rw [final_2 V c]
  show ∑ k ∈ Finset.range 8192, at2 (Lm V c) a.val k * at2 (Rm V c) k b.val = _
  rw [← Fin.sum_univ_eq_sum_range (fun k => at2 (Lm V c) a.val k * at2 (Rm V c) k b.val) 8192]
  exact Finset.sum_congr rfl fun k _ => by
    rw [at2_of_val (Lm V c) (ix2 a k) rfl rfl, at2_of_val (Rm V c) (ix2 k b) rfl rfl]

/-- **Region 0's copy**: the second result array is the left factor, entry by entry. -/
theorem region0_copy (c : Dev nD) (a k : Fin 8192) : Res3 V c (ix2 a k) = Lm V c (ix2 a k) := by
  unfold Res3
  rw [final_3 V c]

end

end Cert.KernelIdeal.Region0

end
-- ==== Proof.Region1Cases.lean ====
/-
  The fused product kernel on 64-column blocks: what each of its three control cases leaves in the output block.

  The body runs on a grid of row blocks by contraction blocks, the contraction block last. At the first contraction
  block of a row block it zeroes the output block, then adds the product of the left block by the right block; at a
  middle one it only adds the product; at the last one it adds the product and then replaces the sum `s` by
  `2 · s − t₀`, `t₀` the block of the third operand. Each case's stores cover the output block, so what the block holds
  afterwards is the last store's payload, a term of the blocks read (the loads read whole buffers at zero offsets).
  The statements hold for any float values.
-/
import proofs.«167089_j23330262352454_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- Between the two ends of a run (kb ∈ {1, 2}) the body leaves, in the output block holding `xo`, `xo` plus the product
    of the two input blocks: its one store's payload, whose loads read the whole buffers. -/
theorem out_B (c : Dev nD) (i : grid1.Coords) (a0 : Memref sig .tc .vmem S1024x2048 .bf16) (h0 : a0.IsWhole) (a1 : Memref sig .tc .vmem S2048x64 .f32) (h1 : a1.IsWhole) (a2 : Memref sig .tc .vmem S1024x64 .f32) (h2 : a2.IsWhole) (a3 : Memref sig .tc .vmem S1024x64 .f32) (h3 : a3.IsWhole) (hc0 : ¬cond1_0 i) (hc1 : ¬cond1_1 i)
    (x0 : Vec F S1024x2048 .bf16) (x1 : Vec F S2048x64 .f32) (x2 : Vec F S1024x64 .f32) (xo : Vec F S1024x64 .f32) :
    out1_B_3 c i a0 h0 a1 h1 a2 h2 a3 h3 hc0 hc1 x0 x1 x2 xo = k1_pay2 x0 x1 xo := by
  unfold out1_B_3
  rw [View.read_writes_eq_canon _ _ _ (cover1_B_3 c i a0 h0 a1 h1 a2 h2 a3 h3 hc0 hc1 x0 x1 x2 xo)]
  unfold kernelRun1_B
  dsimp only
  rw [View.canon_unit_zero hz]
  simp only [View.readAt_eq_ld, h0.read_unread, h1.read_unread, h3.read_unread, View.ld_unit_zero (S := S1024x2048) hz,
    View.ld_unit_zero (S := S2048x64) hz, View.ld_unit_zero (S := S1024x64) hz]

/-- At the first point of a run the body stores the zero block, reads it back, and leaves the zero block plus the product
    of the two input blocks. -/
theorem out_A (c : Dev nD) (i : grid1.Coords) (a0 : Memref sig .tc .vmem S1024x2048 .bf16) (h0 : a0.IsWhole) (a1 : Memref sig .tc .vmem S2048x64 .f32) (h1 : a1.IsWhole) (a2 : Memref sig .tc .vmem S1024x64 .f32) (h2 : a2.IsWhole) (a3 : Memref sig .tc .vmem S1024x64 .f32) (h3 : a3.IsWhole) (hc0 : cond1_0 i) (hc1 : ¬cond1_1 i)
    (x0 : Vec F S1024x2048 .bf16) (x1 : Vec F S2048x64 .f32) (x2 : Vec F S1024x64 .f32) :
    out1_A_3 c i a0 h0 a1 h1 a2 h2 a3 h3 hc0 hc1 x0 x1 x2 = k1_pay2 x0 x1 (k1_pay1 (F := F)) := by
  unfold out1_A_3
  rw [View.read_writes_eq_canon _ _ _ (cover1_A_3 c i a0 h0 a1 h1 a2 h2 a3 h3 hc0 hc1 x0 x1 x2)]
  unfold kernelRun1_A
  dsimp only
  sl_unfold_words
  rw [View.canon_cons_unit_zero (S := S1024x64) hz, View.readCov_unit_zero (S := S1024x64) _ hz]
  simp only [View.readAt_eq_ld, h0.read_unread, h1.read_unread, View.ld_unit_zero (S := S1024x2048) hz,
    View.ld_unit_zero (S := S2048x64) hz]

/-- At the last point of a run the body first adds the product as at a middle point, reads the sum back, and leaves
    twice the sum minus the third input block. -/
theorem out_C (c : Dev nD) (i : grid1.Coords) (a0 : Memref sig .tc .vmem S1024x2048 .bf16) (h0 : a0.IsWhole) (a1 : Memref sig .tc .vmem S2048x64 .f32) (h1 : a1.IsWhole) (a2 : Memref sig .tc .vmem S1024x64 .f32) (h2 : a2.IsWhole) (a3 : Memref sig .tc .vmem S1024x64 .f32) (h3 : a3.IsWhole) (hc0 : ¬cond1_0 i) (hc1 : cond1_1 i)
    (x0 : Vec F S1024x2048 .bf16) (x1 : Vec F S2048x64 .f32) (x2 : Vec F S1024x64 .f32) (xo : Vec F S1024x64 .f32) :
    out1_C_3 c i a0 h0 a1 h1 a2 h2 a3 h3 hc0 hc1 x0 x1 x2 xo = k1_pay3 (k1_pay2 x0 x1 xo) x2 := by
  unfold out1_C_3
  rw [View.read_writes_eq_canon _ _ _ (cover1_C_3 c i a0 h0 a1 h1 a2 h2 a3 h3 hc0 hc1 x0 x1 x2 xo)]
  unfold kernelRun1_C
  dsimp only
  sl_unfold_words
  rw [View.canon_cons_unit_zero (S := S1024x64) hz, View.readCov_unit_zero (S := S1024x64) _ hz]
  simp only [View.readAt_eq_ld, h0.read_unread, h1.read_unread, h2.read_unread, h3.read_unread, View.ld_unit_zero (S := S1024x2048) hz,
    View.ld_unit_zero (S := S2048x64) hz, View.ld_unit_zero (S := S1024x64) hz]

end Cert.KernelIdeal.Region1
end
-- ==== Proof.Region1Blocks.lean ====
/-
  The fused product kernel on 64-column blocks: each input block at a grid point, as entries of its array.

  Grid point `t` (32 of them, the contraction block last) is row block `t / 4`, contraction block `t % 4`. The left operand
  (8192 × 8192) is cut into 1024 × 2048 blocks indexed (row block, contraction block); the right operand (8192 × 64) into
  2048 × 64 blocks indexed by the contraction block; the third operand and the result (8192 × 64) into 1024 × 64 blocks
  indexed by the row block. So entry (r, q) of a block is the array's entry at (block index × block size + coordinate), axis
  by axis. The statements hold for any float values and any contents of the arrays when the kernel starts.
-/
import proofs.«167089_j23330262352454_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable {F : FTy → Type} [FloatOps F]

variable (V : (c : Dev nD) → (b : Ref sig .tc) → Buf (Elt F) ((c : Thread nD τ).loc b))

/-- Point `t` of the grid is row block `t / 4`, contraction block `t % 4`; the four windows' block indices there. -/
theorem idx0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem idx1 : ∀ t : Fin cfg1.N, win1_1.index t 0 = t.val % 4 ∧ win1_1.index t 1 = 0 :=
  (by decide +kernel : ∀ t : Fin grid1.N, win1_1.index t 0 = t.val % 4 ∧ win1_1.index t 1 = 0)
theorem idx2 : ∀ t : Fin cfg1.N, win1_2.index t 0 = t.val / 4 ∧ win1_2.index t 1 = 0 :=
  (by decide +kernel : ∀ t : Fin grid1.N, win1_2.index t 0 = t.val / 4 ∧ win1_2.index t 1 = 0)
theorem idx3 : ∀ t : Fin cfg1.N, win1_3.index t 0 = t.val / 4 ∧ win1_3.index t 1 = 0 :=
  (by decide +kernel : ∀ t : Fin grid1.N, win1_3.index t 0 = t.val / 4 ∧ win1_3.index t 1 = 0)

/-- The left operand's block at point `t`: rows `1024·(t/4) + r`, columns `2048·(t%4) + q` of the 8192 × 8192 array. -/
theorem iblk0_apply (c : Dev nD) (t : Fin cfg1.N) (r : Fin 1024) (q : Fin 2048) (k : S8192x8192.Idx)
    (hk0 : (k 0).val = 1024 * (t.val / 4) + r.val) (hk1 : (k 1).val = 2048 * (t.val % 4) + q.val) :
    (iblk1 V c 0 t : Vec F S1024x2048 .bf16) (ix2 r q) = (V c main_v1_1 : S8192x8192.Idx → Elt F .bf16) k := by
  have hi := idx0 t
  unfold iblk1
  rw [View.read_apply]
  show V c main_v1_1 _ = V c main_v1_1 _
  refine congrArg (V c main_v1_1) ?_
  funext a
  apply Fin.ext
  match a with
  | ⟨0, _⟩ => show win1_0.index t 0 * 1024 + 1 * r.val = (k 0).val; rw [hi.1, hk0]; omega
  | ⟨1, _⟩ => show win1_0.index t 1 * 2048 + 1 * q.val = (k 1).val; rw [hi.2, hk1]; omega

/-- The right operand's block at point `t`: rows `2048·(t%4) + q` of the 8192 × 64 array. -/
theorem iblk1_apply (c : Dev nD) (t : Fin cfg1.N) (q : Fin 2048) (b : Fin 64) (k : S8192x64.Idx)
    (hk0 : (k 0).val = 2048 * (t.val % 4) + q.val) (hk1 : (k 1).val = b.val) :
    (iblk1 V c 1 t : Vec F S2048x64 .f32) (ix2 q b) = (V c main_v1_0 : S8192x64.Idx → Elt F .f32) k := by
  have hi := idx1 t
  unfold iblk1
  rw [View.read_apply]
  show V c main_v1_0 _ = V c main_v1_0 _
  refine congrArg (V c main_v1_0) ?_
  funext a
  apply Fin.ext
  match a with
  | ⟨0, _⟩ => show win1_1.index t 0 * 2048 + 1 * q.val = (k 0).val; rw [hi.1, hk0]; omega
  | ⟨1, _⟩ => show win1_1.index t 1 * 64 + 1 * b.val = (k 1).val; rw [hi.2, hk1]; omega

/-- The third operand's block at point `t`: rows `1024·(t/4) + r` of the 8192 × 64 array. -/
theorem iblk2_apply (c : Dev nD) (t : Fin cfg1.N) (r : Fin 1024) (b : Fin 64) (k : S8192x64.Idx)
    (hk0 : (k 0).val = 1024 * (t.val / 4) + r.val) (hk1 : (k 1).val = b.val) :
    (iblk1 V c 2 t : Vec F S1024x64 .f32) (ix2 r b) = (V c main_v0 : S8192x64.Idx → Elt F .f32) k := by
  have hi := idx2 t
  unfold iblk1
  rw [View.read_apply]
  show V c main_v0 _ = V c main_v0 _
  refine congrArg (V c main_v0) ?_
  funext a
  apply Fin.ext
  match a with
  | ⟨0, _⟩ => show win1_2.index t 0 * 1024 + 1 * r.val = (k 0).val; rw [hi.1, hk0]; omega
  | ⟨1, _⟩ => show win1_2.index t 1 * 64 + 1 * b.val = (k 1).val; rw [hi.2, hk1]; omega

end Cert.KernelIdeal.Region1
end
-- ==== Proof.Region1Step.lean ====
/-
  The fused product kernel on 64-column blocks: its arithmetic on the extended reals, at one entry of the output block.

  At the ideal values rounding to bf16 is the identity and the matrix unit's product into the zero block is a plain
  sum of products. So the accumulation step adds to entry (r, b) of the output block the sum over the 2048 positions
  q of the contraction block of `x₀[r, q] · x₁[q, b]`; the first step starts from the zero block; the last one then
  replaces the sum `s` by `2 · s − t₀[r, b]`. Rows, columns and contracted positions of the full arrays are natural
  numbers (block offset plus position in the block), so a step is "the next 2048 positions add their chunk" of the
  row-by-column product over an initial segment of the contracted axis. No finiteness is used: only that a finite sum
  over a range splits at a point, and `0 + x = x`. The factor 2 is kept as the literal's value, never evaluated, and
  never distributed over the sum.
-/
import proofs.«167089_j23330262352454_2_alg».proof.Proof.Gen.KernelIdeal.Skeleton
import proofs.«167089_j23330262352454_2_alg».proof.Proof.LibPlainMatmul
import proofs.«167089_j23330262352454_2_alg».proof.Proof.LibBlockDot
import Idealize.ShloMosaic.Lib.Pipeline.Value

noncomputable section

open scoped BigOperators
open Idealize.ShloMosaic Idealize.ShloMosaic.ValueIdx

namespace Cert.KernelIdeal.Region1

open Cert.KernelIdeal Cert.KernelIdeal.Gen Cert.BlockDot

/-- The literal 2.0 of the epilogue, as an extended real: the value of its f32 word, left unevaluated. -/
abbrev two : EReal := Ideal.ofBits .f32 0x40000000#32

/-- The zero block the first step stores, at an entry. -/
theorem pay1_apply (r : Fin 1024) (b : Fin 64) : k1_pay1 (F := Ideal) (ix2 r b) = 0 :=
  Ideal.ofBits_zero_f32

/-- The accumulation step at an entry: what the block held plus the sum of products over the contraction block. -/
theorem pay2_apply (x0 : FVec Ideal S1024x2048 .bf16) (x1 : FVec Ideal S2048x64 .f32) (xo : FVec Ideal S1024x64 .f32)
    (r : Fin 1024) (b : Fin 64) :
    k1_pay2 (F := Ideal) x0 x1 xo (ix2 r b) = xo (ix2 r b) + ∑ q : Fin 2048, x0 (ix2 r q) * x1 (ix2 q b) := by
  have hm := PlainMatmul.matmul_zero_apply (m := 1024) (k := 2048) (n := 64) none x0 x1 r b
  unfold k1_pay2
  simp only [shapeCast_self]
  exact congrArg (xo (ix2 r b) + ·) hm

/-- The epilogue at an entry: twice the sum minus the third operand's entry. -/
theorem pay3_apply (s t0 : FVec Ideal S1024x64 .f32) (r : Fin 1024) (b : Fin 64) :
    k1_pay3 (F := Ideal) s t0 (ix2 r b) = two * s (ix2 r b) - t0 (ix2 r b) := by
  unfold k1_pay3
  simp only [shapeCast_self]
  rfl

/-- ONE ACCUMULATION STEP on the running product: if the input blocks' entries are the arrays' entries at row `R`,
    column `b` and contracted positions `n, …, n + 2047`, and the block held the product over the first `n` positions,
    it now holds the product over the first `n + 2048`. -/
theorem step (X : S8192x8192.Idx → EReal) (W : S8192x64.Idx → EReal)
    (x0 : FVec Ideal S1024x2048 .bf16) (x1 : FVec Ideal S2048x64 .f32) (xo : FVec Ideal S1024x64 .f32)
    (R n : ℕ) (r : Fin 1024) (b : Fin 64)
    (hx0 : ∀ q : Fin 2048, x0 (ix2 r q) = at2 X R (n + q.val))
    (hx1 : ∀ q : Fin 2048, x1 (ix2 q b) = at2 W (n + q.val) b.val)
    (hxo : xo (ix2 r b) = pdot X W R b.val n) :
    k1_pay2 (F := Ideal) x0 x1 xo (ix2 r b) = pdot X W R b.val (n + 2048) := by
  rw [pay2_apply, hxo, pdot_add, ← chunk_fin]
  exact congrArg (pdot X W R b.val n + ·) (Finset.sum_congr rfl fun q _ => by rw [hx0 q, hx1 q])

/-- THE FIRST STEP of a run: from the zero block, the product over the first 2048 positions. -/
theorem step_first (X : S8192x8192.Idx → EReal) (W : S8192x64.Idx → EReal)
    (x0 : FVec Ideal S1024x2048 .bf16) (x1 : FVec Ideal S2048x64 .f32)
    (R : ℕ) (r : Fin 1024) (b : Fin 64)
    (hx0 : ∀ q : Fin 2048, x0 (ix2 r q) = at2 X R (0 + q.val))
    (hx1 : ∀ q : Fin 2048, x1 (ix2 q b) = at2 W (0 + q.val) b.val) :
    k1_pay2 (F := Ideal) x0 x1 (k1_pay1 (F := Ideal)) (ix2 r b) = pdot X W R b.val (0 + 2048) :=
  step X W x0 x1 (k1_pay1 (F := Ideal)) R 0 r b hx0 hx1 ((pay1_apply r b).trans (pdot_zero X W R b.val).symm)

/-- THE LAST STEP of a run: the accumulation step, then twice the sum minus the third operand's entry. -/
theorem step_last (X : S8192x8192.Idx → EReal) (W : S8192x64.Idx → EReal)
    (x0 : FVec Ideal S1024x2048 .bf16) (x1 : FVec Ideal S2048x64 .f32) (x2 xo : FVec Ideal S1024x64 .f32)
    (R n : ℕ) (r : Fin 1024) (b : Fin 64)
    (hx0 : ∀ q : Fin 2048, x0 (ix2 r q) = at2 X R (n + q.val))
    (hx1 : ∀ q : Fin 2048, x1 (ix2 q b) = at2 W (n + q.val) b.val)
    (hxo : xo (ix2 r b) = pdot X W R b.val n) :
    k1_pay3 (F := Ideal) (k1_pay2 (F := Ideal) x0 x1 xo) x2 (ix2 r b) = two * pdot X W R b.val (n + 2048) - x2 (ix2 r b) := by
  rw [pay3_apply, step X W x0 x1 xo R n r b hx0 hx1 hxo]

end Cert.KernelIdeal.Region1
end
-- ==== Proof.Region1.lean ====
/-
  The fused product kernel on 64-column blocks: its result array at the ideal values.

  The kernel multiplies an 8192 × 8192 left operand `L` by an 8192 × 64 right operand, 1024 rows and 2048 contracted
  positions at a time: grid point `t` (32 of them) is row block `t / 4`, contraction block `t % 4`, the contraction block
  last, and the 1024 × 64 output block stays in place through the four points of its row block. It is zeroed at the first,
  gains the block product at each, and at the fourth is replaced by `2 · s − t₀` of the sum `s` and the third operand's
  block `t₀`, then written back. Over the extended reals the four block products add up to the whole row-by-column
  product: after point `n` the block holds the product over the first `2048·(n % 4 + 1)` contracted positions (`held`,
  by induction on the point), so each write-back writes its block of one array (`result`), the eight write-backs' blocks
  cover it, and the result array ends holding, at (a, b), `2 · (∑ₖ L[a, k] · rhs[k, b]) − t₀[a, b]`. The sum needs no
  finiteness: only that a finite sum over a range splits at a point, and `0 + x = x`. The factor 2 is the value of the
  literal's f32 word, never evaluated and never distributed over the sum. The contents of the arrays when the kernel
  starts are arbitrary.
-/
import proofs.«167089_j23330262352454_2_alg».proof.Proof.Region1Cases
import proofs.«167089_j23330262352454_2_alg».proof.Proof.Region1Blocks
import proofs.«167089_j23330262352454_2_alg».proof.Proof.Region1Step

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.BlockDot

variable (V : (c : Dev nD) → (b : Ref sig .tc) → Buf (Elt Ideal) ((c : Thread nD τ).loc b))

/-- The three operands as the kernel finds them, as arrays of extended reals. -/
abbrev X (c : Dev nD) : S8192x8192.Idx → EReal := V c main_v1_1
abbrev W (c : Dev nD) : S8192x64.Idx → EReal := V c main_v1_0
abbrev T (c : Dev nD) : S8192x64.Idx → EReal := V c main_v0

theorem lt32 (t : Fin cfg1.N) : t.val < 32 := lt_of_lt_of_eq t.isLt (show cfg1.N = 32 from N_1)

/-- The left block's entry (r, q) at point `t` is the left operand's entry at row `1024·(t/4) + r`, column `2048·(t%4) + q`. -/
theorem x0_at (c : Dev nD) (t : Fin cfg1.N) (r : Fin 1024) (q : Fin 2048) :
    (iblk1 V c 0 t : Vec Ideal S1024x2048 .bf16) (ix2 r q)
      = at2 (X V c) (1024 * (t.val / 4) + r.val) (2048 * (t.val % 4) + q.val) := by
  have hN := lt32 t
  have hR : 1024 * (t.val / 4) + r.val < 8192 := by omega
  have hK : 2048 * (t.val % 4) + q.val < 8192 := by omega
  rw [iblk0_apply V c t r q (ix2 ⟨_, hR⟩ ⟨_, hK⟩) rfl rfl]
  exact (at2_of_val (X V c) _ rfl rfl).symm

/-- The right block's entry (q, b) at point `t` is the right operand's entry at row `2048·(t%4) + q`, column `b`. -/
theorem x1_at (c : Dev nD) (t : Fin cfg1.N) (q : Fin 2048) (b : Fin 64) :
    (iblk1 V c 1 t : Vec Ideal S2048x64 .f32) (ix2 q b) = at2 (W V c) (2048 * (t.val % 4) + q.val) b.val := by
  have hN := lt32 t
  have hK : 2048 * (t.val % 4) + q.val < 8192 := by omega
  rw [iblk1_apply V c t q b (ix2 ⟨_, hK⟩ b) rfl rfl]
  exact (at2_of_val (W V c) _ rfl rfl).symm

/-- The third block's entry (r, b) at point `t` is the third operand's entry at row `1024·(t/4) + r`, column `b`. -/
theorem x2_at (c : Dev nD) (t : Fin cfg1.N) (r : Fin 1024) (b : Fin 64) :
    (iblk1 V c 2 t : Vec Ideal S1024x64 .f32) (ix2 r b) = at2 (T V c) (1024 * (t.val / 4) + r.val) b.val := by
  have hN := lt32 t
  have hR : 1024 * (t.val / 4) + r.val < 8192 := by omega
  rw [iblk2_apply V c t r b (ix2 ⟨_, hR⟩ b) rfl rfl]
  exact (at2_of_val (T V c) _ rfl rfl).symm

/-- WHAT THE OUTPUT BLOCK HOLDS after point `n`, at entry (r, b): before the last point of its run of four, the product of
    row `1024·(n/4) + r` by column `b` over the first `2048·(n%4 + 1)` contracted positions; after the last point, twice
    the whole product minus the third operand's entry. -/
def held (c : Dev nD) (n r b : ℕ) : EReal :=
  if n % 4 = 3 then two * pdot (X V c) (W V c) (1024 * (n / 4) + r) b 8192 - at2 (T V c) (1024 * (n / 4) + r) b
  else pdot (X V c) (W V c) (1024 * (n / 4) + r) b (2048 * (n % 4 + 1))

/-- A first point of a run. -/
theorem point_A (c : Dev nD) (t : Fin cfg1.N) (h0 : t.val % 4 = 0) (r : Fin 1024) (b : Fin 64) :
    (outsAt1 V c t.val t.isLt : Vec Ideal S1024x64 .f32) (ix2 r b) = held V c t.val r.val b.val := by
  have h1 : ¬t.val % 4 = 3 := by omega
  rw [outsAt1_A V c t h0 h1, out_A]
  unfold held
  rw [if_neg h1]
  have e1 : 2048 * (t.val % 4 + 1) = 0 + 2048 := by omega
  have e0 : ∀ q : ℕ, 2048 * (t.val % 4) + q = 0 + q := fun q => by omega
  rw [e1]
  exact step_first (X V c) (W V c) (iblk1 V c 0 t) (iblk1 V c 1 t) (1024 * (t.val / 4) + r.val) r b
    (fun q => (x0_at V c t r q).trans (by rw [e0]))
    (fun q => (x1_at V c t q b).trans (by rw [e0]))

/-- A middle point of a run, over what the point before left. -/
theorem point_B (c : Dev nD) (t : Fin cfg1.N) (h0 : ¬t.val % 4 = 0) (h1 : ¬t.val % 4 = 3) (r : Fin 1024) (b : Fin 64)
    (ih : (outsAt1 V c (t.val - 1) (Nat.lt_of_le_of_lt (Nat.sub_le _ _) t.isLt) : Vec Ideal S1024x64 .f32) (ix2 r b)
      = held V c (t.val - 1) r.val b.val) :
    (outsAt1 V c t.val t.isLt : Vec Ideal S1024x64 .f32) (ix2 r b) = held V c t.val r.val b.val := by
  rw [outsAt1_B V c t h0 h1, out_B]
  unfold held
  rw [if_neg h1]
  have e1 : 2048 * (t.val % 4 + 1) = 2048 * (t.val % 4) + 2048 := by omega
  rw [e1]
  refine step (X V c) (W V c) (iblk1 V c 0 t) (iblk1 V c 1 t) _ (1024 * (t.val / 4) + r.val) (2048 * (t.val % 4)) r b
    (fun q => x0_at V c t r q) (fun q => x1_at V c t q b) ?_
  rw [ih]
  unfold held
  have e2 : (t.val - 1) / 4 = t.val / 4 := by omega
  have e3 : 2048 * ((t.val - 1) % 4 + 1) = 2048 * (t.val % 4) := by omega
  rw [if_neg (by omega), e2, e3]

/-- A last point of a run, over what the point before left. -/
theorem point_C (c : Dev nD) (t : Fin cfg1.N) (h0 : ¬t.val % 4 = 0) (h1 : t.val % 4 = 3) (r : Fin 1024) (b : Fin 64)
    (ih : (outsAt1 V c (t.val - 1) (Nat.lt_of_le_of_lt (Nat.sub_le _ _) t.isLt) : Vec Ideal S1024x64 .f32) (ix2 r b)
      = held V c (t.val - 1) r.val b.val) :
    (outsAt1 V c t.val t.isLt : Vec Ideal S1024x64 .f32) (ix2 r b) = held V c t.val r.val b.val := by
  rw [outsAt1_C V c t h0 h1, out_C]
  unfold held
  rw [if_pos h1]
  have e1 : 2048 * (t.val % 4) + 2048 = 8192 := by omega
  refine (step_last (X V c) (W V c) (iblk1 V c 0 t) (iblk1 V c 1 t) (iblk1 V c 2 t) _ (1024 * (t.val / 4) + r.val) (2048 * (t.val % 4)) r b
    (fun q => x0_at V c t r q) (fun q => x1_at V c t q b) ?_).trans ?_
  · rw [ih]
    unfold held
    have e2 : (t.val - 1) / 4 = t.val / 4 := by omega
    have e3 : 2048 * ((t.val - 1) % 4 + 1) = 2048 * (t.val % 4) := by omega
    rw [if_neg (by omega), e2, e3]
  · rw [x2_at V c t r b]
    exact congrArg (fun n => two * pdot (X V c) (W V c) (1024 * (t.val / 4) + r.val) b.val n
      - at2 (T V c) (1024 * (t.val / 4) + r.val) b.val) e1

/-- So after every point the output block holds `held`: by induction on the point, never enumerating the grid. -/
theorem outsAt_eq (c : Dev nD) : ∀ (n : ℕ) (h : n < cfg1.N) (r : Fin 1024) (b : Fin 64),
    (outsAt1 V c n h : Vec Ideal S1024x64 .f32) (ix2 r b) = held V c n r.val b.val
  | 0, h, r, b => point_A V c ⟨0, h⟩ rfl r b
  | n + 1, h, r, b => by
    by_cases h0 : (n + 1) % 4 = 0
    · exact point_A V c ⟨n + 1, h⟩ h0 r b
    · by_cases h1 : (n + 1) % 4 = 3
      · exact point_C V c ⟨n + 1, h⟩ h0 h1 r b (outsAt_eq c n (Nat.lt_of_succ_lt h) r b)
      · exact point_B V c ⟨n + 1, h⟩ h0 h1 r b (outsAt_eq c n (Nat.lt_of_succ_lt h) r b)

/-- THE RESULT ARRAY: at (a, b), twice the product of row `a` of the left operand by column `b` of the right one over all
    8192 contracted positions, minus the third operand's entry. -/
def result (c : Dev nD) : S8192x64.Idx → EReal := fun j =>
  two * pdot (X V c) (W V c) (j 0).val (j 1).val 8192 - at2 (T V c) (j 0).val (j 1).val

theorem result_of_val (c : Dev nD) (j : S8192x64.Idx) (R B : ℕ) (h0 : (j 0).val = R) (h1 : (j 1).val = B) :
    result V c j = two * pdot (X V c) (W V c) R B 8192 - at2 (T V c) R B := by
  subst h0 h1; rfl

/-- Each write-back (at the last point of a run) writes its block of the result array. -/
theorem flushed_eq (c : Dev nD) (t : Fin cfg1.N) (hf : (cfg1.win 3).flush t = true) :
    (dat1 V c).flushed 3 t = ((cfg1.win 3).blk t).view.read (Elt Ideal) (result V c) := by
  have h3 : t.val % 4 = 3 := (flush1_3 t).mp hf
  have hi := idx3 t
  show (cfg1.win 3).cut (grid1.coords t) ((dat1 V c).after 3 t) = _
  rw [after1_3]
  funext y
  obtain ⟨r, b, rfl⟩ : ∃ (r : Fin 1024) (b : Fin 64), y = ix2 r b := ⟨y 0, y 1, eq_ix2 y⟩
  rw [View.read_apply]
  show (outsAt1 V c t.val t.isLt : Vec Ideal S1024x64 .f32) (ix2 r b) = result V c (((cfg1.win 3).blk t).view.emb (ix2 r b))
  rw [outsAt_eq V c t.val t.isLt r b]
  unfold held
  rw [if_pos h3]
  refine (result_of_val V c _ _ _ ?_ ?_).symm
  · show win1_3.index t 0 * 1024 + 1 * r.val = _; rw [hi.1]; omega
  · show win1_3.index t 1 * 64 + 1 * b.val = _; rw [hi.2]; omega

/-- Every entry of the result array lies in the block some write-back writes: row `a` in row block `a / 1024`, written
    at point `4·(a / 1024) + 3`. -/
theorem cover (i : S8192x64.Idx) :
    ∃ t : Fin cfg1.N, (cfg1.win 3).flush t = true ∧ i ∈ ((cfg1.win 3).blk t).view.set := by
  have hN : cfg1.N = 32 := N_1
  have h0 : (i 0).val < 8192 := (i 0).isLt
  have h1 : (i 1).val < 64 := (i 1).isLt
  have ht : 4 * ((i 0).val / 1024) + 3 < cfg1.N := by rw [hN]; omega
  refine ⟨⟨4 * ((i 0).val / 1024) + 3, ht⟩, (flush1_3 _).mpr (by dsimp only; omega), ?_⟩
  have hi := idx3 ⟨4 * ((i 0).val / 1024) + 3, ht⟩
  show i ∈ ((View.whole main_v2).slice (win1_3.rect ⟨4 * ((i 0).val / 1024) + 3, ht⟩)).set
  rw [View.set_slice_whole, Rect.mem_set_unit]
  intro a
  match a with
  | ⟨0, _⟩ =>
    show win1_3.index ⟨4 * ((i 0).val / 1024) + 3, ht⟩ 0 * 1024 ≤ (i 0).val
      ∧ (i 0).val < win1_3.index ⟨4 * ((i 0).val / 1024) + 3, ht⟩ 0 * 1024 + 1024
    rw [hi.1]; dsimp only; omega
  | ⟨1, _⟩ =>
    show win1_3.index ⟨4 * ((i 0).val / 1024) + 3, ht⟩ 1 * 64 ≤ (i 1).val
      ∧ (i 1).val < win1_3.index ⟨4 * ((i 0).val / 1024) + 3, ht⟩ 1 * 64 + 64
    rw [hi.2]; omega

/-- So the result array ends holding `result`. -/
theorem final_arr (c : Dev nD) : (dat1 V c).arrAt 3 cfg1.N = result V c :=
  (dat1 V c).arrAt_eq_of_cover 3 (result V c) (flushed_eq V c) cover

/-- The whole product over the first 8192 positions is the sum over the contracted axis. -/
theorem pdot_full (Xa : S8192x8192.Idx → EReal) (Wa : S8192x64.Idx → EReal) (a : Fin 8192) (b : Fin 64) :
    pdot Xa Wa a.val b.val 8192 = ∑ k : Fin 8192, Xa (ix2 a k) * Wa (ix2 k b) := by
  unfold pdot
  rw [← Fin.sum_univ_eq_sum_range (fun k => at2 Xa a.val k * at2 Wa k b.val) 8192]
  exact Finset.sum_congr rfl fun k _ => by
    rw [at2_of_val Xa (ix2 a k) rfl rfl, at2_of_val Wa (ix2 k b) rfl rfl]

/-- THE REGION'S VALUE: for any contents of the arrays when the kernel starts, its result array ends holding, at (a, b),
    `2 · (∑ₖ L[a, k] · rhs[k, b]) − t₀[a, b]` over the extended reals (`X`, `W`, `T` are the three operands' entry contents
    read as arrays of extended reals; `two` is the value of the literal's f32 word). -/
theorem region1_value (c : Dev nD) (a : Fin 8192) (b : Fin 64) :
    ((dat1 V c).arrAt 3 cfg1.N : S8192x64.Idx → EReal) (ix2 a b)
      = two * (∑ k : Fin 8192, X V c (ix2 a k) * W V c (ix2 k b)) - T V c (ix2 a b) := by
  rw [final_arr V c, result_of_val V c (ix2 a b) a.val b.val rfl rfl, pdot_full, at2_of_val (T V c) (ix2 a b) rfl rfl]

end Cert.KernelIdeal.Region1
end
-- ==== Proof.Region2.lean ====
/-
  Region 2: the blocked matrix product `L · X` of an 8192 × 8192 array `L` by an 8192 × 32 array `X`, at the ideal values.

  The grid has 32 points t = 4·i + k: row block i (1024 rows of `L`) and contraction block k (2048 columns of `L`, the
  matching 2048 rows of `X`). The 1024 × 32 output block of row block i stays in place over k = 0, 1, 2, 3: it is set to
  zero at k = 0 and at every k the product of the two current blocks is added to it; after k = 3 it is written to rows
  1024·i … 1024·i + 1023 of the result. Over the extended reals the format changes are the identity and the matrix
  unit's product into the zero array is the plain sum of products, so after point t the block's entry (r, b) is the
  product of row 1024·(t / 4) + r of `L` with column b of `X` over the first 2048·(t % 4 + 1) positions of the contracted
  axis (`outsAt_eq`, by induction on the point: a finite sum over a range splits at a point). At t % 4 = 3 that is the
  whole row-by-column product; the eight blocks written back tile the result, which therefore is the plain matrix
  product (`final_o`, `region2_result`).
-/
import proofs.«167089_j23330262352454_2_alg».proof.Proof.Gen.KernelIdeal.Frame
import proofs.«167089_j23330262352454_2_alg».proof.Proof.LibPlainMatmul
import proofs.«167089_j23330262352454_2_alg».proof.Proof.LibBlockDot
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Region2

open Cert.KernelIdeal Cert.KernelIdeal.Gen

variable {F : FTy → Type} [FloatOps F]

theorem hz : (![0, 0] : Fin 2 → Nat) = fun _ => 0 := funext fun a => by fin_cases a <;> rfl

/-- What a point after the first of its row block leaves in the output's staging buffer holding `xo`: the body's
    one store, its three loads reading the whole buffers. -/
theorem out_B (c : Dev nD) (i : grid2.Coords) (a2 : Memref sig .tc .vmem S1024x2048 .bf16) (h2 : a2.IsWhole)
    (a3 : Memref sig .tc .vmem S2048x32 .f32) (h3 : a3.IsWhole) (a4 : Memref sig .tc .vmem S1024x32 .f32) (h4 : a4.IsWhole)
    (hc : ¬cond2_0 i) (x0 : Vec F S1024x2048 .bf16) (x1 : Vec F S2048x32 .f32) (xo : Vec F S1024x32 .f32) :
    out2_B_2 c i a2 h2 a3 h3 a4 h4 hc x0 x1 xo = k2_pay2 x0 x1 xo := by
  unfold out2_B_2
  rw [View.read_writes_eq_canon _ _ _ (cover2_B_2 c i a2 h2 a3 h3 a4 h4 hc x0 x1 xo)]
  unfold kernelRun2_B
  dsimp only
  rw [View.canon_unit_zero hz]
  simp only [View.readAt_eq_ld, h2.read_unread, h3.read_unread, h4.read_unread, View.ld_unit_zero (S := S1024x2048) hz,
    View.ld_unit_zero (S := S2048x32) hz, View.ld_unit_zero (S := S1024x32) hz]

/-- What the first point of a row block leaves: the zero block is stored, read back, and the product added to it. -/
theorem out_A (c : Dev nD) (i : grid2.Coords) (a2 : Memref sig .tc .vmem S1024x2048 .bf16) (h2 : a2.IsWhole)
    (a3 : Memref sig .tc .vmem S2048x32 .f32) (h3 : a3.IsWhole) (a4 : Memref sig .tc .vmem S1024x32 .f32) (h4 : a4.IsWhole)
    (hc : cond2_0 i) (x0 : Vec F S1024x2048 .bf16) (x1 : Vec F S2048x32 .f32) :
    out2_A_2 c i a2 h2 a3 h3 a4 h4 hc x0 x1 = k2_pay2 x0 x1 k2_pay1 := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S1024x32) hz, View.readCov_unit_zero (S := S1024x32) _ hz]
  simp only [View.readAt_eq_ld, h2.read_unread, h3.read_unread, View.ld_unit_zero (S := S1024x2048) hz,
    View.ld_unit_zero (S := S2048x32) hz]

/-- The zero block at an entry. -/
theorem pay1_apply (j : S1024x32.Idx) : k2_pay1 (F := Ideal) j = 0 := by
  unfold k2_pay1
  exact Ideal.ofBits_zero_f32

/-- The body's arithmetic at an entry: the accumulator's entry plus the block product's (the format changes are the
    identity on the extended reals, the matrix unit's product into the zero array is the plain sum of products). -/
theorem pay2_apply (x0 : FVec Ideal S1024x2048 .bf16) (x1 : FVec Ideal S2048x32 .f32) (acc : FVec Ideal S1024x32 .f32)
    (a : Fin 1024) (b : Fin 32) :
    k2_pay2 (F := Ideal) x0 x1 acc (ix2 a b) = acc (ix2 a b) + ∑ k : Fin 2048, x0 (ix2 a k) * x1 (ix2 k b) := by
  unfold k2_pay2
  simp only [shapeCast_self]
  exact congrArg (acc (ix2 a b) + ·) (PlainMatmul.matmul_zero_apply none x0 (truncf .bf16 x1 bitsLt_bf16_f32) a b)

/-- The block indices of the three windows at point `t` = 4·(row block) + (contraction block). -/
theorem idx0 : ∀ t : Fin grid2.N, win2_0.index t 0 = t.val / 4 ∧ win2_0.index t 1 = t.val % 4 := by decide +kernel
theorem idx1 : ∀ t : Fin grid2.N, win2_1.index t 0 = t.val % 4 ∧ win2_1.index t 1 = 0 := by decide +kernel
theorem idx2 : ∀ t : Fin grid2.N, win2_2.index t 0 = t.val / 4 ∧ win2_2.index t 1 = 0 := by decide +kernel

section
variable (V : (c : Dev nD) → (b : Ref sig .tc) → Buf (Elt Ideal) ((c : Thread nD τ).loc b))

/-- The left factor (8192 × 8192) and the right factor (8192 × 32) as the region finds them. -/
abbrev Lm (c : Dev nD) : (⟨2, ![8192, 8192]⟩ : Shape).Idx → EReal := V c main_v1_1
abbrev Rm (c : Dev nD) : (⟨2, ![8192, 32]⟩ : Shape).Idx → EReal := V c main_v77

open Cert.BlockDot

/-- The two input windows' blocks at point `t`, as arrays of extended reals. -/
abbrev B0 (c : Dev nD) (t : Fin cfg2.N) : FVec Ideal S1024x2048 .bf16 := iblk2 V c 0 t
abbrev B1 (c : Dev nD) (t : Fin cfg2.N) : FVec Ideal S2048x32 .f32 := iblk2 V c 1 t

/-- The left window's block at point `t`: rows 1024·(t / 4) + r, columns 2048·(t % 4) + k of the left factor. -/
theorem iblk0_apply (c : Dev nD) (t : Fin cfg2.N) (r : Fin 1024) (k : Fin 2048) :
    B0 V c t (ix2 r k)
      = at2 (Lm V c) (1024 * (t.val / 4) + r.val) (2048 * (t.val % 4) + k.val) := by
  have hi := idx0 t
  unfold B0 iblk2
  rw [View.read_apply]
  show V c main_v1_1 _ = _
  refine (at2_of_val (Lm V c) _ ?_ ?_).symm
  · show win2_0.index t 0 * 1024 + 1 * r.val = _
    rw [hi.1]; omega
  · show win2_0.index t 1 * 2048 + 1 * k.val = _
    rw [hi.2]; omega

/-- The right window's block at point `t`: rows 2048·(t % 4) + k of the right factor, all 32 columns. -/
theorem iblk1_apply (c : Dev nD) (t : Fin cfg2.N) (k : Fin 2048) (b : Fin 32) :
    B1 V c t (ix2 k b)
      = at2 (Rm V c) (2048 * (t.val % 4) + k.val) b.val := by
  have hi := idx1 t
  unfold B1 iblk2
  rw [View.read_apply]
  show V c main_v77 _ = _
  refine (at2_of_val (Rm V c) _ ?_ ?_).symm
  · show win2_1.index t 0 * 2048 + 1 * k.val = _
    rw [hi.1]; omega
  · show win2_1.index t 1 * 32 + 1 * b.val = _
    rw [hi.2]; omega

/-- The product of point `t`'s two blocks at an entry is the chunk of the row-by-column product over the point's 2048
    positions of the contracted axis. -/
theorem chunk_eq (c : Dev nD) (t : Fin cfg2.N) (r : Fin 1024) (b : Fin 32) :
    ∑ k : Fin 2048, B0 V c t (ix2 r k) * B1 V c t (ix2 k b)
      = ∑ k ∈ Finset.range 2048, at2 (Lm V c) (1024 * (t.val / 4) + r.val) (2048 * (t.val % 4) + k)
          * at2 (Rm V c) (2048 * (t.val % 4) + k) b.val := by
  rw [← chunk_fin (Lm V c) (Rm V c) (1024 * (t.val / 4) + r.val) b.val (2048 * (t.val % 4)) 2048]
  exact Finset.sum_congr rfl fun k _ => by rw [iblk0_apply V c t r k, iblk1_apply V c t k b]

/-- One point's step: an accumulator holding the product over the positions before the point's chunk holds, after the
    body's arithmetic, the product over the positions through the chunk. -/
theorem step (c : Dev nD) (t : Fin cfg2.N) (prev : FVec Ideal S1024x32 .f32) (r : Fin 1024) (b : Fin 32)
    (hprev : prev (ix2 r b) = pdot (Lm V c) (Rm V c) (1024 * (t.val / 4) + r.val) b.val (2048 * (t.val % 4))) :
    k2_pay2 (F := Ideal) (B0 V c t) (B1 V c t) prev (ix2 r b)
      = pdot (Lm V c) (Rm V c) (1024 * (t.val / 4) + r.val) b.val (2048 * (t.val % 4 + 1)) := by
  rw [pay2_apply (B0 V c t) (B1 V c t) prev r b, hprev, chunk_eq V c t r b, Nat.mul_add, Nat.mul_one, pdot_add]

/-- After point `n` the output's staging buffer holds, at entry (r, b), row 1024·(n / 4) + r of the left factor against
    column b of the right one over the first 2048·(n % 4 + 1) positions: by induction on the point. -/
theorem outsAt_eq (c : Dev nD) : ∀ (n : ℕ) (h : n < cfg2.N) (r : Fin 1024) (b : Fin 32),
    outsAt2 V c n h (ix2 r b) = pdot (Lm V c) (Rm V c) (1024 * (n / 4) + r.val) b.val (2048 * (n % 4 + 1))
  | 0, h, r, b => by
    rw [outsAt2_A V c ⟨0, h⟩ rfl, out_A]
    exact step V c ⟨0, h⟩ (k2_pay1 (F := Ideal)) r b (by rw [pay1_apply]; exact (pdot_zero _ _ _ _).symm)
  | n + 1, h, r, b => by
    by_cases h0 : (n + 1) % 4 = 0
    · rw [outsAt2_A V c ⟨n + 1, h⟩ h0, out_A]
      refine step V c ⟨n + 1, h⟩ (k2_pay1 (F := Ideal)) r b ?_
      rw [pay1_apply]
      show 0 = pdot _ _ _ _ (2048 * ((n + 1) % 4))
      rw [h0]
      exact (pdot_zero _ _ _ _).symm
    · rw [outsAt2_B V c ⟨n + 1, h⟩ h0, out_B]
      refine step V c ⟨n + 1, h⟩ (outsAt2 V c n (Nat.lt_of_succ_lt h)) r b ?_
      rw [outsAt_eq c n (Nat.lt_of_succ_lt h) r b]
      show pdot _ _ (1024 * (n / 4) + r.val) _ (2048 * (n % 4 + 1)) = pdot _ _ (1024 * ((n + 1) / 4) + r.val) _ (2048 * ((n + 1) % 4))
      rw [show n / 4 = (n + 1) / 4 by omega, show n % 4 + 1 = (n + 1) % 4 by omega]

/-- The product array: entry (a, b) is row a of the left factor against column b of the right one over all 8192
    positions of the contracted axis. -/
def G (c : Dev nD) : (⟨2, ![8192, 32]⟩ : Shape).Idx → EReal :=
  fun i => pdot (Lm V c) (Rm V c) (i 0).val (i 1).val 8192

/-- At the last point of a row block (t % 4 = 3) the staging buffer's entry j is the product array's entry in row
    1024·(t / 4) + j₀, column j₁: all four chunks are in. -/
theorem outs_flush (c : Dev nD) (t : Fin cfg2.N) (h3 : t.val % 4 = 3) (j : S1024x32.Idx) (i : S8192x32.Idx)
    (h0 : (i 0).val = 1024 * (t.val / 4) + (j 0).val) (h1 : (i 1).val = (j 1).val) :
    outsAt2 V c t.val t.isLt j = G V c i := by
  obtain ⟨r, b, rfl⟩ : ∃ (r : Fin 1024) (b : Fin 32), j = ix2 r b := ⟨j 0, j 1, eq_ix2 j⟩
  rw [outsAt_eq V c t.val t.isLt r b, h3]
  unfold G
  rw [h0, h1]

/-- Every write-back writes its block of the product array. -/
theorem flushed_eq (c : Dev nD) (t : Fin cfg2.N) (hf : (cfg2.win 2).flush t = true) :
    (dat2 V c).flushed 2 t = ((cfg2.win 2).blk t).view.read (Elt Ideal) (G V c) := by
  have h3 : t.val % 4 = 3 := (flush2_2 t).mp hf
  have hi := idx2 t
  show (cfg2.win 2).cut (grid2.coords t) ((dat2 V c).after 2 t) = _
  rw [after2_2]
  funext y
  rw [View.read_apply]
  show outsAt2 V c t.val t.isLt _ = G V c _
  refine outs_flush V c t h3 _ _ ?_ ?_
  · show win2_2.index t 0 * 1024 + 1 * (y 0).val = _
    rw [hi.1]; show _ = 1024 * (t.val / 4) + (y 0).val; omega
  · show win2_2.index t 1 * 32 + 1 * (y 1).val = _
    rw [hi.2]; show _ = (y 1).val; omega

/-- The eight write-backs (points 4·q + 3) tile the result array by row blocks, so it ends holding the product array. -/
theorem final_o (c : Dev nD) : (dat2 V c).arrAt 2 cfg2.N = G V c :=
  (dat2 V c).arrAt_eq_of_cover 2 (G V c) (flushed_eq V c) fun i => by
    have hN : cfg2.N = 32 := N_2
    have hi0 : (i 0 : Nat) < 8192 := (i 0).isLt
    have hi1 : (i 1 : Nat) < 32 := (i 1).isLt
    have ht : 4 * ((i 0 : Nat) / 1024) + 3 < cfg2.N := by rw [hN]; omega
    have hi := idx2 ⟨4 * ((i 0 : Nat) / 1024) + 3, ht⟩
    refine ⟨⟨4 * ((i 0 : Nat) / 1024) + 3, ht⟩, (flush2_2 _).mpr (by show (4 * ((i 0 : Nat) / 1024) + 3) % 4 = 3; omega), ?_⟩
    show i ∈ ((View.whole main_v78).slice (win2_2.rect ⟨4 * ((i 0 : Nat) / 1024) + 3, ht⟩)).set
    rw [View.set_slice_whole, Rect.mem_set_unit]
    intro a
    match a with
    | ⟨0, _⟩ =>
      show win2_2.index ⟨4 * ((i 0 : Nat) / 1024) + 3, ht⟩ 0 * 1024 ≤ (i 0 : Nat)
        ∧ (i 0 : Nat) < win2_2.index ⟨4 * ((i 0 : Nat) / 1024) + 3, ht⟩ 0 * 1024 + 1024
      rw [hi.1]
      show (4 * ((i 0 : Nat) / 1024) + 3) / 4 * 1024 ≤ (i 0 : Nat) ∧ (i 0 : Nat) < (4 * ((i 0 : Nat) / 1024) + 3) / 4 * 1024 + 1024
      omega
    | ⟨1, _⟩ =>
      show win2_2.index ⟨4 * ((i 0 : Nat) / 1024) + 3, ht⟩ 1 * 32 ≤ (i 1 : Nat)
        ∧ (i 1 : Nat) < win2_2.index ⟨4 * ((i 0 : Nat) / 1024) + 3, ht⟩ 1 * 32 + 32
      rw [hi.2]
      omega

/-- The result array after the region, as an array of extended reals. -/
abbrev Res (c : Dev nD) : (⟨2, ![8192, 32]⟩ : Shape).Idx → EReal := (dat2 V c).arrAt 2 cfg2.N

/-- **Region 2's result**: the array the kernel leaves is the plain matrix product of the two arrays it was given. -/
theorem region2_result (c : Dev nD) (a : Fin 8192) (b : Fin 32) :
    Res V c (ix2 a b) = ∑ k : Fin 8192, Lm V c (ix2 a k) * Rm V c (ix2 k b) := by
  unfold Res
  rw [final_o V c]
  show ∑ k ∈ Finset.range 8192, at2 (Lm V c) a.val k * at2 (Rm V c) k b.val = _
  rw [← Fin.sum_univ_eq_sum_range (fun k => at2 (Lm V c) a.val k * at2 (Rm V c) k b.val) 8192]
  exact Finset.sum_congr rfl fun k _ => by
    rw [at2_of_val (Lm V c) (ix2 a k) rfl rfl, at2_of_val (Rm V c) (ix2 k b) rfl rfl]

end

end Cert.KernelIdeal.Region2

end
-- ==== Proof.Region3Cases.lean ====
/-
  The fused product kernel on 32-column blocks: what each of its three control cases leaves in the output block.

  The body runs on a grid of row blocks by contraction blocks, the contraction block last. At the first contraction
  block of a row block it zeroes the output block, then adds the product of the left block by the right block; at a
  middle one it only adds the product; at the last one it adds the product and then replaces the sum `s` by
  `2 · s − t₀`, `t₀` the block of the third operand. Each case's stores cover the output block, so what the block holds
  afterwards is the last store's payload, a term of the blocks read (the loads read whole buffers at zero offsets).
  The statements hold for any float values.
-/
import proofs.«167089_j23330262352454_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region3

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- Between the two ends of a run (kb ∈ {1, 2}) the body leaves, in the output block holding `xo`, `xo` plus the product
    of the two input blocks: its one store's payload, whose loads read the whole buffers. -/
theorem out_B (c : Dev nD) (i : grid3.Coords) (a0 : Memref sig .tc .vmem S1024x2048 .bf16) (h0 : a0.IsWhole) (a1 : Memref sig .tc .vmem S2048x32 .f32) (h1 : a1.IsWhole) (a2 : Memref sig .tc .vmem S1024x32 .f32) (h2 : a2.IsWhole) (a3 : Memref sig .tc .vmem S1024x32 .f32) (h3 : a3.IsWhole) (hc0 : ¬cond3_0 i) (hc1 : ¬cond3_1 i)
    (x0 : Vec F S1024x2048 .bf16) (x1 : Vec F S2048x32 .f32) (x2 : Vec F S1024x32 .f32) (xo : Vec F S1024x32 .f32) :
    out3_B_3 c i a0 h0 a1 h1 a2 h2 a3 h3 hc0 hc1 x0 x1 x2 xo = k3_pay2 x0 x1 xo := by
  unfold out3_B_3
  rw [View.read_writes_eq_canon _ _ _ (cover3_B_3 c i a0 h0 a1 h1 a2 h2 a3 h3 hc0 hc1 x0 x1 x2 xo)]
  unfold kernelRun3_B
  dsimp only
  rw [View.canon_unit_zero hz]
  simp only [View.readAt_eq_ld, h0.read_unread, h1.read_unread, h3.read_unread, View.ld_unit_zero (S := S1024x2048) hz,
    View.ld_unit_zero (S := S2048x32) hz, View.ld_unit_zero (S := S1024x32) hz]

/-- At the first point of a run the body stores the zero block, reads it back, and leaves the zero block plus the product
    of the two input blocks. -/
theorem out_A (c : Dev nD) (i : grid3.Coords) (a0 : Memref sig .tc .vmem S1024x2048 .bf16) (h0 : a0.IsWhole) (a1 : Memref sig .tc .vmem S2048x32 .f32) (h1 : a1.IsWhole) (a2 : Memref sig .tc .vmem S1024x32 .f32) (h2 : a2.IsWhole) (a3 : Memref sig .tc .vmem S1024x32 .f32) (h3 : a3.IsWhole) (hc0 : cond3_0 i) (hc1 : ¬cond3_1 i)
    (x0 : Vec F S1024x2048 .bf16) (x1 : Vec F S2048x32 .f32) (x2 : Vec F S1024x32 .f32) :
    out3_A_3 c i a0 h0 a1 h1 a2 h2 a3 h3 hc0 hc1 x0 x1 x2 = k3_pay2 x0 x1 (k3_pay1 (F := F)) := by
  unfold out3_A_3
  rw [View.read_writes_eq_canon _ _ _ (cover3_A_3 c i a0 h0 a1 h1 a2 h2 a3 h3 hc0 hc1 x0 x1 x2)]
  unfold kernelRun3_A
  dsimp only
  sl_unfold_words
  rw [View.canon_cons_unit_zero (S := S1024x32) hz, View.readCov_unit_zero (S := S1024x32) _ hz]
  simp only [View.readAt_eq_ld, h0.read_unread, h1.read_unread, View.ld_unit_zero (S := S1024x2048) hz,
    View.ld_unit_zero (S := S2048x32) hz]

/-- At the last point of a run the body first adds the product as at a middle point, reads the sum back, and leaves
    twice the sum minus the third input block. -/
theorem out_C (c : Dev nD) (i : grid3.Coords) (a0 : Memref sig .tc .vmem S1024x2048 .bf16) (h0 : a0.IsWhole) (a1 : Memref sig .tc .vmem S2048x32 .f32) (h1 : a1.IsWhole) (a2 : Memref sig .tc .vmem S1024x32 .f32) (h2 : a2.IsWhole) (a3 : Memref sig .tc .vmem S1024x32 .f32) (h3 : a3.IsWhole) (hc0 : ¬cond3_0 i) (hc1 : cond3_1 i)
    (x0 : Vec F S1024x2048 .bf16) (x1 : Vec F S2048x32 .f32) (x2 : Vec F S1024x32 .f32) (xo : Vec F S1024x32 .f32) :
    out3_C_3 c i a0 h0 a1 h1 a2 h2 a3 h3 hc0 hc1 x0 x1 x2 xo = k3_pay3 (k3_pay2 x0 x1 xo) x2 := by
  unfold out3_C_3
  rw [View.read_writes_eq_canon _ _ _ (cover3_C_3 c i a0 h0 a1 h1 a2 h2 a3 h3 hc0 hc1 x0 x1 x2 xo)]
  unfold kernelRun3_C
  dsimp only
  sl_unfold_words
  rw [View.canon_cons_unit_zero (S := S1024x32) hz, View.readCov_unit_zero (S := S1024x32) _ hz]
  simp only [View.readAt_eq_ld, h0.read_unread, h1.read_unread, h2.read_unread, h3.read_unread, View.ld_unit_zero (S := S1024x2048) hz,
    View.ld_unit_zero (S := S2048x32) hz, View.ld_unit_zero (S := S1024x32) hz]

end Cert.KernelIdeal.Region3
end
-- ==== Proof.Region3Blocks.lean ====
/-
  The fused product kernel on 32-column blocks: each input block at a grid point, as entries of its array.

  Grid point `t` (32 of them, the contraction block last) is row block `t / 4`, contraction block `t % 4`. The left operand
  (8192 × 8192) is cut into 1024 × 2048 blocks indexed (row block, contraction block); the right operand (8192 × 32) into
  2048 × 32 blocks indexed by the contraction block; the third operand and the result (8192 × 32) into 1024 × 32 blocks
  indexed by the row block. So entry (r, q) of a block is the array's entry at (block index × block size + coordinate), axis
  by axis. The statements hold for any float values and any contents of the arrays when the kernel starts.
-/
import proofs.«167089_j23330262352454_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable {F : FTy → Type} [FloatOps F]

variable (V : (c : Dev nD) → (b : Ref sig .tc) → Buf (Elt F) ((c : Thread nD τ).loc b))

/-- Point `t` of the grid is row block `t / 4`, contraction block `t % 4`; the four windows' block indices there. -/
theorem idx0 : ∀ t : Fin cfg3.N, win3_0.index t 0 = t.val / 4 ∧ win3_0.index t 1 = t.val % 4 :=
  (by decide +kernel : ∀ t : Fin grid3.N, win3_0.index t 0 = t.val / 4 ∧ win3_0.index t 1 = t.val % 4)
theorem idx1 : ∀ t : Fin cfg3.N, win3_1.index t 0 = t.val % 4 ∧ win3_1.index t 1 = 0 :=
  (by decide +kernel : ∀ t : Fin grid3.N, win3_1.index t 0 = t.val % 4 ∧ win3_1.index t 1 = 0)
theorem idx2 : ∀ t : Fin cfg3.N, win3_2.index t 0 = t.val / 4 ∧ win3_2.index t 1 = 0 :=
  (by decide +kernel : ∀ t : Fin grid3.N, win3_2.index t 0 = t.val / 4 ∧ win3_2.index t 1 = 0)
theorem idx3 : ∀ t : Fin cfg3.N, win3_3.index t 0 = t.val / 4 ∧ win3_3.index t 1 = 0 :=
  (by decide +kernel : ∀ t : Fin grid3.N, win3_3.index t 0 = t.val / 4 ∧ win3_3.index t 1 = 0)

/-- The left operand's block at point `t`: rows `1024·(t/4) + r`, columns `2048·(t%4) + q` of the 8192 × 8192 array. -/
theorem iblk0_apply (c : Dev nD) (t : Fin cfg3.N) (r : Fin 1024) (q : Fin 2048) (k : S8192x8192.Idx)
    (hk0 : (k 0).val = 1024 * (t.val / 4) + r.val) (hk1 : (k 1).val = 2048 * (t.val % 4) + q.val) :
    (iblk3 V c 0 t : Vec F S1024x2048 .bf16) (ix2 r q) = (V c main_v1_1 : S8192x8192.Idx → Elt F .bf16) k := by
  have hi := idx0 t
  unfold iblk3
  rw [View.read_apply]
  show V c main_v1_1 _ = V c main_v1_1 _
  refine congrArg (V c main_v1_1) ?_
  funext a
  apply Fin.ext
  match a with
  | ⟨0, _⟩ => show win3_0.index t 0 * 1024 + 1 * r.val = (k 0).val; rw [hi.1, hk0]; omega
  | ⟨1, _⟩ => show win3_0.index t 1 * 2048 + 1 * q.val = (k 1).val; rw [hi.2, hk1]; omega

/-- The right operand's block at point `t`: rows `2048·(t%4) + q` of the 8192 × 32 array. -/
theorem iblk1_apply (c : Dev nD) (t : Fin cfg3.N) (q : Fin 2048) (b : Fin 32) (k : S8192x32.Idx)
    (hk0 : (k 0).val = 2048 * (t.val % 4) + q.val) (hk1 : (k 1).val = b.val) :
    (iblk3 V c 1 t : Vec F S2048x32 .f32) (ix2 q b) = (V c main_v78 : S8192x32.Idx → Elt F .f32) k := by
  have hi := idx1 t
  unfold iblk3
  rw [View.read_apply]
  show V c main_v78 _ = V c main_v78 _
  refine congrArg (V c main_v78) ?_
  funext a
  apply Fin.ext
  match a with
  | ⟨0, _⟩ => show win3_1.index t 0 * 2048 + 1 * q.val = (k 0).val; rw [hi.1, hk0]; omega
  | ⟨1, _⟩ => show win3_1.index t 1 * 32 + 1 * b.val = (k 1).val; rw [hi.2, hk1]; omega

/-- The third operand's block at point `t`: rows `1024·(t/4) + r` of the 8192 × 32 array. -/
theorem iblk2_apply (c : Dev nD) (t : Fin cfg3.N) (r : Fin 1024) (b : Fin 32) (k : S8192x32.Idx)
    (hk0 : (k 0).val = 1024 * (t.val / 4) + r.val) (hk1 : (k 1).val = b.val) :
    (iblk3 V c 2 t : Vec F S1024x32 .f32) (ix2 r b) = (V c main_v77 : S8192x32.Idx → Elt F .f32) k := by
  have hi := idx2 t
  unfold iblk3
  rw [View.read_apply]
  show V c main_v77 _ = V c main_v77 _
  refine congrArg (V c main_v77) ?_
  funext a
  apply Fin.ext
  match a with
  | ⟨0, _⟩ => show win3_2.index t 0 * 1024 + 1 * r.val = (k 0).val; rw [hi.1, hk0]; omega
  | ⟨1, _⟩ => show win3_2.index t 1 * 32 + 1 * b.val = (k 1).val; rw [hi.2, hk1]; omega

end Cert.KernelIdeal.Region3
end
-- ==== Proof.Region3Step.lean ====
/-
  The fused product kernel on 32-column blocks: its arithmetic on the extended reals, at one entry of the output block.

  At the ideal values rounding to bf16 is the identity and the matrix unit's product into the zero block is a plain
  sum of products. So the accumulation step adds to entry (r, b) of the output block the sum over the 2048 positions
  q of the contraction block of `x₀[r, q] · x₁[q, b]`; the first step starts from the zero block; the last one then
  replaces the sum `s` by `2 · s − t₀[r, b]`. Rows, columns and contracted positions of the full arrays are natural
  numbers (block offset plus position in the block), so a step is "the next 2048 positions add their chunk" of the
  row-by-column product over an initial segment of the contracted axis. No finiteness is used: only that a finite sum
  over a range splits at a point, and `0 + x = x`. The factor 2 is kept as the literal's value, never evaluated, and
  never distributed over the sum.
-/
import proofs.«167089_j23330262352454_2_alg».proof.Proof.Gen.KernelIdeal.Skeleton
import proofs.«167089_j23330262352454_2_alg».proof.Proof.LibPlainMatmul
import proofs.«167089_j23330262352454_2_alg».proof.Proof.LibBlockDot
import Idealize.ShloMosaic.Lib.Pipeline.Value

noncomputable section

open scoped BigOperators
open Idealize.ShloMosaic Idealize.ShloMosaic.ValueIdx

namespace Cert.KernelIdeal.Region3

open Cert.KernelIdeal Cert.KernelIdeal.Gen Cert.BlockDot

/-- The literal 2.0 of the epilogue, as an extended real: the value of its f32 word, left unevaluated. -/
abbrev two : EReal := Ideal.ofBits .f32 0x40000000#32

/-- The zero block the first step stores, at an entry. -/
theorem pay1_apply (r : Fin 1024) (b : Fin 32) : k3_pay1 (F := Ideal) (ix2 r b) = 0 :=
  Ideal.ofBits_zero_f32

/-- The accumulation step at an entry: what the block held plus the sum of products over the contraction block. -/
theorem pay2_apply (x0 : FVec Ideal S1024x2048 .bf16) (x1 : FVec Ideal S2048x32 .f32) (xo : FVec Ideal S1024x32 .f32)
    (r : Fin 1024) (b : Fin 32) :
    k3_pay2 (F := Ideal) x0 x1 xo (ix2 r b) = xo (ix2 r b) + ∑ q : Fin 2048, x0 (ix2 r q) * x1 (ix2 q b) := by
  have hm := PlainMatmul.matmul_zero_apply (m := 1024) (k := 2048) (n := 32) none x0 x1 r b
  unfold k3_pay2
  simp only [shapeCast_self]
  exact congrArg (xo (ix2 r b) + ·) hm

/-- The epilogue at an entry: twice the sum minus the third operand's entry. -/
theorem pay3_apply (s t0 : FVec Ideal S1024x32 .f32) (r : Fin 1024) (b : Fin 32) :
    k3_pay3 (F := Ideal) s t0 (ix2 r b) = two * s (ix2 r b) - t0 (ix2 r b) := by
  unfold k3_pay3
  simp only [shapeCast_self]
  rfl

/-- ONE ACCUMULATION STEP on the running product: if the input blocks' entries are the arrays' entries at row `R`,
    column `b` and contracted positions `n, …, n + 2047`, and the block held the product over the first `n` positions,
    it now holds the product over the first `n + 2048`. -/
theorem step (X : S8192x8192.Idx → EReal) (W : S8192x32.Idx → EReal)
    (x0 : FVec Ideal S1024x2048 .bf16) (x1 : FVec Ideal S2048x32 .f32) (xo : FVec Ideal S1024x32 .f32)
    (R n : ℕ) (r : Fin 1024) (b : Fin 32)
    (hx0 : ∀ q : Fin 2048, x0 (ix2 r q) = at2 X R (n + q.val))
    (hx1 : ∀ q : Fin 2048, x1 (ix2 q b) = at2 W (n + q.val) b.val)
    (hxo : xo (ix2 r b) = pdot X W R b.val n) :
    k3_pay2 (F := Ideal) x0 x1 xo (ix2 r b) = pdot X W R b.val (n + 2048) := by
  rw [pay2_apply, hxo, pdot_add, ← chunk_fin]
  exact congrArg (pdot X W R b.val n + ·) (Finset.sum_congr rfl fun q _ => by rw [hx0 q, hx1 q])

/-- THE FIRST STEP of a run: from the zero block, the product over the first 2048 positions. -/
theorem step_first (X : S8192x8192.Idx → EReal) (W : S8192x32.Idx → EReal)
    (x0 : FVec Ideal S1024x2048 .bf16) (x1 : FVec Ideal S2048x32 .f32)
    (R : ℕ) (r : Fin 1024) (b : Fin 32)
    (hx0 : ∀ q : Fin 2048, x0 (ix2 r q) = at2 X R (0 + q.val))
    (hx1 : ∀ q : Fin 2048, x1 (ix2 q b) = at2 W (0 + q.val) b.val) :
    k3_pay2 (F := Ideal) x0 x1 (k3_pay1 (F := Ideal)) (ix2 r b) = pdot X W R b.val (0 + 2048) :=
  step X W x0 x1 (k3_pay1 (F := Ideal)) R 0 r b hx0 hx1 ((pay1_apply r b).trans (pdot_zero X W R b.val).symm)

/-- THE LAST STEP of a run: the accumulation step, then twice the sum minus the third operand's entry. -/
theorem step_last (X : S8192x8192.Idx → EReal) (W : S8192x32.Idx → EReal)
    (x0 : FVec Ideal S1024x2048 .bf16) (x1 : FVec Ideal S2048x32 .f32) (x2 xo : FVec Ideal S1024x32 .f32)
    (R n : ℕ) (r : Fin 1024) (b : Fin 32)
    (hx0 : ∀ q : Fin 2048, x0 (ix2 r q) = at2 X R (n + q.val))
    (hx1 : ∀ q : Fin 2048, x1 (ix2 q b) = at2 W (n + q.val) b.val)
    (hxo : xo (ix2 r b) = pdot X W R b.val n) :
    k3_pay3 (F := Ideal) (k3_pay2 (F := Ideal) x0 x1 xo) x2 (ix2 r b) = two * pdot X W R b.val (n + 2048) - x2 (ix2 r b) := by
  rw [pay3_apply, step X W x0 x1 xo R n r b hx0 hx1 hxo]

end Cert.KernelIdeal.Region3
end
-- ==== Proof.Region3.lean ====
/-
  The fused product kernel on 32-column blocks: its result array at the ideal values.

  The kernel multiplies an 8192 × 8192 left operand `L` by an 8192 × 32 right operand, 1024 rows and 2048 contracted
  positions at a time: grid point `t` (32 of them) is row block `t / 4`, contraction block `t % 4`, the contraction block
  last, and the 1024 × 32 output block stays in place through the four points of its row block. It is zeroed at the first,
  gains the block product at each, and at the fourth is replaced by `2 · s − t₀` of the sum `s` and the third operand's
  block `t₀`, then written back. Over the extended reals the four block products add up to the whole row-by-column
  product: after point `n` the block holds the product over the first `2048·(n % 4 + 1)` contracted positions (`held`,
  by induction on the point), so each write-back writes its block of one array (`result`), the eight write-backs' blocks
  cover it, and the result array ends holding, at (a, b), `2 · (∑ₖ L[a, k] · rhs[k, b]) − t₀[a, b]`. The sum needs no
  finiteness: only that a finite sum over a range splits at a point, and `0 + x = x`. The factor 2 is the value of the
  literal's f32 word, never evaluated and never distributed over the sum. The contents of the arrays when the kernel
  starts are arbitrary.
-/
import proofs.«167089_j23330262352454_2_alg».proof.Proof.Region3Cases
import proofs.«167089_j23330262352454_2_alg».proof.Proof.Region3Blocks
import proofs.«167089_j23330262352454_2_alg».proof.Proof.Region3Step

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.BlockDot

variable (V : (c : Dev nD) → (b : Ref sig .tc) → Buf (Elt Ideal) ((c : Thread nD τ).loc b))

/-- The three operands as the kernel finds them, as arrays of extended reals. -/
abbrev X (c : Dev nD) : S8192x8192.Idx → EReal := V c main_v1_1
abbrev W (c : Dev nD) : S8192x32.Idx → EReal := V c main_v78
abbrev T (c : Dev nD) : S8192x32.Idx → EReal := V c main_v77

theorem lt32 (t : Fin cfg3.N) : t.val < 32 := lt_of_lt_of_eq t.isLt (show cfg3.N = 32 from N_3)

/-- The left block's entry (r, q) at point `t` is the left operand's entry at row `1024·(t/4) + r`, column `2048·(t%4) + q`. -/
theorem x0_at (c : Dev nD) (t : Fin cfg3.N) (r : Fin 1024) (q : Fin 2048) :
    (iblk3 V c 0 t : Vec Ideal S1024x2048 .bf16) (ix2 r q)
      = at2 (X V c) (1024 * (t.val / 4) + r.val) (2048 * (t.val % 4) + q.val) := by
  have hN := lt32 t
  have hR : 1024 * (t.val / 4) + r.val < 8192 := by omega
  have hK : 2048 * (t.val % 4) + q.val < 8192 := by omega
  rw [iblk0_apply V c t r q (ix2 ⟨_, hR⟩ ⟨_, hK⟩) rfl rfl]
  exact (at2_of_val (X V c) _ rfl rfl).symm

/-- The right block's entry (q, b) at point `t` is the right operand's entry at row `2048·(t%4) + q`, column `b`. -/
theorem x1_at (c : Dev nD) (t : Fin cfg3.N) (q : Fin 2048) (b : Fin 32) :
    (iblk3 V c 1 t : Vec Ideal S2048x32 .f32) (ix2 q b) = at2 (W V c) (2048 * (t.val % 4) + q.val) b.val := by
  have hN := lt32 t
  have hK : 2048 * (t.val % 4) + q.val < 8192 := by omega
  rw [iblk1_apply V c t q b (ix2 ⟨_, hK⟩ b) rfl rfl]
  exact (at2_of_val (W V c) _ rfl rfl).symm

/-- The third block's entry (r, b) at point `t` is the third operand's entry at row `1024·(t/4) + r`, column `b`. -/
theorem x2_at (c : Dev nD) (t : Fin cfg3.N) (r : Fin 1024) (b : Fin 32) :
    (iblk3 V c 2 t : Vec Ideal S1024x32 .f32) (ix2 r b) = at2 (T V c) (1024 * (t.val / 4) + r.val) b.val := by
  have hN := lt32 t
  have hR : 1024 * (t.val / 4) + r.val < 8192 := by omega
  rw [iblk2_apply V c t r b (ix2 ⟨_, hR⟩ b) rfl rfl]
  exact (at2_of_val (T V c) _ rfl rfl).symm

/-- WHAT THE OUTPUT BLOCK HOLDS after point `n`, at entry (r, b): before the last point of its run of four, the product of
    row `1024·(n/4) + r` by column `b` over the first `2048·(n%4 + 1)` contracted positions; after the last point, twice
    the whole product minus the third operand's entry. -/
def held (c : Dev nD) (n r b : ℕ) : EReal :=
  if n % 4 = 3 then two * pdot (X V c) (W V c) (1024 * (n / 4) + r) b 8192 - at2 (T V c) (1024 * (n / 4) + r) b
  else pdot (X V c) (W V c) (1024 * (n / 4) + r) b (2048 * (n % 4 + 1))

/-- A first point of a run. -/
theorem point_A (c : Dev nD) (t : Fin cfg3.N) (h0 : t.val % 4 = 0) (r : Fin 1024) (b : Fin 32) :
    (outsAt3 V c t.val t.isLt : Vec Ideal S1024x32 .f32) (ix2 r b) = held V c t.val r.val b.val := by
  have h1 : ¬t.val % 4 = 3 := by omega
  rw [outsAt3_A V c t h0 h1, out_A]
  unfold held
  rw [if_neg h1]
  have e1 : 2048 * (t.val % 4 + 1) = 0 + 2048 := by omega
  have e0 : ∀ q : ℕ, 2048 * (t.val % 4) + q = 0 + q := fun q => by omega
  rw [e1]
  exact step_first (X V c) (W V c) (iblk3 V c 0 t) (iblk3 V c 1 t) (1024 * (t.val / 4) + r.val) r b
    (fun q => (x0_at V c t r q).trans (by rw [e0]))
    (fun q => (x1_at V c t q b).trans (by rw [e0]))

/-- A middle point of a run, over what the point before left. -/
theorem point_B (c : Dev nD) (t : Fin cfg3.N) (h0 : ¬t.val % 4 = 0) (h1 : ¬t.val % 4 = 3) (r : Fin 1024) (b : Fin 32)
    (ih : (outsAt3 V c (t.val - 1) (Nat.lt_of_le_of_lt (Nat.sub_le _ _) t.isLt) : Vec Ideal S1024x32 .f32) (ix2 r b)
      = held V c (t.val - 1) r.val b.val) :
    (outsAt3 V c t.val t.isLt : Vec Ideal S1024x32 .f32) (ix2 r b) = held V c t.val r.val b.val := by
  rw [outsAt3_B V c t h0 h1, out_B]
  unfold held
  rw [if_neg h1]
  have e1 : 2048 * (t.val % 4 + 1) = 2048 * (t.val % 4) + 2048 := by omega
  rw [e1]
  refine step (X V c) (W V c) (iblk3 V c 0 t) (iblk3 V c 1 t) _ (1024 * (t.val / 4) + r.val) (2048 * (t.val % 4)) r b
    (fun q => x0_at V c t r q) (fun q => x1_at V c t q b) ?_
  rw [ih]
  unfold held
  have e2 : (t.val - 1) / 4 = t.val / 4 := by omega
  have e3 : 2048 * ((t.val - 1) % 4 + 1) = 2048 * (t.val % 4) := by omega
  rw [if_neg (by omega), e2, e3]

/-- A last point of a run, over what the point before left. -/
theorem point_C (c : Dev nD) (t : Fin cfg3.N) (h0 : ¬t.val % 4 = 0) (h1 : t.val % 4 = 3) (r : Fin 1024) (b : Fin 32)
    (ih : (outsAt3 V c (t.val - 1) (Nat.lt_of_le_of_lt (Nat.sub_le _ _) t.isLt) : Vec Ideal S1024x32 .f32) (ix2 r b)
      = held V c (t.val - 1) r.val b.val) :
    (outsAt3 V c t.val t.isLt : Vec Ideal S1024x32 .f32) (ix2 r b) = held V c t.val r.val b.val := by
  rw [outsAt3_C V c t h0 h1, out_C]
  unfold held
  rw [if_pos h1]
  have e1 : 2048 * (t.val % 4) + 2048 = 8192 := by omega
  refine (step_last (X V c) (W V c) (iblk3 V c 0 t) (iblk3 V c 1 t) (iblk3 V c 2 t) _ (1024 * (t.val / 4) + r.val) (2048 * (t.val % 4)) r b
    (fun q => x0_at V c t r q) (fun q => x1_at V c t q b) ?_).trans ?_
  · rw [ih]
    unfold held
    have e2 : (t.val - 1) / 4 = t.val / 4 := by omega
    have e3 : 2048 * ((t.val - 1) % 4 + 1) = 2048 * (t.val % 4) := by omega
    rw [if_neg (by omega), e2, e3]
  · rw [x2_at V c t r b]
    exact congrArg (fun n => two * pdot (X V c) (W V c) (1024 * (t.val / 4) + r.val) b.val n
      - at2 (T V c) (1024 * (t.val / 4) + r.val) b.val) e1

/-- So after every point the output block holds `held`: by induction on the point, never enumerating the grid. -/
theorem outsAt_eq (c : Dev nD) : ∀ (n : ℕ) (h : n < cfg3.N) (r : Fin 1024) (b : Fin 32),
    (outsAt3 V c n h : Vec Ideal S1024x32 .f32) (ix2 r b) = held V c n r.val b.val
  | 0, h, r, b => point_A V c ⟨0, h⟩ rfl r b
  | n + 1, h, r, b => by
    by_cases h0 : (n + 1) % 4 = 0
    · exact point_A V c ⟨n + 1, h⟩ h0 r b
    · by_cases h1 : (n + 1) % 4 = 3
      · exact point_C V c ⟨n + 1, h⟩ h0 h1 r b (outsAt_eq c n (Nat.lt_of_succ_lt h) r b)
      · exact point_B V c ⟨n + 1, h⟩ h0 h1 r b (outsAt_eq c n (Nat.lt_of_succ_lt h) r b)

/-- THE RESULT ARRAY: at (a, b), twice the product of row `a` of the left operand by column `b` of the right one over all
    8192 contracted positions, minus the third operand's entry. -/
def result (c : Dev nD) : S8192x32.Idx → EReal := fun j =>
  two * pdot (X V c) (W V c) (j 0).val (j 1).val 8192 - at2 (T V c) (j 0).val (j 1).val

theorem result_of_val (c : Dev nD) (j : S8192x32.Idx) (R B : ℕ) (h0 : (j 0).val = R) (h1 : (j 1).val = B) :
    result V c j = two * pdot (X V c) (W V c) R B 8192 - at2 (T V c) R B := by
  subst h0 h1; rfl

/-- Each write-back (at the last point of a run) writes its block of the result array. -/
theorem flushed_eq (c : Dev nD) (t : Fin cfg3.N) (hf : (cfg3.win 3).flush t = true) :
    (dat3 V c).flushed 3 t = ((cfg3.win 3).blk t).view.read (Elt Ideal) (result V c) := by
  have h3 : t.val % 4 = 3 := (flush3_3 t).mp hf
  have hi := idx3 t
  show (cfg3.win 3).cut (grid3.coords t) ((dat3 V c).after 3 t) = _
  rw [after3_3]
  funext y
  obtain ⟨r, b, rfl⟩ : ∃ (r : Fin 1024) (b : Fin 32), y = ix2 r b := ⟨y 0, y 1, eq_ix2 y⟩
  rw [View.read_apply]
  show (outsAt3 V c t.val t.isLt : Vec Ideal S1024x32 .f32) (ix2 r b) = result V c (((cfg3.win 3).blk t).view.emb (ix2 r b))
  rw [outsAt_eq V c t.val t.isLt r b]
  unfold held
  rw [if_pos h3]
  refine (result_of_val V c _ _ _ ?_ ?_).symm
  · show win3_3.index t 0 * 1024 + 1 * r.val = _; rw [hi.1]; omega
  · show win3_3.index t 1 * 32 + 1 * b.val = _; rw [hi.2]; omega

/-- Every entry of the result array lies in the block some write-back writes: row `a` in row block `a / 1024`, written
    at point `4·(a / 1024) + 3`. -/
theorem cover (i : S8192x32.Idx) :
    ∃ t : Fin cfg3.N, (cfg3.win 3).flush t = true ∧ i ∈ ((cfg3.win 3).blk t).view.set := by
  have hN : cfg3.N = 32 := N_3
  have h0 : (i 0).val < 8192 := (i 0).isLt
  have h1 : (i 1).val < 32 := (i 1).isLt
  have ht : 4 * ((i 0).val / 1024) + 3 < cfg3.N := by rw [hN]; omega
  refine ⟨⟨4 * ((i 0).val / 1024) + 3, ht⟩, (flush3_3 _).mpr (by dsimp only; omega), ?_⟩
  have hi := idx3 ⟨4 * ((i 0).val / 1024) + 3, ht⟩
  show i ∈ ((View.whole main_v79).slice (win3_3.rect ⟨4 * ((i 0).val / 1024) + 3, ht⟩)).set
  rw [View.set_slice_whole, Rect.mem_set_unit]
  intro a
  match a with
  | ⟨0, _⟩ =>
    show win3_3.index ⟨4 * ((i 0).val / 1024) + 3, ht⟩ 0 * 1024 ≤ (i 0).val
      ∧ (i 0).val < win3_3.index ⟨4 * ((i 0).val / 1024) + 3, ht⟩ 0 * 1024 + 1024
    rw [hi.1]; dsimp only; omega
  | ⟨1, _⟩ =>
    show win3_3.index ⟨4 * ((i 0).val / 1024) + 3, ht⟩ 1 * 32 ≤ (i 1).val
      ∧ (i 1).val < win3_3.index ⟨4 * ((i 0).val / 1024) + 3, ht⟩ 1 * 32 + 32
    rw [hi.2]; omega

/-- So the result array ends holding `result`. -/
theorem final_arr (c : Dev nD) : (dat3 V c).arrAt 3 cfg3.N = result V c :=
  (dat3 V c).arrAt_eq_of_cover 3 (result V c) (flushed_eq V c) cover

/-- The whole product over the first 8192 positions is the sum over the contracted axis. -/
theorem pdot_full (Xa : S8192x8192.Idx → EReal) (Wa : S8192x32.Idx → EReal) (a : Fin 8192) (b : Fin 32) :
    pdot Xa Wa a.val b.val 8192 = ∑ k : Fin 8192, Xa (ix2 a k) * Wa (ix2 k b) := by
  unfold pdot
  rw [← Fin.sum_univ_eq_sum_range (fun k => at2 Xa a.val k * at2 Wa k b.val) 8192]
  exact Finset.sum_congr rfl fun k _ => by
    rw [at2_of_val Xa (ix2 a k) rfl rfl, at2_of_val Wa (ix2 k b) rfl rfl]

/-- THE REGION'S VALUE: for any contents of the arrays when the kernel starts, its result array ends holding, at (a, b),
    `2 · (∑ₖ L[a, k] · rhs[k, b]) − t₀[a, b]` over the extended reals (`X`, `W`, `T` are the three operands' entry contents
    read as arrays of extended reals; `two` is the value of the literal's f32 word). -/
theorem region3_value (c : Dev nD) (a : Fin 8192) (b : Fin 32) :
    ((dat3 V c).arrAt 3 cfg3.N : S8192x32.Idx → EReal) (ix2 a b)
      = two * (∑ k : Fin 8192, X V c (ix2 a k) * W V c (ix2 k b)) - T V c (ix2 a b) := by
  rw [final_arr V c, result_of_val V c (ix2 a b) a.val b.val rfl rfl, pdot_full, at2_of_val (T V c) (ix2 a b) rfl rfl]

end Cert.KernelIdeal.Region3
end
-- ==== Proof.Regions.lean ====
/-
  What the four regions leave, entry by entry, at the contents each is entered with.

  Each region's array is a matrix product of the operator (or its copy) with the array the region is given, read
  at the boundary contents of the run: the first region is entered with L and the pair [X | H]; the second with the
  first's two results and the pair; the third with the copy of L and the reset state; the fourth with the copy, the
  third's result and the reset state. An input array of a region passes the region unchanged, so the copy of L that
  the later regions read is the one the first region wrote.
-/
import proofs.«167089_j23330262352454_2_alg».proof.Proof.KernelValue
import proofs.«167089_j23330262352454_2_alg».proof.Proof.Region0
import proofs.«167089_j23330262352454_2_alg».proof.Proof.Region1
import proofs.«167089_j23330262352454_2_alg».proof.Proof.Region2
import proofs.«167089_j23330262352454_2_alg».proof.Proof.Region3

set_option maxRecDepth 16384

noncomputable section

namespace Cert.KernelIdeal.CellValue

open Cert.KernelIdeal Cert.KernelIdeal.Gen Cert.KernelIdeal.Tail
open Idealize.ShloMosaic Idealize.ShloMosaic.TcCoe Idealize.SL.Sem Idealize.ShloMosaic.ValueIdx

variable (m : (ℓ : Loc nD τ sig) → Buf (Elt Ideal) ℓ) (ρ : Dev nD → PrngReg)

theorem regionFacts (c : Dev nD) : RegionFacts m ρ c where
  first := fun a j => by
    have h := Cert.KernelIdeal.Region0.region0_result (V1 m ρ) c a j
    have eL : Cert.KernelIdeal.Region0.Lm (V1 m ρ) c = aL m c := W1_arg1 m ρ c
    have eR : Cert.KernelIdeal.Region0.Rm (V1 m ρ) c = Cert.Gru.join (aX m c) (aH m c) := W1_v0 m ρ c
    rw [eL, eR] at h
    exact (congrFun (W2_v1_0 m ρ c) (ix2 a j)).trans h
  copy := fun i =>
    congrFun ((W2_v1_1 m ρ c).trans ((Cert.KernelIdeal.Region0.final_3 (V1 m ρ) c).trans (W1_arg1 m ρ c))) i
  second := fun a j => by
    have h := Cert.KernelIdeal.Region1.region1_value (V2 m ρ) c a j
    have eT : Cert.KernelIdeal.Region1.T (V2 m ρ) c = Cert.Gru.join (aX m c) (aH m c) := (W2_v0 m ρ c).trans (W1_v0 m ρ c)
    rw [eT] at h
    exact (congrFun (W3_v2 m ρ c) (ix2 a j)).trans h
  third := fun a b => by
    have h := Cert.KernelIdeal.Region2.region2_result (V4 m ρ) c a b
    have eL : Cert.KernelIdeal.Region2.Lm (V4 m ρ) c = Lc m ρ c := (W4_v1_1 m ρ c).trans (W3_v1_1 m ρ c)
    rw [eL] at h
    exact (congrFun (W5_v78 m ρ c) (ix2 a b)).trans h
  fourth := fun a b => by
    have h := Cert.KernelIdeal.Region3.region3_value (V5 m ρ) c a b
    have eL : Cert.KernelIdeal.Region3.X (V5 m ρ) c = Lc m ρ c :=
      (W5_v1_1 m ρ c).trans ((W4_v1_1 m ρ c).trans (W3_v1_1 m ρ c))
    have eT : Cert.KernelIdeal.Region3.T (V5 m ρ) c = Gs m ρ c := W5_v77 m ρ c
    rw [eL, eT] at h
    exact (congrFun (W6_v79 m ρ c) (ix2 a b)).trans h

end Cert.KernelIdeal.CellValue

end
-- ==== Proof.ReferenceRun.lean ====
/-
  The idealized reference's result is the cell's composition of its arguments.

  The reference's @main computes each convolution's basis arrays by the host's matrix product with L, contracts them
  with the weight slices, and combines the gates: operation by operation the composition `Cert.Gru.cell`, read off
  its run's composed term by unfolding.
-/
import proofs.«167089_j23330262352454_2_alg».proof.Proof.Gen.ReferenceIdeal.Run
import proofs.«167089_j23330262352454_2_alg».proof.Proof.GruSpec

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

variable {F : FTy → Type} [FloatOps F]

/-- The run's composed term is the cell of the argument arrays. -/
theorem res_eq (m : (ℓ : Loc nD τ sig) → Buf (Elt F) ℓ) (c : Dev nD) :
    res_main_v135 m c = Cert.Gru.cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold res_main_v135 Cert.Gru.cell Cert.Gru.blend Cert.Gru.cand Cert.Gru.gate Cert.Gru.logistic Cert.Gru.conv Cert.Gru.cheb2
    Cert.Gru.mulL Cert.Gru.mulW Cert.Gru.bias Cert.Gru.one Cert.Gru.two Cert.Gru.w0 Cert.Gru.w1 Cert.Gru.w2
  rfl

end Cert.ReferenceIdeal.RefValue

end
-- ==== Proof.lean ====
/-
  The certificate: a gated recurrent cell over Chebyshev graph convolutions, kernel against reference.

  The kernel computes the Chebyshev bases with four tiled matrix products by the 8192×8192 operator L (the signals
  X and H side by side in the first two, the reset state H ⊙ R in the last two), each accumulated over four blocks of
  the contracted axis in the resident output block, the doubling-and-subtracting step fused into the last block, and
  leaves the 32×32 weight contractions, the gates and the blend to host operations; the reference computes every
  basis array by the host's product with L. On the extended reals both results are one composition of array
  operations of the arguments (`Cert.Gru.cell`): the kernel's because each region's array is the plain product
  (a sum over the 8192 nodes taken in four consecutive chunks is the sum; a column of [X | H] is a column of X or of
  H; the copy of L in another format is L), the reference's by unfolding. The law that joins the two sides is the
  splitting of a finite sum over a range at a point, which holds in any commutative monoid: the precondition is
  never opened. The ideal pass rewrote nothing, so the kernel's idealization is the program's own text.
-/
import proofs.«167089_j23330262352454_2_alg».proof.Defs
import proofs.«167089_j23330262352454_2_alg».proof.Proof.Gen.Kernel
import proofs.«167089_j23330262352454_2_alg».proof.Proof.Gen.Kernel.Frame
import proofs.«167089_j23330262352454_2_alg».proof.Proof.Gen.KernelIdeal
import proofs.«167089_j23330262352454_2_alg».proof.Proof.Gen.KernelIdeal.Frame
import proofs.«167089_j23330262352454_2_alg».proof.Proof.Gen.ReferenceIdeal
import proofs.«167089_j23330262352454_2_alg».proof.Proof.Gen.Pre_finite_inputs
import proofs.«167089_j23330262352454_2_alg».proof.Proof.KernelRun
import proofs.«167089_j23330262352454_2_alg».proof.Proof.Regions
import proofs.«167089_j23330262352454_2_alg».proof.Proof.ReferenceRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the cell of arguments that agree. -/
theorem algebraic : Cert.algebraic_KernelIdeal_ReferenceIdeal := by
  intro m ρ m' ρ' _ hagree
  refine ⟨fun c => Cert.KernelIdeal.Gen.W7 m ρ c (Proc.devRef .tc Cert.KernelIdeal.main_v114), Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.RefValue.res_eq, h0, h1, h2, h3, h4, h5, h6, h7, h8, h9, h10, h11, h12, h13, h14]
  exact (Cert.KernelIdeal.CellValue.out_eq m ρ (Cert.KernelIdeal.CellValue.regionFacts m ρ c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
